-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S8192 : Shape := ⟨1, ![8192]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel

variable [Facts]

def fn {F : FTy → Type} [FloatOps F] (main_arg0 : FVec F S8192x512 .f32) (main_arg1 : IVec S8192 32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  main_v3
-- ==== Kernel.lean ====
abbrev S8192x512 : Shape := ⟨2, ![8192, 512]⟩
abbrev S8192 : Shape := ⟨1, ![8192]⟩
abbrev S_ : Shape := ⟨0, ![]⟩
abbrev S8192x1 : Shape := ⟨2, ![8192, 1]⟩
abbrev S1x8192 : Shape := ⟨2, ![1, 8192]⟩
abbrev S16x1x128 : Shape := ⟨3, ![16, 1, 128]⟩
abbrev S512x512 : Shape := ⟨2, ![512, 512]⟩
abbrev S512x1 : Shape := ⟨2, ![512, 1]⟩
abbrev S1x2048 : Shape := ⟨2, ![1, 2048]⟩
abbrev S1x1x128 : Shape := ⟨3, ![1, 1, 128]⟩
abbrev S2048x512 : Shape := ⟨2, ![2048, 512]⟩
abbrev S512x2048 : Shape := ⟨2, ![512, 2048]⟩
abbrev S512 : Shape := ⟨1, ![512]⟩
abbrev S1 : Shape := ⟨1, ![1]⟩
abbrev S1x1 : Shape := ⟨2, ![1, 1]⟩
abbrev S1x1x1 : Shape := ⟨3, ![1, 1, 1]⟩

abbrev nBuf : Space → Nat
  | .hbm => 15
  | .vmem => 14
  | .smem => 0
  | _ => 0

abbrev bufTy : (tb : Table) → Fin (tcTables nBuf tb) → BufTy
  | .hbm, ⟨0, _⟩ => ⟨S8192x512, .f32⟩
  | .hbm, ⟨1, _⟩ => ⟨S8192, .i32⟩
  | .hbm, ⟨2, _⟩ => ⟨S8192x512, .bf16⟩
  | .hbm, ⟨3, _⟩ => ⟨S8192x512, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S1x8192, .f32⟩
  | .hbm, ⟨8, _⟩ => ⟨S8192x1, .i32⟩
  | .hbm, ⟨9, _⟩ => ⟨S1x8192, .i32⟩
  | .hbm, ⟨10, _⟩ => ⟨S16x1x128, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .local _ .vmem, ⟨0, _⟩ => ⟨S512x512, .bf16⟩
  | .local _ .vmem, ⟨1, _⟩ => ⟨S512x512, .bf16⟩
  | .local _ .vmem, ⟨2, _⟩ => ⟨S8192x512, .bf16⟩
  | .local _ .vmem, ⟨3, _⟩ => ⟨S512x1, .f32⟩
  | .local _ .vmem, ⟨4, _⟩ => ⟨S512x1, .f32⟩
  | .local _ .vmem, ⟨5, _⟩ => ⟨S1x2048, .f32⟩
  | .local _ .vmem, ⟨6, _⟩ => ⟨S1x2048, .f32⟩
  | .local _ .vmem, ⟨7, _⟩ => ⟨S512x1, .i32⟩
  | .local _ .vmem, ⟨8, _⟩ => ⟨S512x1, .i32⟩
  | .local _ .vmem, ⟨9, _⟩ => ⟨S1x2048, .i32⟩
  | .local _ .vmem, ⟨10, _⟩ => ⟨S1x2048, .i32⟩
  | .local _ .vmem, ⟨11, _⟩ => ⟨S1x1x128, .f32⟩
  | .local _ .vmem, ⟨12, _⟩ => ⟨S1x1x128, .f32⟩
  | .local _ .vmem, ⟨13, _⟩ => ⟨S512x1, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![16, 4], ![false, false]⟩

def k0_mult1 (i : grid0.Coords) : BitVec 32 :=
  let arg1 : BitVec 32 := BitVec.ofNat 32 (i 1).val
  let c2048_i32 : BitVec 32 := 2048#32
  let v5 : BitVec 32 := Scalar.muli arg1 c2048_i32
  v5
def k0_off1 (i : grid0.Coords) : Fin 2 → Nat :=
  let arg1 : BitVec 32 := BitVec.ofNat 32 (i 1).val
  let c2048_i32 : BitVec 32 := 2048#32
  let v5 : BitVec 32 := Scalar.muli arg1 c2048_i32
  let v6 : BitVec 32 := v5
  let v7 : Index := Scalar.indexCast v6
  let c0_2 : Index := 0#32
  ![v7.toNat, 0]
def k0_cond2 (i : grid0.Coords) : BitVec 1 :=
  let arg1 : BitVec 32 := BitVec.ofNat 32 (i 1).val
  let c3_i32 : BitVec 32 := 3#32
  let v55 : BitVec 1 := Scalar.cmpi .eq arg1 c3_i32
  let v56 : BitVec 32 := Scalar.extui v55
  let c0_i32_22 : BitVec 32 := 0#32
  let v57 : BitVec 1 := Scalar.cmpi .ne v56 c0_i32_22
  v57

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S8192x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x1 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x2048 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

class Facts₀ : Prop where
  bitsLt_bf16_f32 : FTy.bits .bf16 < FTy.bits .f32
  reducesTo_S8192x512_S8192_d1 : S8192x512.ReducesTo [1] S8192
  h_S_ : 0 < S_.numel
  shapeCasts_S8192_S8192x1 : S8192.ShapeCasts S8192x1
  shapeCasts_S8192_S1x8192 : S8192.ShapeCasts S1x8192
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x512_S512x512_0_0 : ∀ a, (![0, 0] : Fin 2 → Nat) a + S512x512.size a ≤ S512x512.size a
  h_S512x512 : 0 < S512x512.numel
  shapeCasts_S512x512_S512x512 : S512x512.ShapeCasts S512x512
  h_S2048x512 : 0 < S2048x512.numel
  shapeCasts_S2048x512_S2048x512 : S2048x512.ShapeCasts S2048x512
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S512x1_S512x2048 : S512x1.Broadcasts S512x2048
  broadcasts_S1x2048_S512x2048 : S1x2048.Broadcasts S512x2048
  iota_S512x2048_d0_w32 : S512x2048.Iotas .tc 32 [0]
  iota_S512x2048_d1_w32 : S512x2048.Iotas .tc 32 [1]
  reduces_S512x2048_S512 : S512x2048.Reduces [1] S512
  shapeCasts_S512_S512x1 : S512.ShapeCasts S512x1
  reduces_S512x1_S1 : S512x1.Reduces [0] S1
  shapeCasts_S1_S1x1 : S1.ShapeCasts S1x1
  iota_S1x1x128_d2_w32 : S1x1x128.Iotas .tc 32 [2]
  shapeCasts_S1x1_S1x1x1 : S1x1.ShapeCasts S1x1x1
  broadcasts_S1x1x1_S1x1x128 : S1x1x1.Broadcasts S1x1x128
  inb_S1x1x128_S1x1x128_0_0_0 : ∀ a, (![0, 0, 0] : Fin 3 → Nat) a + S1x1x128.size a ≤ S1x1x128.size a
  h_S1x1x128 : 0 < S1x1x128.numel
  reducesTo_S16x1x128_S_d0_1_2 : S16x1x128.ReducesTo [0, 1, 2] S_
  dot_S512x512_S2048x512_S512x2048_1_1_0_0_n_n_wf : DotDims.WF S512x512 S2048x512 S512x2048 [1] [1] [0] [0] [] []
  hrank0 : 0 < grid0.rank
  k0_mult1_dvd : ∀ i : grid0.Coords, 2048 ∣ (k0_mult1 i).toNat
  k0_off1_inb : ∀ i : grid0.Coords, ∀ a, (k0_off1 i) a + S2048x512.size a ≤ S8192x512.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S8192x512.size a
  hwx0_0 : ∀ i : grid0.Coords, EltTy.bits .bf16 = 32 ∨ (Rect.block (s := S8192x512) S512x512.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192x512.size a ≤ S8192x512.size a
  hwx0_1 : ∀ i : grid0.Coords, EltTy.bits .bf16 = 32 ∨ (Rect.block (s := S8192x512) S8192x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S8192x1.size a
  hwx0_2 : ∀ i : grid0.Coords, EltTy.bits .f32 = 32 ∨ (Rect.block (s := S8192x1) S512x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048.size a ≤ S1x8192.size a
  hwx0_3 : ∀ i : grid0.Coords, EltTy.bits .f32 = 32 ∨ (Rect.block (s := S1x8192) S1x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1.size a ≤ S8192x1.size a
  hwx0_4 : ∀ i : grid0.Coords, EltTy.bits .i32 = 32 ∨ (Rect.block (s := S8192x1) S512x1.size (cc0_transform_4 i) (hinb0_4 i)).WholeWords (EltTy.packing .i32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x2048.size a ≤ S1x8192.size a
  hwx0_5 : ∀ i : grid0.Coords, EltTy.bits .i32 = 32 ∨ (Rect.block (s := S1x8192) S1x2048.size (cc0_transform_5 i) (hinb0_5 i)).WholeWords (EltTy.packing .i32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1x128.size a ≤ S16x1x128.size a
  hwx0_6 : ∀ i : grid0.Coords, EltTy.bits .f32 = 32 ∨ (Rect.block (s := S16x1x128) S1x1x128.size (cc0_transform_6 i) (hinb0_6 i)).WholeWords (EltTy.packing .f32)

variable [Facts₀]

def dot_S512x512_S2048x512_S512x2048_1_1_0_0_n_n : DotDims S512x512 S2048x512 S512x2048 where
  lhsContracting := [1]
  rhsContracting := [1]
  lhsNonContracting := [0]
  rhsNonContracting := [0]
  lhsBatch := []
  rhsBatch := []
  wf := dot_S512x512_S2048x512_S512x2048_1_1_0_0_n_n_wf

abbrev win0_0 : Pipeline.Window sig grid0 :=
  Pipeline.Window.ofSpec (Memref.whole main_v0) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S8192x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S512x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5) S512x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v6) S1x2048.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v7) S1x1x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond2 i == 1#1) | ⟨_ + 7, h⟩ => absurd h (Nat.not_lt.2 (Nat.le_add_left _ _))

class Facts : Prop extends Facts₀ where

variable [Facts]
-- ==== ReferenceIdeal.lean ====
abbrev S8192x512 : Shape := ⟨2, ![8192, 512]⟩
abbrev S8192 : Shape := ⟨1, ![8192]⟩
abbrev S_ : Shape := ⟨0, ![]⟩
abbrev S8192x1 : Shape := ⟨2, ![8192, 1]⟩
abbrev S1x8192 : Shape := ⟨2, ![1, 8192]⟩
abbrev S8192x8192 : Shape := ⟨2, ![8192, 8192]⟩
abbrev S512x8192 : Shape := ⟨2, ![512, 8192]⟩

abbrev nBuf : Space → Nat
  | .hbm => 73
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192, .i32⟩
  | .hbm, ⟨2, _⟩ => ⟨S8192x512, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S1x8192, .f32⟩
  | .hbm, ⟨7, _⟩ => ⟨S8192x8192, .f32⟩
  | .hbm, ⟨8, _⟩ => ⟨S8192x8192, .f32⟩
  | .hbm, ⟨9, _⟩ => ⟨S8192x8192, .f32⟩
  | .hbm, ⟨10, _⟩ => ⟨S512x8192, .f32⟩
  | .hbm, ⟨11, _⟩ => ⟨S8192x8192, .f32⟩
  | .hbm, ⟨12, _⟩ => ⟨S_, .f32⟩
  | .hbm, ⟨13, _⟩ => ⟨S8192x8192, .f32⟩
  | .hbm, ⟨14, _⟩ => ⟨S8192x8192, .f32⟩
  | .hbm, ⟨15, _⟩ => ⟨S8192x8192, .f32⟩
  | .hbm, ⟨16, _⟩ => ⟨S_, .f32⟩
  | .hbm, ⟨17, _⟩ => ⟨S8192x8192, .f32⟩
  | .hbm, ⟨18, _⟩ => ⟨S8192x8192, .f32⟩
  | .hbm, ⟨19, _⟩ => ⟨S8192x1, .i32⟩
  | .hbm, ⟨20, _⟩ => ⟨S1x8192, .i32⟩
  | .hbm, ⟨21, _⟩ => ⟨S8192x8192, .i32⟩
  | .hbm, ⟨22, _⟩ => ⟨S8192x8192, .i32⟩
  | .hbm, ⟨23, _⟩ => ⟨S8192x8192, .i1⟩
  | .hbm, ⟨24, _⟩ => ⟨S8192x8192, .i32⟩
  | .hbm, ⟨25, _⟩ => ⟨S8192x8192, .i32⟩
  | .hbm, ⟨26, _⟩ => ⟨S_, .i32⟩
  | .hbm, ⟨27, _⟩ => ⟨S8192x8192, .i32⟩
  | .hbm, ⟨28, _⟩ => ⟨S8192x8192, .i32⟩
  | .hbm, ⟨29, _⟩ => ⟨S8192x8192, .i1⟩
  | .hbm, ⟨30, _⟩ => ⟨S8192x8192, .i1⟩
  | .hbm, ⟨31, _⟩ => ⟨S8192x8192, .i1⟩
  | .hbm, ⟨32, _⟩ => ⟨S8192x8192, .i1⟩
  | .hbm, ⟨33, _⟩ => ⟨S8192x8192, .i1⟩
  | .hbm, ⟨34, _⟩ => ⟨S8192x8192, .i1⟩
  | .hbm, ⟨35, _⟩ => ⟨S_, .f32⟩
  | .hbm, ⟨36, _⟩ => ⟨S_, .f32⟩
  | .hbm, ⟨37, _⟩ => ⟨S8192x8192, .f32⟩
  | .hbm, ⟨38, _⟩ => ⟨S8192x8192, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S8192x8192, .f32⟩
  | .hbm, ⟨43, _⟩ => ⟨S8192x8192, .i1⟩
  | .hbm, ⟨44, _⟩ => ⟨S_, .f32⟩
  | .hbm, ⟨45, _⟩ => ⟨S8192x8192, .f32⟩
  | .hbm, ⟨46, _⟩ => ⟨S8192x8192, .i1⟩
  | .hbm, ⟨47, _⟩ => ⟨S_, .f32⟩
  | .hbm, ⟨48, _⟩ => ⟨S_, .f32⟩
  | .hbm, ⟨49, _⟩ => ⟨S8192x8192, .f32⟩
  | .hbm, ⟨50, _⟩ => ⟨S8192x8192, .f32⟩
  | .hbm, ⟨51, _⟩ => ⟨S8192x8192, .f32⟩
  | .hbm, ⟨52, _⟩ => ⟨S_, .f32⟩
  | .hbm, ⟨53, _⟩ => ⟨S8192x8192, .f32⟩
  | .hbm, ⟨54, _⟩ => ⟨S8192x8192, .f32⟩
  | .hbm, ⟨55, _⟩ => ⟨S_, .f32⟩
  | .hbm, ⟨56, _⟩ => ⟨S_, .f32⟩
  | .hbm, ⟨57, _⟩ => ⟨S8192x8192, .f32⟩
  | .hbm, ⟨58, _⟩ => ⟨S8192x8192, .f32⟩
  | .hbm, ⟨59, _⟩ => ⟨S_, .f32⟩
  | .hbm, ⟨60, _⟩ => ⟨S8192x8192, .f32⟩
  | .hbm, ⟨61, _⟩ => ⟨S8192x8192, .i1⟩
  | .hbm, ⟨62, _⟩ => ⟨S8192x8192, .i1⟩
  | .hbm, ⟨63, _⟩ => ⟨S_, .f32⟩
  | .hbm, ⟨64, _⟩ => ⟨S_, .f32⟩
  | .hbm, ⟨65, _⟩ => ⟨S8192x8192, .f32⟩
  | .hbm, ⟨66, _⟩ => ⟨S8192x8192, .f32⟩
  | .hbm, ⟨67, _⟩ => ⟨S8192x8192, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_c : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_cst_2 : Ref sig .tc := ⟨.hbm, 35, rfl⟩
abbrev main_call0_v0 : Ref sig .tc := ⟨.hbm, 36, rfl⟩
abbrev main_call0_v1 : Ref sig .tc := ⟨.hbm, 37, rfl⟩
abbrev main_v29 : Ref sig .tc := ⟨.hbm, 38, rfl⟩
abbrev main_cst_3 : Ref sig .tc := ⟨.hbm, 39, rfl⟩
abbrev main_v30 : Ref sig .tc := ⟨.hbm, 40, rfl⟩
abbrev main_cst_4 : Ref sig .tc := ⟨.hbm, 41, rfl⟩
abbrev main_v31 : Ref sig .tc := ⟨.hbm, 42, rfl⟩
abbrev main_v32 : Ref sig .tc := ⟨.hbm, 43, rfl⟩
abbrev main_cst_5 : Ref sig .tc := ⟨.hbm, 44, rfl⟩
abbrev main_v33 : Ref sig .tc := ⟨.hbm, 45, rfl⟩
abbrev main_v34 : Ref sig .tc := ⟨.hbm, 46, rfl⟩
abbrev main_cst_6 : Ref sig .tc := ⟨.hbm, 47, rfl⟩
abbrev main_call1_v0 : Ref sig .tc := ⟨.hbm, 48, rfl⟩
abbrev main_call1_v1 : Ref sig .tc := ⟨.hbm, 49, rfl⟩
abbrev main_v35 : Ref sig .tc := ⟨.hbm, 50, rfl⟩
abbrev main_v36 : Ref sig .tc := ⟨.hbm, 51, rfl⟩
abbrev main_cst_7 : Ref sig .tc := ⟨.hbm, 52, rfl⟩
abbrev main_v37 : Ref sig .tc := ⟨.hbm, 53, rfl⟩
abbrev main_v38 : Ref sig .tc := ⟨.hbm, 54, rfl⟩
abbrev main_cst_8 : Ref sig .tc := ⟨.hbm, 55, rfl⟩
abbrev main_call2_v0 : Ref sig .tc := ⟨.hbm, 56, rfl⟩
abbrev main_call2_v1 : Ref sig .tc := ⟨.hbm, 57, rfl⟩
abbrev main_v39 : Ref sig .tc := ⟨.hbm, 58, rfl⟩
abbrev main_cst_9 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_10 : Ref sig .tc := ⟨.hbm, 63, rfl⟩
abbrev main_call3_v0 : Ref sig .tc := ⟨.hbm, 64, rfl⟩
abbrev main_call3_v1 : Ref sig .tc := ⟨.hbm, 65, rfl⟩
abbrev main_v43 : Ref sig .tc := ⟨.hbm, 66, rfl⟩
abbrev main_v44 : Ref sig .tc := ⟨.hbm, 67, rfl⟩
abbrev main_cst_11 : Ref sig .tc := ⟨.hbm, 68, rfl⟩
abbrev main_v45 : Ref sig .tc := ⟨.hbm, 69, rfl⟩
abbrev main_v46 : Ref sig .tc := ⟨.hbm, 70, rfl⟩
abbrev main_cst_12 : Ref sig .tc := ⟨.hbm, 71, rfl⟩
abbrev main_v47 : Ref sig .tc := ⟨.hbm, 72, rfl⟩

abbrev nD : Nat := 1
abbrev τ : Topo := Topo.v7x

variable {F : FTy → Type} [FloatOps F]

class Facts₀ : Prop where
  reducesTo_S8192x512_S8192_d1 : S8192x512.ReducesTo [1] S8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  transposes_S8192x512_S512x8192_1_0 : S8192x512.Transposes [1, 0] S512x8192
  bcast_S_S8192x8192 : S_.BroadcastsInDim S8192x8192 (![] : Fin 0 → Fin S8192x8192.rank)
  reducesTo_S8192x8192_S_d0_1 : S8192x8192.ReducesTo [0, 1] S_
  dot_S8192x512_S512x8192_S8192x8192_1_0_0_1_n_n_wf : DotDims.WF S8192x512 S512x8192 S8192x8192 [1] [0] [0] [1] [] []

variable [Facts₀]

def dot_S8192x512_S512x8192_S8192x8192_1_0_0_1_n_n : DotDims S8192x512 S512x8192 S8192x8192 where
  lhsContracting := [1]
  rhsContracting := [0]
  lhsNonContracting := [0]
  rhsNonContracting := [1]
  lhsBatch := []
  rhsBatch := []
  wf := dot_S8192x512_S512x8192_S8192x8192_1_0_0_1_n_n_wf

class Facts : Prop extends Facts₀ where

variable [Facts]
-- ==== Proof.LibSharedArrayTail.lean ====
/-
  The frame run of ONE kernel region whose windows may SHARE an array, for an @main that goes on AFTER the region
  with straight lines of host operations (a reshape, a transposition of the kernel's result into fresh buffers).

  A pallas_call handed one array through several `in_specs` holds that array split between the windows, each at its
  own share, so the windows' arrays are not pairwise distinct and the library's frame run around a region (which holds
  every array whole at the full share) does not apply. Here the caller says how the DISTINCT buffers behind the arrays,
  each whole at the full share, make up the proof data's `arrays` at the region's entry (`hsplit`), how the proof
  data's `arrays` at the region's exit give those buffers back whole at contents `Wfin` (`hjoin`), and how they
  split again (`hback`). The lines after the region then run within the array buffers, which they may read and do
  not write, and the buffers that bypass the region, which they may read and write. The conclusion names every array
  at the proof data's `arrAt w N` and every other unscoped buffer at the lines' `StableHlo.after` from the exit
  contents `Wfin`.

  General in the program, its configuration, the value type, the invariant and the lines.
-/
import Idealize.ShloMosaic.Lib.Pipeline.FrameSuffix

noncomputable section

namespace Cert.SharedArrayTail

open Idealize.ShloMosaic Idealize.ShloMosaic.Pipeline
open Idealize.SL
open Idealize.SL.BI (sProp bigSep bigSep_map bigSep_union bigSep_congr)
open scoped Idealize.SL.BI
open Idealize.SL.BI.BIBase Idealize.SL.BI.Laws Idealize.SL.Sem Idealize.SL.ProofMode
open Idealize.SL.RA
open Idealize.ShloMosaic.Rounds
open TcCoe

set_option Elab.async false

variable {nD : Nat} {τ : Topo} {sig : RefSig} {Val : EltTy → Type}
variable {Λ₀ : Idealize.SL.Sem.Labels} {P : Type} [Fintype P] [DecidableEq P] [∀ e, Nonempty (Val e)]

local notation "𝕄" => MT nD τ sig Unit Val ℕ (UR sig nD τ) ℕ

omit [Fintype P] [DecidableEq P] [∀ e, Nonempty (Val e)] in
/-- The buffers a line after the region may touch, held whole at `Wv`: the distinct buffers behind the windows'
    arrays and the buffers that bypass the region. No distinctness of the windows' arrays is asked. -/
theorem held_tailRefs_shared {gr : Nat} {W : Nat} (win : Fin W → WinSpec sig gr) (c : Dev nD) (Wv : Valuation τ sig Val) :
    (StableHlo.held (c.tc : Thread nD τ) (tailRefs sig Prefetch.none win) Wv : sProp 𝕄)
      = iprop(arrBufs win c (fun b => Wv (Proc.devRef .tc b)) ∗ unscopedRest win c (fun b => Wv (Proc.devRef .tc b))) := by
  classical
  have hdisj : Disjoint (Finset.univ.image (arrRef win)) (restRefsP sig Prefetch.none win) :=
    Finset.disjoint_left.mpr fun b hb hr => (Finset.mem_sdiff.mp (Finset.mem_sdiff.mp hr).1).2 hb
  unfold StableHlo.held tailRefs arrBufs
  rw [bigSep_map, bigSep_union hdisj, ← unscopedRestP_none]
  rfl

omit [Fintype P] [DecidableEq P] [∀ e, Nonempty (Val e)] in
/-- THE LINES AFTER THE REGION, from the array buffers whole at `Wv` and the bypassing buffers at `Wv`: they run
    within those buffers (`hsub`), write no array buffer (`hkeep`), and hand back the array buffers as they were and
    the bypassing buffers at `StableHlo.after` of the lines. -/
theorem tail_seqs_shared (pcs : P → PCfg sig Λ₀ Val) (defs₀ : Defs nD τ sig Val Λ₀) (𝒱₀ : Variants)
    {gr : Nat} {W : Nat} (win : Fin W → WinSpec sig gr) (c : Dev nD) (Wv : Valuation τ sig Val)
    (opss : List (List (HloOp τ sig Val)))
    (hsub : ∀ ops ∈ opss, ∀ op ∈ ops, op.bufs ⊆ tailRefs sig Prefetch.none win)
    (hfresh : ∀ ops ∈ opss, ∀ op ∈ ops, op.fresh = ∅)
    (hkeep : ∀ ops ∈ opss, ∀ op ∈ ops, ∀ w, Proc.devRef .tc (arrRef win w) ∉ op.writes)
    (Q' : PUnit → sProp 𝕄) :
    iprop((iprop(arrBufs win c (fun b => Wv (Proc.devRef .tc b))
              ∗ unscopedRest win c (fun b => StableHlo.after opss.flatten Wv (Proc.devRef .tc b))) -∗ Q' ⟨⟩)
        ∗ boundary (c.tc : Thread nD τ) ∗ arrBufs win c (fun b => Wv (Proc.devRef .tc b))
        ∗ unscopedRest win c (fun b => Wv (Proc.devRef .tc b)))
      ⊢ wp frame (wpE (Pipeline.defs pcs defs₀) (Variants.lift 𝒱₀) (c.tc : Thread nD τ) none) Set.univ (chain (opss.map StableHlo.seq)) Q' := by
  classical
  have hW' : (StableHlo.held (c.tc : Thread nD τ) (tailRefs sig Prefetch.none win) (StableHlo.after opss.flatten Wv) : sProp 𝕄)
      = iprop(arrBufs win c (fun b => Wv (Proc.devRef .tc b))
          ∗ unscopedRest win c (fun b => StableHlo.after opss.flatten Wv (Proc.devRef .tc b))) := by
    rw [held_tailRefs_shared]
    congr 1
    unfold arrBufs
    exact bigSep_congr fun b hb => by
      obtain ⟨w, -, rfl⟩ := Finset.mem_image.mp hb
      dsimp only
      rw [StableHlo.after_of_forall_not_mem _ _ fun op hop => ?_]
      obtain ⟨ops, hops, hop⟩ := List.mem_flatten.mp hop
      exact hkeep ops hops op hop w
  rw [← List.append_nil (opss.map StableHlo.seq), ← held_tailRefs_shared]
  iintro ⟨Hk, Hb⟩
  iapply (wp_seqs_then pcs defs₀ 𝒱₀ c (tailRefs sig Prefetch.none win) [] opss hsub hfresh Wv) $$ Hb
  iintro Hb
  rw [chain_nil, wp_pure, hW']
  imodintro
  iapply Hk
  icases Hb with ⟨-, H⟩
  iexact H

/-- THE FRAME RUN with a tracking invariant, around a region whose windows may share arrays (`WinFacts₀`): from the
    body obligation, @main's shape (host lines, the region, the host lines `opss`: `hmain`), the split of the array
    buffers among the windows at the entry (`hsplit`), their joining at the exit at contents `Wfin` (`hjoin`, which
    agree with the entry contents on the bypassing buffers, `hrest`) and splitting again (`hback`), and an invariant
    entered from the kernel's scoped scratch buffers and giving them back, every weakly fair execution of @main
    terminates with every window's array at the proof data's `arrAt w N` and every other unscoped buffer at the
    lines' `StableHlo.after` from `Wfin`. The kernel may use no semaphore of its own and not the generator register. -/
theorem θ_run_frame_around_track_shared
    (cfgs : P → Cfg sig Λ₀)
    (dats : (p : P) → (c : Dev nD) → Dat τ Val Unit ℕ (UR sig nD τ) ℕ (cfgs p) c) (p : P)
    (hinj : Function.Injective (cellOf (nD := nD) (τ := τ) cfgs))
    (hw : WinFacts₀ (cfgs p).spec)
    (hne : ∀ w : Fin (cfgs p).W, 0 < ((cfgs p).spec w).block.numel)
    (harr : ∀ w, ((cfgs p).spec w).arr.IsWhole) (hstage : ∀ w s, (((cfgs p).spec w).stage s).IsWhole)
    (defs₀ : Defs nD τ sig Val Λ₀) (𝒱₀ : Variants)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (howed : ∀ c t, (dats p c).owed t = 0)
    (V₀ Wfin : Dev nD → Valuation τ sig Val) (opss : List (List (HloOp τ sig Val)))
    (hsub : ∀ ops ∈ opss, ∀ op ∈ ops, op.bufs ⊆ tailRefs sig Prefetch.none (cfgs p).spec)
    (hfresh : ∀ ops ∈ opss, ∀ op ∈ ops, op.fresh = ∅)
    (hkeep : ∀ ops ∈ opss, ∀ op ∈ ops, ∀ w, Proc.devRef .tc (arrRef (cfgs p).spec w) ∉ op.writes)
    (hmain : HMainK (Ix := Unit) (Name := ℕ) (U := UR sig nD τ) (Lvl := ℕ) cfgs p defs₀ 𝒱₀ m main
      (fun c b => V₀ c (Proc.devRef .tc b)) (fun _ => chain (opss.map StableHlo.seq)))
    (hrest : ∀ c, ∀ b ∈ restRefs sig (cfgs p).spec, Wfin c (Proc.devRef .tc b) = V₀ c (Proc.devRef .tc b))
    (hsplit : ∀ c, (arrBufs (cfgs p).spec c (fun b => V₀ c (Proc.devRef .tc b)) : sProp 𝕄) ⊢ (dats p c).arrays ((dats p c).arrAt · 0))
    (hjoin : ∀ c, (dats p c).arrays ((dats p c).arrAt · (cfgs p).N) ⊢ (arrBufs (cfgs p).spec c (fun b => Wfin c (Proc.devRef .tc b)) : sProp 𝕄))
    (hback : ∀ c, (arrBufs (cfgs p).spec c (fun b => Wfin c (Proc.devRef .tc b)) : sProp 𝕄) ⊢ (dats p c).arrays ((dats p c).arrAt · (cfgs p).N))
    (hin : ∀ c, (scopedRest (cfgs p).spec c : sProp 𝕄) ⊢ (dats p c).Φ 0)
    (hout : ∀ c, (dats p c).Φ (Fin.last (cfgs p).N) ⊢ (scopedRest (cfgs p).spec c : sProp 𝕄)) :
    θ_run (Pipeline.defs (fun q => Cfg.toPCfg (Val := Val) (cfgs q)) defs₀) (onTc main) (s₀ m g)
      (fun r => ∀ c : Dev nD,
        (∀ w, r.2.mem (((cfgs p).spec w).arr.view.loc (c.tc : Thread nD τ)) = (dats p c).arrAt w (cfgs p).N)
        ∧ ∀ b ∈ restRefs sig (cfgs p).spec,
            r.2.mem ((c.tc : Thread nD τ).loc b) = StableHlo.after opss.flatten (Wfin c) (Proc.devRef .tc b)) := by
  classical
  have hZ : ∀ c, (unscopedRest (cfgs p).spec c (fun b => V₀ c (Proc.devRef .tc b)) : sProp 𝕄)
      = unscopedRest (cfgs p).spec c (fun b => Wfin c (Proc.devRef .tc b)) := fun c => by
    unfold unscopedRest
    exact bigSep_congr fun b hb => by dsimp only; rw [hrest c b hb]
  exact θ_run_region_noSem_pf_tail (fun p => (cfgs p).toPCfg) (fun p => (cfgs p).toPCfg_adm) dats () hinj p hw (PreFacts.none _) emb₁ defs₀ 𝒱₀
    m g main (fun _ => chain (opss.map StableHlo.seq)) hbody hne harr hstage howed
    (u₀ := initOf (cells cfgs hinj) (launchToks cfgs hinj)) (hu₀ := .rfl)
    (V := fun c b => V₀ c (Proc.devRef .tc b)) (hmain := hmain) (hsplit := hsplit) (hpf := fun _ k => k.elim0)
    (X := fun _ => iprop(emp)) (Y := fun _ => iprop(emp))
    (Z := fun c => unscopedRest (Ix := Unit) (Name := ℕ) (U := UR sig nD τ) (Lvl := ℕ) (cfgs p).spec c (fun b => V₀ c (Proc.devRef .tc b)))
    (Z' := fun c => unscopedRest (Ix := Unit) (Name := ℕ) (U := UR sig nD τ) (Lvl := ℕ) (cfgs p).spec c
      (fun b => StableHlo.after opss.flatten (Wfin c) (Proc.devRef .tc b)))
    (hX := fun c => by
      rw [unscopedRestP_none]
      iintro H
      isplitr; · iempintro
      iexact H)
    (hin := fun c => (show _ ⊢ (scopedRest (cfgs p).spec c : sProp 𝕄) from by iintro ⟨-, -, H⟩; iexact H).trans (hin c))
    (hout := fun c => (hout c).trans (by
      iintro H
      isplitr; · iempintro
      iexact H))
    (htail := fun c Q' => by
      rw [hZ c]
      iintro ⟨Hk, Hbd, Harr, HZ⟩
      iapply (tail_seqs_shared (fun q => (cfgs q).toPCfg (Val := Val)) defs₀ 𝒱₀ (cfgs p).spec c (Wfin c) opss hsub hfresh hkeep Q')
      isplitl [Hk]
      · iintro ⟨Ha, Hz⟩
        iapply Hk
        isplitl [Ha]
        · iapply (hback c); iexact Ha
        · iexact Hz
      isplitl [Hbd]; · iexact Hbd
      isplitl [Harr]
      · iapply (hjoin c); iexact Harr
      · iexact HZ)
    (QY := fun c s => ∀ b ∈ restRefs sig (cfgs p).spec,
      s.mem ((c.tc : Thread nD τ).loc b) = StableHlo.after opss.flatten (Wfin c) (Proc.devRef .tc b))
    (hY := fun c s' => by
      iintro ⟨-, HU, HSI⟩
      unfold unscopedRest
      imodintro
      iapply (pointsTo_read_all (restRefs sig (cfgs p).spec) (fun b => (c.tc : Thread nD τ).loc b)
        (fun b => StableHlo.after opss.flatten (Wfin c) (Proc.devRef .tc b)) s')
      isplitl [HU] <;> iassumption)
    (hQ := fun s h c => ⟨(h c).1, (h c).2.2⟩)

end Cert.SharedArrayTail

end
-- ==== Proof.KB.Shared.lean ====
/-
  What the three runs of the kernel body and the frame share.

  @main is eight host lines (the cast of the features, their squared row norms, four reshapes), the kernel region, and
  four host lines (the sum of the region's result and its division). The region's grid is 16 x 4: the row block is the
  slow coordinate, the column block the fast one. The body zeroes its scratch column where the column block is 0
  (condition 0), adds the row sums of the pair contributions at every point, and stores the block of the result where the
  column block is 3 (condition 1); elsewhere the result window is idle and is not written back. Both conditions are decided
  over the grid here in closed form, point t being column block t mod 4.
-/
import proofs.«160762_j20109036879978_2_alg».proof.Proof.Gen.Kernel.Launch
import proofs.«160762_j20109036879978_2_alg».proof.Proof.Gen.Kernel.Skeleton
import proofs.«160762_j20109036879978_2_alg».proof.Proof.Gen.Kernel.Points
import proofs.«160762_j20109036879978_2_alg».proof.Proof.LibSharedArrayTail
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The buffer contents on core c when the region is entered: the launch contents after the eight host lines. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host lines before the region, the region, and the host lines after it: run from the launch
    contents it reduces to the region, entered at V, continued by the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1]
    (List.forall_iff_forall_mem.mpr fun ops hops => by
      simp only [List.mem_cons, List.mem_nil_iff, or_false] at hops; subst hops; exact hostOps0_sub)
    (List.forall_iff_forall_mem.mpr fun ops hops => by
      simp only [List.mem_cons, List.mem_nil_iff, or_false] at hops; subst hops; exact hostOps0_fresh)
    main_chain

/-- The later lines touch only the region's arrays and the buffers that bypass it. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 winFacts₀0.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And write none of the region's arrays: each writes its own result buffer. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

/-! ## The windows' blocks -/

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not: unfetched, the
    block index has not moved since the fetch. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not: unfetched, the
    block index has not moved since the fetch. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not: unfetched, the
    block index has not moved since the fetch. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not: unfetched, the
    block index has not moved since the fetch. -/
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, fetched there or not: unfetched, the
    block index has not moved since the fetch. -/
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's current staging buffer holds its block at every point, fetched there or not: unfetched, the
    block index has not moved since the fetch. -/
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The body's two conditions -/

/-- Condition 0: the column block is 0. -/
abbrev cond0 (i : grid0.Coords) : Prop := (Scalar.cmpi .ne (Scalar.extui (Scalar.cmpi .eq (BitVec.ofNat 32 (i 1).val) 0#32)) 0#32) = 1#1
theorem hcond0 : ∀ t : Fin cfg0.N, cond0 (grid0.coords t) ↔ t.val % 4 = 0 :=
  (by decide +kernel : ∀ t : Fin grid0.N, cond0 (grid0.coords t) ↔ t.val % 4 = 0)

/-- Condition 1: the column block is 3, the last. -/
abbrev cond1 (i : grid0.Coords) : Prop := k0_cond2 i = 1#1
theorem hcond1 : ∀ t : Fin cfg0.N, cond1 (grid0.coords t) ↔ t.val % 4 = 3 :=
  (by decide +kernel : ∀ t : Fin grid0.N, cond1 (grid0.coords t) ↔ t.val % 4 = 3)

/-! ## Where the result window is idle -/

theorem idleAt6 : ∀ t : Fin cfg0.N, ¬cond1 (grid0.coords t) → cfg0.idle 6 (grid0.coords t) = true := by decide +kernel
theorem noFlush6 : ∀ t : Fin cfg0.N, ¬cond1 (grid0.coords t) → (cfg0.win 6).flush t = false := by decide +kernel
theorem liveAt6 : ∀ t : Fin cfg0.N, cond1 (grid0.coords t) → cfg0.idle 6 (grid0.coords t) = false := by decide +kernel

/-! ## The memrefs the body is called with -/

/-- One staging buffer of the result window, through which its contents are stated. -/
abbrev VO : View sig .tc .vmem S1x1x128 .f32 := (Memref.whole cc0_stg6_0 : Memref sig .tc .vmem S1x1x128 .f32).view
abbrev ms0 (t : Fin cfg0.N) : Memref sig .tc .vmem S512x512 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S8192x512 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S512x1 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x2048 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S512x1 .i32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x2048 .i32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x1x128 .f32 := win0_6.stage (cfg0.slots t 6)
abbrev hs6 (t : Fin cfg0.N) : (ms6 t).IsWhole := hstage0_6 ((cfg0.slots t 6).cast nbuf0_6)
/-- The scratch column, a whole scoped buffer of the kernel's own. -/
abbrev scM : Memref sig .tc .vmem S512x1 .f32 := Memref.whole cc0_scratch0
abbrev VS : View sig .tc .vmem S512x1 .f32 := scM.view

/-- The core's scoped buffers that are no staging buffer: the scratch column, at some contents. -/
theorem scopedRest_eq (c : Dev nD) :
    (Pipeline.scopedRest spec0 c : sProp 𝕄) = iprop(∃ d, owns (c : Thread nD τ) scM fullShare d) := by
  rw [scopedRest0_eq]; simp only [scM, owns_whole]; try rfl

end Cert.Kernel.Hand

end
-- ==== Proof.KB.RunA.lean ====
/-
  The body's run where the column block is 0 and not the last (case A): the scratch column, found at any contents, is zeroed and then holds the zero column plus this point's row sums; the result window's buffer is handed back untouched. The pieces the scratch ends with are the witness the run finds.
-/
import proofs.«160762_j20109036879978_2_alg».proof.Proof.KB.Shared

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- Case A: on whole staging memrefs at the input blocks, the result's buffer at any contents handed back as it was,
    the body runs to the continuation holding the inputs as they were and the scratch with its pieces written. -/
noncomputable def kernelRunA (c : Dev nD) (i : grid0.Coords) (arg2 : Memref sig .tc .vmem S512x512 .bf16) (harg2 : arg2.IsWhole) (arg3 : Memref sig .tc .vmem S8192x512 .bf16) (harg3 : arg3.IsWhole) (arg4 : Memref sig .tc .vmem S512x1 .f32) (harg4 : arg4.IsWhole) (arg5 : Memref sig .tc .vmem S1x2048 .f32) (harg5 : arg5.IsWhole) (arg6 : Memref sig .tc .vmem S512x1 .i32) (harg6 : arg6.IsWhole) (arg7 : Memref sig .tc .vmem S1x2048 .i32) (harg7 : arg7.IsWhole) (arg8 : Memref sig .tc .vmem S1x1x128 .f32) (harg8 : arg8.IsWhole) (arg9 : Memref sig .tc .vmem S512x1 .f32) (harg9 : arg9.IsWhole) (hc0 : cond0 i) (hc1 : ¬cond1 i)
    (x0 : Vec F S512x512 .bf16) (x1 : Vec F S8192x512 .bf16) (x2 : Vec F S512x1 .f32) (x3 : Vec F S1x2048 .f32) (x4 : Vec F S512x1 .i32) (x5 : Vec F S1x2048 .i32) :
    { LS : List (View.Piece (Elt F) S512x1 .f32) //
      ∀ (xi6 : Vec F S1x1x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS)) -∗ K ⟨⟩))
          ⊢ wp frame (wpE (defs₀ (F := F)) Variants.none c none) E (cc0__contrastive_kernel i arg2 harg2 arg3 harg3 arg4 harg4 arg5 harg5 arg6 harg6 arg7 harg7 arg8 harg8 arg9 harg9) K } := by
  refine ⟨?_, fun xi6 E K => ?run⟩
  case run =>
    simp only [cc0__contrastive_kernel_eq_skeleton]; unfold cc0__contrastive_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds, %fs, -, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexists _; iexact HS

end Cert.Kernel.Hand

end
-- ==== Proof.KB.RunB.lean ====
/-
  The body's run where the column block is neither 0 nor the last (case B): the scratch column, found at what the point before left, gains this point's row sums; the result window's buffer is handed back untouched. The pieces the scratch ends with are the witness the run finds.
-/
import proofs.«160762_j20109036879978_2_alg».proof.Proof.KB.RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- Case B: on whole staging memrefs at the input blocks, the result's buffer at any contents handed back as it was,
    the body runs to the continuation holding the inputs as they were and the scratch with its pieces written. -/
noncomputable def kernelRunB (c : Dev nD) (i : grid0.Coords) (arg2 : Memref sig .tc .vmem S512x512 .bf16) (harg2 : arg2.IsWhole) (arg3 : Memref sig .tc .vmem S8192x512 .bf16) (harg3 : arg3.IsWhole) (arg4 : Memref sig .tc .vmem S512x1 .f32) (harg4 : arg4.IsWhole) (arg5 : Memref sig .tc .vmem S1x2048 .f32) (harg5 : arg5.IsWhole) (arg6 : Memref sig .tc .vmem S512x1 .i32) (harg6 : arg6.IsWhole) (arg7 : Memref sig .tc .vmem S1x2048 .i32) (harg7 : arg7.IsWhole) (arg8 : Memref sig .tc .vmem S1x1x128 .f32) (harg8 : arg8.IsWhole) (arg9 : Memref sig .tc .vmem S512x1 .f32) (harg9 : arg9.IsWhole) (hc0 : ¬cond0 i) (hc1 : ¬cond1 i)
    (x0 : Vec F S512x512 .bf16) (x1 : Vec F S8192x512 .bf16) (x2 : Vec F S512x1 .f32) (x3 : Vec F S1x2048 .f32) (x4 : Vec F S512x1 .i32) (x5 : Vec F S1x2048 .i32) (xs : Vec F S512x1 .f32) :
    { LS : List (View.Piece (Elt F) S512x1 .f32) //
      ∀ (xi6 : Vec F S1x1x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS)) -∗ K ⟨⟩))
          ⊢ wp frame (wpE (defs₀ (F := F)) Variants.none c none) E (cc0__contrastive_kernel i arg2 harg2 arg3 harg3 arg4 harg4 arg5 harg5 arg6 harg6 arg7 harg7 arg8 harg8 arg9 harg9) K } := by
  refine ⟨?_, fun xi6 E K => ?run⟩
  case run =>
    simp only [cc0__contrastive_kernel_eq_skeleton]; unfold cc0__contrastive_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexists _; iexact HS

end Cert.Kernel.Hand

end
-- ==== Proof.KB.RunC.lean ====
/-
  The body's run where the column block is the last (case C): the scratch column, found at what the point before left, gains this point's row sums, and the result window's buffer, found at any contents, is stored whole with the column's total at lane 0 and zeros elsewhere. The pieces each buffer ends with are the witness the run finds.
-/
import proofs.«160762_j20109036879978_2_alg».proof.Proof.KB.RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- Case C: on whole staging memrefs at the input blocks, the result's buffer at any contents, the scratch at xs, the
    body runs to the continuation holding the inputs as they were and both buffers with their pieces written. -/
noncomputable def kernelRunC (c : Dev nD) (i : grid0.Coords) (arg2 : Memref sig .tc .vmem S512x512 .bf16) (harg2 : arg2.IsWhole) (arg3 : Memref sig .tc .vmem S8192x512 .bf16) (harg3 : arg3.IsWhole) (arg4 : Memref sig .tc .vmem S512x1 .f32) (harg4 : arg4.IsWhole) (arg5 : Memref sig .tc .vmem S1x2048 .f32) (harg5 : arg5.IsWhole) (arg6 : Memref sig .tc .vmem S512x1 .i32) (harg6 : arg6.IsWhole) (arg7 : Memref sig .tc .vmem S1x2048 .i32) (harg7 : arg7.IsWhole) (arg8 : Memref sig .tc .vmem S1x1x128 .f32) (harg8 : arg8.IsWhole) (arg9 : Memref sig .tc .vmem S512x1 .f32) (harg9 : arg9.IsWhole) (hc0 : ¬cond0 i) (hc1 : cond1 i)
    (x0 : Vec F S512x512 .bf16) (x1 : Vec F S8192x512 .bf16) (x2 : Vec F S512x1 .f32) (x3 : Vec F S1x2048 .f32) (x4 : Vec F S512x1 .i32) (x5 : Vec F S1x2048 .i32) (xs : Vec F S512x1 .f32) :
    Σ' (L6 : List (View.Piece (Elt F) S1x1x128 .f32)), { LS : List (View.Piece (Elt F) S512x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS)) -∗ K ⟨⟩))
          ⊢ wp frame (wpE (defs₀ (F := F)) Variants.none c none) E (cc0__contrastive_kernel i arg2 harg2 arg3 harg3 arg4 harg4 arg5 harg5 arg6 harg6 arg7 harg7 arg8 harg8 arg9 harg9) K } := by
  refine ⟨?_, ?_, fun E K => ?run⟩
  case run =>
    simp only [cc0__contrastive_kernel_eq_skeleton]; unfold cc0__contrastive_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    iexists _; iexact HS

end Cert.Kernel.Hand

end
-- ==== Proof.KB.Frame.lean ====
/-
  The frame of the kernel program.

  After point n the scratch column holds accAt n: at a point whose column block is 0 what the body leaves starting from
  the zero column, at any other point what it leaves starting from accAt (n - 1). The result window's buffer holds, after a
  point whose column block is 3, the block the body stores there from the column accAt n; at the other points the window is
  idle and is not written back. With these as the proof data every point of the grid meets its body obligation by the run
  of its case. The feature array is handed to the region twice, once row block by row block and once whole: the two windows
  hold it at the two halves of the full share, and it is put together again when the region ends. The four host lines after
  the region then run from the region's result, and every weakly fair execution of @main terminates with each array and each
  other buffer at the contents named here.
-/
import proofs.«160762_j20109036879978_2_alg».proof.Proof.KB.RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

/-- Case A's pieces for the scratch column tile it, so they cover it. -/
theorem scoverA (c : Dev nD) (i : grid0.Coords) (arg2 : Memref sig .tc .vmem S512x512 .bf16) (harg2 : arg2.IsWhole) (arg3 : Memref sig .tc .vmem S8192x512 .bf16) (harg3 : arg3.IsWhole) (arg4 : Memref sig .tc .vmem S512x1 .f32) (harg4 : arg4.IsWhole) (arg5 : Memref sig .tc .vmem S1x2048 .f32) (harg5 : arg5.IsWhole) (arg6 : Memref sig .tc .vmem S512x1 .i32) (harg6 : arg6.IsWhole) (arg7 : Memref sig .tc .vmem S1x2048 .i32) (harg7 : arg7.IsWhole) (arg8 : Memref sig .tc .vmem S1x1x128 .f32) (harg8 : arg8.IsWhole) (arg9 : Memref sig .tc .vmem S512x1 .f32) (harg9 : arg9.IsWhole) (hc0 : cond0 i) (hc1 : ¬cond1 i)
    (x0 : Vec F S512x512 .bf16) (x1 : Vec F S8192x512 .bf16) (x2 : Vec F S512x1 .f32) (x3 : Vec F S1x2048 .f32) (x4 : Vec F S512x1 .i32) (x5 : Vec F S1x2048 .i32) (y : S512x1.Idx) :
    ∃ pc ∈ (kernelRunA c i arg2 harg2 arg3 harg3 arg4 harg4 arg5 harg5 arg6 harg6 arg7 harg7 arg8 harg8 arg9 harg9 hc0 hc1 x0 x1 x2 x3 x4 x5).1, y ∈ pc.1.set :=
  View.cover_of_tiledL (kernelRunA c i arg2 harg2 arg3 harg3 arg4 harg4 arg5 harg5 arg6 harg6 arg7 harg7 arg8 harg8 arg9 harg9 hc0 hc1 x0 x1 x2 x3 x4 x5).1 S512x1.size (by sl_kernel_rfl) y

/-- What case A leaves in the scratch column: its pieces read back. -/
def soutA (c : Dev nD) (i : grid0.Coords) (arg2 : Memref sig .tc .vmem S512x512 .bf16) (harg2 : arg2.IsWhole) (arg3 : Memref sig .tc .vmem S8192x512 .bf16) (harg3 : arg3.IsWhole) (arg4 : Memref sig .tc .vmem S512x1 .f32) (harg4 : arg4.IsWhole) (arg5 : Memref sig .tc .vmem S1x2048 .f32) (harg5 : arg5.IsWhole) (arg6 : Memref sig .tc .vmem S512x1 .i32) (harg6 : arg6.IsWhole) (arg7 : Memref sig .tc .vmem S1x2048 .i32) (harg7 : arg7.IsWhole) (arg8 : Memref sig .tc .vmem S1x1x128 .f32) (harg8 : arg8.IsWhole) (arg9 : Memref sig .tc .vmem S512x1 .f32) (harg9 : arg9.IsWhole) (hc0 : cond0 i) (hc1 : ¬cond1 i)
    (x0 : Vec F S512x512 .bf16) (x1 : Vec F S8192x512 .bf16) (x2 : Vec F S512x1 .f32) (x3 : Vec F S1x2048 .f32) (x4 : Vec F S512x1 .i32) (x5 : Vec F S1x2048 .i32) : Vec F S512x1 .f32 :=
  VS.read (Elt F) (VS.writes (Elt F) VS.junk (kernelRunA c i arg2 harg2 arg3 harg3 arg4 harg4 arg5 harg5 arg6 harg6 arg7 harg7 arg8 harg8 arg9 harg9 hc0 hc1 x0 x1 x2 x3 x4 x5).1)

/-- Case B's pieces for the scratch column tile it, so they cover it. -/
theorem scoverB (c : Dev nD) (i : grid0.Coords) (arg2 : Memref sig .tc .vmem S512x512 .bf16) (harg2 : arg2.IsWhole) (arg3 : Memref sig .tc .vmem S8192x512 .bf16) (harg3 : arg3.IsWhole) (arg4 : Memref sig .tc .vmem S512x1 .f32) (harg4 : arg4.IsWhole) (arg5 : Memref sig .tc .vmem S1x2048 .f32) (harg5 : arg5.IsWhole) (arg6 : Memref sig .tc .vmem S512x1 .i32) (harg6 : arg6.IsWhole) (arg7 : Memref sig .tc .vmem S1x2048 .i32) (harg7 : arg7.IsWhole) (arg8 : Memref sig .tc .vmem S1x1x128 .f32) (harg8 : arg8.IsWhole) (arg9 : Memref sig .tc .vmem S512x1 .f32) (harg9 : arg9.IsWhole) (hc0 : ¬cond0 i) (hc1 : ¬cond1 i)
    (x0 : Vec F S512x512 .bf16) (x1 : Vec F S8192x512 .bf16) (x2 : Vec F S512x1 .f32) (x3 : Vec F S1x2048 .f32) (x4 : Vec F S512x1 .i32) (x5 : Vec F S1x2048 .i32) (xs : Vec F S512x1 .f32) (y : S512x1.Idx) :
    ∃ pc ∈ (kernelRunB c i arg2 harg2 arg3 harg3 arg4 harg4 arg5 harg5 arg6 harg6 arg7 harg7 arg8 harg8 arg9 harg9 hc0 hc1 x0 x1 x2 x3 x4 x5 xs).1, y ∈ pc.1.set :=
  View.cover_of_tiledL (kernelRunB c i arg2 harg2 arg3 harg3 arg4 harg4 arg5 harg5 arg6 harg6 arg7 harg7 arg8 harg8 arg9 harg9 hc0 hc1 x0 x1 x2 x3 x4 x5 xs).1 S512x1.size (by sl_kernel_rfl) y

/-- What case B leaves in the scratch column: its pieces read back. -/
def soutB (c : Dev nD) (i : grid0.Coords) (arg2 : Memref sig .tc .vmem S512x512 .bf16) (harg2 : arg2.IsWhole) (arg3 : Memref sig .tc .vmem S8192x512 .bf16) (harg3 : arg3.IsWhole) (arg4 : Memref sig .tc .vmem S512x1 .f32) (harg4 : arg4.IsWhole) (arg5 : Memref sig .tc .vmem S1x2048 .f32) (harg5 : arg5.IsWhole) (arg6 : Memref sig .tc .vmem S512x1 .i32) (harg6 : arg6.IsWhole) (arg7 : Memref sig .tc .vmem S1x2048 .i32) (harg7 : arg7.IsWhole) (arg8 : Memref sig .tc .vmem S1x1x128 .f32) (harg8 : arg8.IsWhole) (arg9 : Memref sig .tc .vmem S512x1 .f32) (harg9 : arg9.IsWhole) (hc0 : ¬cond0 i) (hc1 : ¬cond1 i)
    (x0 : Vec F S512x512 .bf16) (x1 : Vec F S8192x512 .bf16) (x2 : Vec F S512x1 .f32) (x3 : Vec F S1x2048 .f32) (x4 : Vec F S512x1 .i32) (x5 : Vec F S1x2048 .i32) (xs : Vec F S512x1 .f32) : Vec F S512x1 .f32 :=
  VS.read (Elt F) (VS.writes (Elt F) VS.junk (kernelRunB c i arg2 harg2 arg3 harg3 arg4 harg4 arg5 harg5 arg6 harg6 arg7 harg7 arg8 harg8 arg9 harg9 hc0 hc1 x0 x1 x2 x3 x4 x5 xs).1)

/-- Case C's pieces for the scratch column tile it, so they cover it. -/
theorem scoverC (c : Dev nD) (i : grid0.Coords) (arg2 : Memref sig .tc .vmem S512x512 .bf16) (harg2 : arg2.IsWhole) (arg3 : Memref sig .tc .vmem S8192x512 .bf16) (harg3 : arg3.IsWhole) (arg4 : Memref sig .tc .vmem S512x1 .f32) (harg4 : arg4.IsWhole) (arg5 : Memref sig .tc .vmem S1x2048 .f32) (harg5 : arg5.IsWhole) (arg6 : Memref sig .tc .vmem S512x1 .i32) (harg6 : arg6.IsWhole) (arg7 : Memref sig .tc .vmem S1x2048 .i32) (harg7 : arg7.IsWhole) (arg8 : Memref sig .tc .vmem S1x1x128 .f32) (harg8 : arg8.IsWhole) (arg9 : Memref sig .tc .vmem S512x1 .f32) (harg9 : arg9.IsWhole) (hc0 : ¬cond0 i) (hc1 : cond1 i)
    (x0 : Vec F S512x512 .bf16) (x1 : Vec F S8192x512 .bf16) (x2 : Vec F S512x1 .f32) (x3 : Vec F S1x2048 .f32) (x4 : Vec F S512x1 .i32) (x5 : Vec F S1x2048 .i32) (xs : Vec F S512x1 .f32) (y : S512x1.Idx) :
    ∃ pc ∈ (kernelRunC c i arg2 harg2 arg3 harg3 arg4 harg4 arg5 harg5 arg6 harg6 arg7 harg7 arg8 harg8 arg9 harg9 hc0 hc1 x0 x1 x2 x3 x4 x5 xs).2.1, y ∈ pc.1.set :=
  View.cover_of_tiledL (kernelRunC c i arg2 harg2 arg3 harg3 arg4 harg4 arg5 harg5 arg6 harg6 arg7 harg7 arg8 harg8 arg9 harg9 hc0 hc1 x0 x1 x2 x3 x4 x5 xs).2.1 S512x1.size (by sl_kernel_rfl) y

/-- What case C leaves in the scratch column: its pieces read back. -/
def soutC (c : Dev nD) (i : grid0.Coords) (arg2 : Memref sig .tc .vmem S512x512 .bf16) (harg2 : arg2.IsWhole) (arg3 : Memref sig .tc .vmem S8192x512 .bf16) (harg3 : arg3.IsWhole) (arg4 : Memref sig .tc .vmem S512x1 .f32) (harg4 : arg4.IsWhole) (arg5 : Memref sig .tc .vmem S1x2048 .f32) (harg5 : arg5.IsWhole) (arg6 : Memref sig .tc .vmem S512x1 .i32) (harg6 : arg6.IsWhole) (arg7 : Memref sig .tc .vmem S1x2048 .i32) (harg7 : arg7.IsWhole) (arg8 : Memref sig .tc .vmem S1x1x128 .f32) (harg8 : arg8.IsWhole) (arg9 : Memref sig .tc .vmem S512x1 .f32) (harg9 : arg9.IsWhole) (hc0 : ¬cond0 i) (hc1 : cond1 i)
    (x0 : Vec F S512x512 .bf16) (x1 : Vec F S8192x512 .bf16) (x2 : Vec F S512x1 .f32) (x3 : Vec F S1x2048 .f32) (x4 : Vec F S512x1 .i32) (x5 : Vec F S1x2048 .i32) (xs : Vec F S512x1 .f32) : Vec F S512x1 .f32 :=
  VS.read (Elt F) (VS.writes (Elt F) VS.junk (kernelRunC c i arg2 harg2 arg3 harg3 arg4 harg4 arg5 harg5 arg6 harg6 arg7 harg7 arg8 harg8 arg9 harg9 hc0 hc1 x0 x1 x2 x3 x4 x5 xs).2.1)

/-- Case C's pieces for the result's block tile it, so they cover it. -/
theorem ocoverC (c : Dev nD) (i : grid0.Coords) (arg2 : Memref sig .tc .vmem S512x512 .bf16) (harg2 : arg2.IsWhole) (arg3 : Memref sig .tc .vmem S8192x512 .bf16) (harg3 : arg3.IsWhole) (arg4 : Memref sig .tc .vmem S512x1 .f32) (harg4 : arg4.IsWhole) (arg5 : Memref sig .tc .vmem S1x2048 .f32) (harg5 : arg5.IsWhole) (arg6 : Memref sig .tc .vmem S512x1 .i32) (harg6 : arg6.IsWhole) (arg7 : Memref sig .tc .vmem S1x2048 .i32) (harg7 : arg7.IsWhole) (arg8 : Memref sig .tc .vmem S1x1x128 .f32) (harg8 : arg8.IsWhole) (arg9 : Memref sig .tc .vmem S512x1 .f32) (harg9 : arg9.IsWhole) (hc0 : ¬cond0 i) (hc1 : cond1 i)
    (x0 : Vec F S512x512 .bf16) (x1 : Vec F S8192x512 .bf16) (x2 : Vec F S512x1 .f32) (x3 : Vec F S1x2048 .f32) (x4 : Vec F S512x1 .i32) (x5 : Vec F S1x2048 .i32) (xs : Vec F S512x1 .f32) (y : S1x1x128.Idx) :
    ∃ pc ∈ (kernelRunC c i arg2 harg2 arg3 harg3 arg4 harg4 arg5 harg5 arg6 harg6 arg7 harg7 arg8 harg8 arg9 harg9 hc0 hc1 x0 x1 x2 x3 x4 x5 xs).1, y ∈ pc.1.set :=
  View.cover_of_tiledL (kernelRunC c i arg2 harg2 arg3 harg3 arg4 harg4 arg5 harg5 arg6 harg6 arg7 harg7 arg8 harg8 arg9 harg9 hc0 hc1 x0 x1 x2 x3 x4 x5 xs).1 S1x1x128.size (by sl_kernel_rfl) y

/-- What case C leaves in the result's staging buffer: its pieces read back. -/
def outC (c : Dev nD) (i : grid0.Coords) (arg2 : Memref sig .tc .vmem S512x512 .bf16) (harg2 : arg2.IsWhole) (arg3 : Memref sig .tc .vmem S8192x512 .bf16) (harg3 : arg3.IsWhole) (arg4 : Memref sig .tc .vmem S512x1 .f32) (harg4 : arg4.IsWhole) (arg5 : Memref sig .tc .vmem S1x2048 .f32) (harg5 : arg5.IsWhole) (arg6 : Memref sig .tc .vmem S512x1 .i32) (harg6 : arg6.IsWhole) (arg7 : Memref sig .tc .vmem S1x2048 .i32) (harg7 : arg7.IsWhole) (arg8 : Memref sig .tc .vmem S1x1x128 .f32) (harg8 : arg8.IsWhole) (arg9 : Memref sig .tc .vmem S512x1 .f32) (harg9 : arg9.IsWhole) (hc0 : ¬cond0 i) (hc1 : cond1 i)
    (x0 : Vec F S512x512 .bf16) (x1 : Vec F S8192x512 .bf16) (x2 : Vec F S512x1 .f32) (x3 : Vec F S1x2048 .f32) (x4 : Vec F S512x1 .i32) (x5 : Vec F S1x2048 .i32) (xs : Vec F S512x1 .f32) : Vec F S1x1x128 .f32 :=
  VO.read (Elt F) (VO.writes (Elt F) VO.junk (kernelRunC c i arg2 harg2 arg3 harg3 arg4 harg4 arg5 harg5 arg6 harg6 arg7 harg7 arg8 harg8 arg9 harg9 hc0 hc1 x0 x1 x2 x3 x4 x5 xs).1)

/-! ## The scratch column point by point -/

/-- The scratch column after point n. -/
def accAt (c : Dev nD) : (n : ℕ) → n < cfg0.N → Vec F S512x1 .f32
  | 0, hn => soutA c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (ms6 ⟨0, hn⟩) (hs6 ⟨0, hn⟩) scM (Memref.isWhole_whole _) ((hcond0 ⟨0, hn⟩).mpr (Nat.zero_mod _)) (fun h => by have := (hcond1 ⟨0, hn⟩).mp h; dsimp only at this; omega) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩)
  | n + 1, hn =>
    if h0 : (n + 1) % 4 = 0 then
      soutA c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) scM (Memref.isWhole_whole _) ((hcond0 ⟨n + 1, hn⟩).mpr h0) (fun h => by have := (hcond1 ⟨n + 1, hn⟩).mp h; dsimp only at this; omega) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩)
    else if h1 : (n + 1) % 4 = 3 then
      soutC c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) scM (Memref.isWhole_whole _) (fun h => h0 ((hcond0 ⟨n + 1, hn⟩).mp h)) ((hcond1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (accAt c n (Nat.lt_of_succ_lt hn))
    else
      soutB c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) scM (Memref.isWhole_whole _) (fun h => h0 ((hcond0 ⟨n + 1, hn⟩).mp h)) (fun h => h1 ((hcond1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (accAt c n (Nat.lt_of_succ_lt hn))

theorem accAt_A (c : Dev nD) (t : Fin cfg0.N) (h0 : t.val % 4 = 0) (h1 : ¬t.val % 4 = 3) :
    accAt m c t.val t.isLt = soutA c (grid0.coords t) (ms0 t) (hs0 t) (ms1 t) (hs1 t) (ms2 t) (hs2 t) (ms3 t) (hs3 t) (ms4 t) (hs4 t) (ms5 t) (hs5 t) (ms6 t) (hs6 t) scM (Memref.isWhole_whole _) ((hcond0 t).mpr h0) (fun h => h1 ((hcond1 t).mp h)) (iblk m c 0 t) (iblk m c 1 t) (iblk m c 2 t) (iblk m c 3 t) (iblk m c 4 t) (iblk m c 5 t) := by
  obtain ⟨n, hn⟩ := t
  cases n with
  | zero => exact rfl
  | succ n => exact (dif_pos h0).trans rfl

theorem accAt_B (c : Dev nD) (t : Fin cfg0.N) (h0 : ¬t.val % 4 = 0) (h1 : ¬t.val % 4 = 3) :
    accAt m c t.val t.isLt = soutB c (grid0.coords t) (ms0 t) (hs0 t) (ms1 t) (hs1 t) (ms2 t) (hs2 t) (ms3 t) (hs3 t) (ms4 t) (hs4 t) (ms5 t) (hs5 t) (ms6 t) (hs6 t) scM (Memref.isWhole_whole _) (fun h => h0 ((hcond0 t).mp h)) (fun h => h1 ((hcond1 t).mp h)) (iblk m c 0 t) (iblk m c 1 t) (iblk m c 2 t) (iblk m c 3 t) (iblk m c 4 t) (iblk m c 5 t) (accAt m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

theorem accAt_C (c : Dev nD) (t : Fin cfg0.N) (h0 : ¬t.val % 4 = 0) (h1 : t.val % 4 = 3) :
    accAt m c t.val t.isLt = soutC c (grid0.coords t) (ms0 t) (hs0 t) (ms1 t) (hs1 t) (ms2 t) (hs2 t) (ms3 t) (hs3 t) (ms4 t) (hs4 t) (ms5 t) (hs5 t) (ms6 t) (hs6 t) scM (Memref.isWhole_whole _) (fun h => h0 ((hcond0 t).mp h)) ((hcond1 t).mpr h1) (iblk m c 0 t) (iblk m c 1 t) (iblk m c 2 t) (iblk m c 3 t) (iblk m c 4 t) (iblk m c 5 t) (accAt m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-- The result window's staging buffer after point t: the block the body stores at a point whose column block is 3
    (elsewhere the window is idle, not written back, and this is not consulted). -/
def outAt (c : Dev nD) (t : Fin cfg0.N) : Vec F S1x1x128 .f32 :=
  if h1 : t.val % 4 = 3 then
    outC c (grid0.coords t) (ms0 t) (hs0 t) (ms1 t) (hs1 t) (ms2 t) (hs2 t) (ms3 t) (hs3 t) (ms4 t) (hs4 t) (ms5 t) (hs5 t) (ms6 t) (hs6 t) scM (Memref.isWhole_whole _) (fun h => by have := (hcond0 t).mp h; omega) ((hcond1 t).mpr h1) (iblk m c 0 t) (iblk m c 1 t) (iblk m c 2 t) (iblk m c 3 t) (iblk m c 4 t) (iblk m c 5 t) (accAt m c (t.val - 1) (Nat.lt_of_le_of_lt (Nat.sub_le _ _) t.isLt))
  else VO.read (Elt F) VO.junk

theorem outAt_C (c : Dev nD) (t : Fin cfg0.N) (h0 : ¬t.val % 4 = 0) (h1 : t.val % 4 = 3) :
    outAt m c t = outC c (grid0.coords t) (ms0 t) (hs0 t) (ms1 t) (hs1 t) (ms2 t) (hs2 t) (ms3 t) (hs3 t) (ms4 t) (hs4 t) (ms5 t) (hs5 t) (ms6 t) (hs6 t) scM (Memref.isWhole_whole _) (fun h => h0 ((hcond0 t).mp h)) ((hcond1 t).mpr h1) (iblk m c 0 t) (iblk m c 1 t) (iblk m c 2 t) (iblk m c 3 t) (iblk m c 4 t) (iblk m c 5 t) (accAt m c (t.val - 1) (Nat.lt_of_le_of_lt (Nat.sub_le _ _) t.isLt)) := by
  unfold outAt; rw [dif_pos h1]

/-- The region's invariant before position n: before the first point the scoped rest (the scratch column at anything),
    afterwards the scratch column at what the point before left. -/
def PhiS (c : Dev nD) : (n : ℕ) → n ≤ cfg0.N → sProp 𝕄
  | 0, _ => Pipeline.scopedRest spec0 c
  | n + 1, hn => owns (c : Thread nD τ) scM fullShare (accAt m c n hn)

theorem PhiS_zero (c : Dev nD) (n : ℕ) (h : n ≤ cfg0.N) (hz : n = 0) : PhiS m c n h = Pipeline.scopedRest spec0 c := by
  subst hz; rfl
theorem PhiS_succ (c : Dev nD) (n : ℕ) (hn : n < cfg0.N) :
    PhiS m c (n + 1) hn = owns (c : Thread nD τ) scM fullShare (accAt m c n hn) := rfl
theorem PhiS_pos (c : Dev nD) (n : ℕ) (h : n ≤ cfg0.N) (hz : n ≠ 0) :
    PhiS m c n h = owns (c : Thread nD τ) scM fullShare (accAt m c (n - 1) (by omega)) := by
  cases n with
  | zero => exact absurd rfl hz
  | succ n => rfl

/-! ## The proof data -/

/-- The proof data on core c: the arrays as the region finds them; after the body each input's buffer at its block and
    the result's at outAt; the invariant PhiS; the feature array's two windows at the two halves of the full share. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outAt m c t
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = outAt m c t := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 8000000 in
/-- The body at any point: the inputs' buffers hold their blocks; the point's column block says which case it is in; the
    invariant hands the body the scratch column at what the point before left (at anything at the first point) and takes it
    back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).owesAt () t.succ = (dats m 0 c).owesAt () t.castSucc from rfl]
  rw [show (dats m 0 c).Φ t.succ = PhiS m c (t.val + 1) t.isLt from rfl, PhiS_succ]
  have hN : t.val < 64 := lt_of_lt_of_eq t.isLt (show cfg0.N = 64 from N_0)
  by_cases h0 : t.val % 4 = 0
  · have h1 : ¬t.val % 4 = 3 := by omega
    · rw [show (dats m 0 c).leavesExact 0 t = owns (c : Thread nD τ) (ms0 t) fullShare ((dats m 0 c).after 0 t) from rfl, after0]
      rw [show (dats m 0 c).leavesExact 1 t = owns (c : Thread nD τ) (ms1 t) fullShare ((dats m 0 c).after 1 t) from rfl, after1]
      rw [show (dats m 0 c).leavesExact 2 t = owns (c : Thread nD τ) (ms2 t) fullShare ((dats m 0 c).after 2 t) from rfl, after2]
      rw [show (dats m 0 c).leavesExact 3 t = owns (c : Thread nD τ) (ms3 t) fullShare ((dats m 0 c).after 3 t) from rfl, after3]
      rw [show (dats m 0 c).leavesExact 4 t = owns (c : Thread nD τ) (ms4 t) fullShare ((dats m 0 c).after 4 t) from rfl, after4]
      rw [show (dats m 0 c).leavesExact 5 t = owns (c : Thread nD τ) (ms5 t) fullShare ((dats m 0 c).after 5 t) from rfl, after5]
      rw [Dat.leavesExact_idle (dats m 0 c) 6 t (idleAt6 t (fun h => h1 ((hcond1 t).mp h))) (noFlush6 t (fun h => h1 ((hcond1 t).mp h)))]
      rw [accAt_A m c t h0 h1]
      unfold soutA; (try dsimp only)
      by_cases hz : t.val = 0
      · rw [PhiS_castSucc m c t, PhiS_zero m c _ _ hz, scopedRest_eq]
        iintro ⟨HS, Ho, ⟨%d0, H0⟩, ⟨%d1, H1⟩, ⟨%d2, H2⟩, ⟨%d3, H3⟩, ⟨%d4, H4⟩, ⟨%d5, H5⟩, ⟨%d6, H6⟩⟩
        iapply ((kernelRunA c (grid0.coords t) _ _ _ _ _ _ _ _ _ _ _ _ _ _ _ _ ((hcond0 t).mpr h0) (fun h => h1 ((hcond1 t).mp h)) (iblk m c 0 t) (iblk m c 1 t) (iblk m c 2 t) (iblk m c 3 t) (iblk m c 4 t) (iblk m c 5 t)).2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS]; · iexact HS
        iintro ⟨H0, H1, H2, H3, H4, H5, H6, ⟨%es, HS⟩⟩
        isplitl [HS]
        · unfold owns; iexists _; isplitr
          swap; · iexact HS
          ipureintro; exact View.read_writes_of_cover _ _ _ _ _ (scoverA c _ _ _ _ _ _ _ _ _ _ _ _ _ _ _ _ _ _ _ _ _ _ _ _ _)
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6
      · rw [PhiS_castSucc m c t, PhiS_pos m c _ _ hz]
        iintro ⟨HS, Ho, ⟨%d0, H0⟩, ⟨%d1, H1⟩, ⟨%d2, H2⟩, ⟨%d3, H3⟩, ⟨%d4, H4⟩, ⟨%d5, H5⟩, ⟨%d6, H6⟩⟩
        iapply ((kernelRunA c (grid0.coords t) _ _ _ _ _ _ _ _ _ _ _ _ _ _ _ _ ((hcond0 t).mpr h0) (fun h => h1 ((hcond1 t).mp h)) (iblk m c 0 t) (iblk m c 1 t) (iblk m c 2 t) (iblk m c 3 t) (iblk m c 4 t) (iblk m c 5 t)).2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS]; · iexists _; iexact HS
        iintro ⟨H0, H1, H2, H3, H4, H5, H6, ⟨%es, HS⟩⟩
        isplitl [HS]
        · unfold owns; iexists _; isplitr
          swap; · iexact HS
          ipureintro; exact View.read_writes_of_cover _ _ _ _ _ (scoverA c _ _ _ _ _ _ _ _ _ _ _ _ _ _ _ _ _ _ _ _ _ _ _ _ _)
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6
  · by_cases h1 : t.val % 4 = 3
    · rw [show (dats m 0 c).leavesExact 0 t = owns (c : Thread nD τ) (ms0 t) fullShare ((dats m 0 c).after 0 t) from rfl, after0]
      rw [show (dats m 0 c).leavesExact 1 t = owns (c : Thread nD τ) (ms1 t) fullShare ((dats m 0 c).after 1 t) from rfl, after1]
      rw [show (dats m 0 c).leavesExact 2 t = owns (c : Thread nD τ) (ms2 t) fullShare ((dats m 0 c).after 2 t) from rfl, after2]
      rw [show (dats m 0 c).leavesExact 3 t = owns (c : Thread nD τ) (ms3 t) fullShare ((dats m 0 c).after 3 t) from rfl, after3]
      rw [show (dats m 0 c).leavesExact 4 t = owns (c : Thread nD τ) (ms4 t) fullShare ((dats m 0 c).after 4 t) from rfl, after4]
      rw [show (dats m 0 c).leavesExact 5 t = owns (c : Thread nD τ) (ms5 t) fullShare ((dats m 0 c).after 5 t) from rfl, after5]
      rw [show (dats m 0 c).leavesExact 6 t = owns (c : Thread nD τ) (ms6 t) fullShare ((dats m 0 c).after 6 t) from by
        unfold Dat.leavesExact; rw [liveAt6 t ((hcond1 t).mpr h1)], after6]
      rw [accAt_C m c t h0 h1, outAt_C m c t h0 h1]
      unfold outC soutC; (try dsimp only)
      have hz : t.val ≠ 0 := by omega
      · rw [PhiS_castSucc m c t, PhiS_pos m c _ _ hz]
        iintro ⟨HS, Ho, ⟨%d0, H0⟩, ⟨%d1, H1⟩, ⟨%d2, H2⟩, ⟨%d3, H3⟩, ⟨%d4, H4⟩, ⟨%d5, H5⟩, ⟨%d6, H6⟩⟩
        iapply ((kernelRunC c (grid0.coords t) _ _ _ _ _ _ _ _ _ _ _ _ _ _ _ _ (fun h => h0 ((hcond0 t).mp h)) ((hcond1 t).mpr h1) (iblk m c 0 t) (iblk m c 1 t) (iblk m c 2 t) (iblk m c 3 t) (iblk m c 4 t) (iblk m c 5 t) _).2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [HS]; · iexact HS
        iintro ⟨H0, H1, H2, H3, H4, H5, ⟨%e6, H6⟩, ⟨%es, HS⟩⟩
        isplitl [HS]
        · unfold owns; iexists _; isplitr
          swap; · iexact HS
          ipureintro; exact View.read_writes_of_cover _ _ _ _ _ (scoverC c _ _ _ _ _ _ _ _ _ _ _ _ _ _ _ _ _ _ _ _ _ _ _ _ _ _)
        isplitl [Ho]; · iexact Ho
        isplitl [H0]; · iexact H0
        isplitl [H1]; · iexact H1
        isplitl [H2]; · iexact H2
        isplitl [H3]; · iexact H3
        isplitl [H4]; · iexact H4
        isplitl [H5]; · iexact H5
        unfold owns; iexists _; isplitr
        swap; · iexact H6
        ipureintro; exact View.read_writes_of_cover _ _ _ _ _ (ocoverC c _ _ _ _ _ _ _ _ _ _ _ _ _ _ _ _ _ _ _ _ _ _ _ _ _ _)
    · rw [show (dats m 0 c).leavesExact 0 t = owns (c : Thread nD τ) (ms0 t) fullShare ((dats m 0 c).after 0 t) from rfl, after0]
      rw [show (dats m 0 c).leavesExact 1 t = owns (c : Thread nD τ) (ms1 t) fullShare ((dats m 0 c).after 1 t) from rfl, after1]
      rw [show (dats m 0 c).leavesExact 2 t = owns (c : Thread nD τ) (ms2 t) fullShare ((dats m 0 c).after 2 t) from rfl, after2]
      rw [show (dats m 0 c).leavesExact 3 t = owns (c : Thread nD τ) (ms3 t) fullShare ((dats m 0 c).after 3 t) from rfl, after3]
      rw [show (dats m 0 c).leavesExact 4 t = owns (c : Thread nD τ) (ms4 t) fullShare ((dats m 0 c).after 4 t) from rfl, after4]
      rw [show (dats m 0 c).leavesExact 5 t = owns (c : Thread nD τ) (ms5 t) fullShare ((dats m 0 c).after 5 t) from rfl, after5]
      rw [Dat.leavesExact_idle (dats m 0 c) 6 t (idleAt6 t (fun h => h1 ((hcond1 t).mp h))) (noFlush6 t (fun h => h1 ((hcond1 t).mp h)))]
      rw [accAt_B m c t h0 h1]
      unfold soutB; (try dsimp only)
      have hz : t.val ≠ 0 := by omega
      · rw [PhiS_castSucc m c t, PhiS_pos m c _ _ hz]
        iintro ⟨HS, Ho, ⟨%d0, H0⟩, ⟨%d1, H1⟩, ⟨%d2, H2⟩, ⟨%d3, H3⟩, ⟨%d4, H4⟩, ⟨%d5, H5⟩, ⟨%d6, H6⟩⟩
        iapply ((kernelRunB c (grid0.coords t) _ _ _ _ _ _ _ _ _ _ _ _ _ _ _ _ (fun h => h0 ((hcond0 t).mp h)) (fun h => h1 ((hcond1 t).mp h)) (iblk m c 0 t) (iblk m c 1 t) (iblk m c 2 t) (iblk m c 3 t) (iblk m c 4 t) (iblk m c 5 t) _).2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS]; · iexact HS
        iintro ⟨H0, H1, H2, H3, H4, H5, H6, ⟨%es, HS⟩⟩
        isplitl [HS]
        · unfold owns; iexists _; isplitr
          swap; · iexact HS
          ipureintro; exact View.read_writes_of_cover _ _ _ _ _ (scoverB c _ _ _ _ _ _ _ _ _ _ _ _ _ _ _ _ _ _ _ _ _ _ _ _ _ _)
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6

/-- The library's body obligation, at every point. -/
theorem body_obligation (c : Dev nD) : BodyObligation (dats (F := F) m 0 c) (defs₀ (F := F)) Variants.none () Set.univ := fun t => by
  rw [bigSep_W0, bigSep_W0]
  exact sound_body m c t

theorem hin (c : Dev nD) : (Pipeline.scopedRest spec0 c : sProp 𝕄) ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ (Pipeline.scopedRest spec0 c : sProp 𝕄) := by
  have hN : cfg0.N = 64 := N_0
  rw [show (dats m 0 c).Φ (Fin.last cfg0.N) = PhiS m c (Fin.last cfg0.N).val (Nat.le_of_lt_succ (Fin.last cfg0.N).isLt) from rfl,
    PhiS_pos m c _ _ (by rw [Fin.val_last]; omega), scopedRest_eq]
  iintro HS
  iexists _; iexact HS

end Cert.Kernel.Hand

end
-- ==== Proof.KB.Run.lean ====
/-
  The run of @main.

  When the region ends every input array holds what it held at its entry and the result array holds what the write-backs
  left (the proof data's array after the last point); the exit contents Wfin are the entry contents with the result array
  replaced by that. The feature array, held whole at the region's entry, is dealt to its two windows at the two halves of
  the full share and joined again at the exit, where both halves are at the entry contents. The four host lines after the
  region run from Wfin. Both argument arrays bypass the region and no host line writes them, so they end unchanged.
-/
import proofs.«160762_j20109036879978_2_alg».proof.Proof.KB.Frame

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffer contents when the region ends: the entry contents, the result array at what the write-backs left. -/
def Wfin (c : Dev nD) : Valuation τ sig (Elt F) :=
  Function.update (V0 m c) (Proc.devRef .tc main_v7) ((dats m 0 c).arrAt 6 cfg0.N)

theorem Wfin_v7 (c : Dev nD) : Wfin m c (Proc.devRef .tc main_v7) = (dats m 0 c).arrAt 6 cfg0.N := by
  unfold Wfin; exact Function.update_self _ _ _

theorem Wfin_ne (c : Dev nD) (b : Ref sig .tc) (h : b ≠ main_v7) : Wfin m c (Proc.devRef .tc b) = V m c b := by
  unfold Wfin; exact Function.update_of_ne (fun e => h (Proc.devRef_injective _ e)) _ _

theorem hrest (c : Dev nD) : ∀ b ∈ Pipeline.restRefs sig spec0, Wfin m c (Proc.devRef .tc b) = V0 m c (Proc.devRef .tc b) := fun b hb =>
  Wfin_ne m c b (fun e => (Finset.mem_sdiff.mp hb).2
    (Finset.mem_image.mpr ⟨6, Finset.mem_univ _, (show Pipeline.arrRef spec0 6 = main_v7 from rfl).trans e.symm⟩))

/-- The distinct buffers behind the windows' arrays, one by one. -/
theorem arrBufs_eq (c : Dev nD) (W : (b : Ref sig .tc) → Buf (Elt F) ((c : Thread nD τ).loc b)) :
    (Pipeline.arrBufs spec0 c W : sProp 𝕄) = iprop((((c : Thread nD τ).loc main_v0) ↦{fullShare} W main_v0) ∗ (((c : Thread nD τ).loc main_v3) ↦{fullShare} W main_v3) ∗ (((c : Thread nD τ).loc main_v4) ↦{fullShare} W main_v4) ∗ (((c : Thread nD τ).loc main_v5) ↦{fullShare} W main_v5) ∗ (((c : Thread nD τ).loc main_v6) ↦{fullShare} W main_v6) ∗ (((c : Thread nD τ).loc main_v7) ↦{fullShare} W main_v7)) := by
  unfold Pipeline.arrBufs
  exact bigSep_eq_bigSepL_of_eq [main_v0, main_v3, main_v4, main_v5, main_v6, main_v7] (by decide) (by decide) _

/-- The proof data's arrays, one by one: every array a whole buffer; the feature array's two windows at the two halves. -/
theorem arrays_chain (c : Dev nD) (G : (w : Fin cfg0.W) → Buf (Elt F) ((cfg0.win w).arr.view.loc (c.tc : Thread nD τ))) :
    ((dats m 0 c).arrays G : sProp 𝕄) = iprop((((c : Thread nD τ).loc main_v0) ↦{fullShare.left} G 0) ∗ (((c : Thread nD τ).loc main_v0) ↦{fullShare.right} G 1) ∗ (((c : Thread nD τ).loc main_v3) ↦{fullShare} G 2) ∗ (((c : Thread nD τ).loc main_v4) ↦{fullShare} G 3) ∗ (((c : Thread nD τ).loc main_v5) ↦{fullShare} G 4) ∗ (((c : Thread nD τ).loc main_v6) ↦{fullShare} G 5) ∗ (((c : Thread nD τ).loc main_v7) ↦{fullShare} G 6)) := by
  unfold Dat.arrays
  rw [bigSep_W0]
  rw [show (cfg0.win 0).arr.view.set = Finset.univ from (arr_whole0 0).set_eq_univ]
  try rw [show (cfg0.win 1).arr.view.set = Finset.univ from (arr_whole0 1).set_eq_univ]
  rw [    show (cfg0.win 2).arr.view.set = Finset.univ from (arr_whole0 2).set_eq_univ,
    show (cfg0.win 3).arr.view.set = Finset.univ from (arr_whole0 3).set_eq_univ,
    show (cfg0.win 4).arr.view.set = Finset.univ from (arr_whole0 4).set_eq_univ,
    show (cfg0.win 5).arr.view.set = Finset.univ from (arr_whole0 5).set_eq_univ,
    show (cfg0.win 6).arr.view.set = Finset.univ from (arr_whole0 6).set_eq_univ]
  rw [show (dats m 0 c).share 0 = fullShare.left from rfl,
    show (dats m 0 c).share 1 = fullShare.right from rfl,
    show (dats m 0 c).share 2 = fullShare from rfl,
    show (dats m 0 c).share 3 = fullShare from rfl,
    show (dats m 0 c).share 4 = fullShare from rfl,
    show (dats m 0 c).share 5 = fullShare from rfl,
    show (dats m 0 c).share 6 = fullShare from rfl]

/-- At the entry the feature array is dealt to its two windows, each of the other arrays to its one window. -/
theorem hsplit (c : Dev nD) :
    (Pipeline.arrBufs spec0 c (fun b => V0 m c (Proc.devRef .tc b)) : sProp 𝕄) ⊢ (dats m 0 c).arrays ((dats m 0 c).arrAt · 0) := by
  rw [arrBufs_eq, arrays_chain]
  iintro ⟨H0, H3, H4, H5, H6, H7⟩
  ihave Hs := (pointsTo_share (PosShare.mem_left_op_right fullShare)).1 $$ H0
  icases Hs with ⟨Ha, Hb⟩
  isplitl [Ha]; · iexact Ha
  isplitl [Hb]; · iexact Hb
  isplitl [H3]; · iexact H3
  isplitl [H4]; · iexact H4
  isplitl [H5]; · iexact H5
  isplitl [H6]; · iexact H6
  iexact H7

/-- The inputs' arrays are never written. -/
theorem arrAt_in (c : Dev nD) (n : ℕ) :
    (dats m 0 c).arrAt 0 n = V m c main_v0 ∧ (dats m 0 c).arrAt 1 n = V m c main_v0 ∧ (dats m 0 c).arrAt 2 n = V m c main_v3
    ∧ (dats m 0 c).arrAt 3 n = V m c main_v4 ∧ (dats m 0 c).arrAt 4 n = V m c main_v5 ∧ (dats m 0 c).arrAt 5 n = V m c main_v6 :=
  ⟨((dats m 0 c).arrAt_in 0 rfl n).trans (A_eq m c 0), ((dats m 0 c).arrAt_in 1 rfl n).trans (A_eq m c 1),
   ((dats m 0 c).arrAt_in 2 rfl n).trans (A_eq m c 2), ((dats m 0 c).arrAt_in 3 rfl n).trans (A_eq m c 3),
   ((dats m 0 c).arrAt_in 4 rfl n).trans (A_eq m c 4), ((dats m 0 c).arrAt_in 5 rfl n).trans (A_eq m c 5)⟩

/-- At the exit the two halves of the feature array, both at the entry contents, make it whole again. -/
theorem hjoin (c : Dev nD) :
    (dats m 0 c).arrays ((dats m 0 c).arrAt · cfg0.N) ⊢ (Pipeline.arrBufs spec0 c (fun b => Wfin m c (Proc.devRef .tc b)) : sProp 𝕄) := by
  rw [arrBufs_eq, arrays_chain]
  obtain ⟨e0, e1, e2, e3, e4, e5⟩ := arrAt_in m c cfg0.N
  rw [Wfin_ne m c main_v0 (by decide), Wfin_ne m c main_v3 (by decide), Wfin_ne m c main_v4 (by decide), Wfin_ne m c main_v5 (by decide),
    Wfin_ne m c main_v6 (by decide), Wfin_v7 m c]
  try dsimp only
  rw [e0, e1, e2, e3, e4, e5]
  iintro ⟨H0, H1, H2, H3, H4, H5, H6⟩
  isplitl [H0 H1]
  · iapply (pointsTo_share (PosShare.mem_left_op_right fullShare)).2
    isplitl [H0]; · iexact H0
    iexact H1
  isplitl [H2]; · iexact H2
  isplitl [H3]; · iexact H3
  isplitl [H4]; · iexact H4
  isplitl [H5]; · iexact H5
  iexact H6

/-- And it is dealt again for the lines after the region. -/
theorem hback (c : Dev nD) :
    (Pipeline.arrBufs spec0 c (fun b => Wfin m c (Proc.devRef .tc b)) : sProp 𝕄) ⊢ (dats m 0 c).arrays ((dats m 0 c).arrAt · cfg0.N) := by
  rw [arrBufs_eq, arrays_chain]
  obtain ⟨e0, e1, e2, e3, e4, e5⟩ := arrAt_in m c cfg0.N
  rw [Wfin_ne m c main_v0 (by decide), Wfin_ne m c main_v3 (by decide), Wfin_ne m c main_v4 (by decide), Wfin_ne m c main_v5 (by decide),
    Wfin_ne m c main_v6 (by decide), Wfin_v7 m c]
  try dsimp only
  rw [e0, e1, e2, e3, e4, e5]
  iintro ⟨H0, H3, H4, H5, H6, H7⟩
  ihave Hs := (pointsTo_share (PosShare.mem_left_op_right fullShare)).1 $$ H0
  icases Hs with ⟨Ha, Hb⟩
  isplitl [Ha]; · iexact Ha
  isplitl [Hb]; · iexact Hb
  isplitl [H3]; · iexact H3
  isplitl [H4]; · iexact H4
  isplitl [H5]; · iexact H5
  isplitl [H6]; · iexact H6
  iexact H7

set_option backward.isDefEq.respectTransparency.types false in
/-- Every weakly fair execution of @main terminates; every array of the region ends at what the proof data computes, every
    other unscoped buffer at what the four later host lines leave, run from the exit contents. -/
theorem run_main : θ_run defs (onTc (τ := τ) (main (F := F))) (s₀ m ρ)
    (fun r => ∀ c : Dev nD,
        (∀ w, r.2.mem ((spec0 w).arr.view.loc (c.tc : Thread nD τ)) = (dats m 0 c).arrAt w cfg0.N)
        ∧ ∀ b ∈ Pipeline.restRefs sig spec0,
            r.2.mem ((c.tc : Thread nD τ).loc b) = StableHlo.after (List.flatten [hostOps1]) (Wfin m c) (Proc.devRef .tc b)) :=
  Cert.SharedArrayTail.θ_run_frame_around_track_shared cfgs (dats m) (0 : Fin 1) cellOf_inj winFacts₀0 block_pos0 arr_whole0 stage_whole0
    defs₀ Variants.none m ρ main
    (hbody := fun c => (body_obligation m c).loose) (howed := fun _ _ => rfl) (V₀ := V0 m) (Wfin := Wfin m) (opss := [hostOps1])
    (hsub := sfx_sub) (hfresh := sfx_fresh) (hkeep := sfx_keeps) (hmain := hmain m Variants.none) (hrest := hrest m)
    (hsplit := hsplit m) (hjoin := hjoin m) (hback := hback m) (hin := hin m) (hout := hout m)

/-- The later host lines write neither argument array, nor does the exit valuation differ from the entry one there, nor
    do the earlier host lines write them. -/
theorem tail_arg0 (c : Dev nD) :
    StableHlo.after (List.flatten [hostOps1]) (Wfin m c) (Proc.devRef .tc main_arg0) = m ((c.tc : Thread nD τ).loc main_arg0) := by
  rw [StableHlo.after_of_forall_not_mem _ _ (fun op hop => by
    simp only [List.flatten_cons, List.flatten_nil, List.append_nil, hostOps1, List.mem_cons, List.mem_nil_iff, or_false] at hop
    rcases hop with rfl | rfl | rfl | rfl <;>
      simp only [StableHlo.nullary_writes, StableHlo.binary_writes, Finset.mem_singleton] <;> exact StableHlo.devRef_ne_of_ne (by decide))]
  rw [Wfin_ne m c main_arg0 (by decide)]
  unfold V V0
  rw [StableHlo.after_of_forall_not_mem _ _ (fun op hop => by
    simp only [List.flatten_cons, List.flatten_nil, List.append_nil, hostOps0, List.mem_cons, List.mem_nil_iff, or_false] at hop
    rcases hop with rfl | rfl | rfl | rfl | rfl | rfl | rfl | rfl <;>
      simp only [StableHlo.nullary_writes, StableHlo.unary_writes, StableHlo.binary_writes, StableHlo.reshape_writes, Finset.mem_singleton] <;>
      exact StableHlo.devRef_ne_of_ne (by decide))]

theorem tail_arg1 (c : Dev nD) :
    StableHlo.after (List.flatten [hostOps1]) (Wfin m c) (Proc.devRef .tc main_arg1) = m ((c.tc : Thread nD τ).loc main_arg1) := by
  rw [StableHlo.after_of_forall_not_mem _ _ (fun op hop => by
    simp only [List.flatten_cons, List.flatten_nil, List.append_nil, hostOps1, List.mem_cons, List.mem_nil_iff, or_false] at hop
    rcases hop with rfl | rfl | rfl | rfl <;>
      simp only [StableHlo.nullary_writes, StableHlo.binary_writes, Finset.mem_singleton] <;> exact StableHlo.devRef_ne_of_ne (by decide))]
  rw [Wfin_ne m c main_arg1 (by decide)]
  unfold V V0
  rw [StableHlo.after_of_forall_not_mem _ _ (fun op hop => by
    simp only [List.flatten_cons, List.flatten_nil, List.append_nil, hostOps0, List.mem_cons, List.mem_nil_iff, or_false] at hop
    rcases hop with rfl | rfl | rfl | rfl | rfl | rfl | rfl | rfl <;>
      simp only [StableHlo.nullary_writes, StableHlo.unary_writes, StableHlo.binary_writes, StableHlo.reshape_writes, Finset.mem_singleton] <;>
      exact StableHlo.devRef_ne_of_ne (by decide))]

/-- THE FRAME: @main runs to the end and both argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨((h c).2 main_arg0 (Pipeline.mem_restRefs_of main_arg0 rfl (by decide))).trans (tail_arg0 m c),
     ((h c).2 main_arg1 (Pipeline.mem_restRefs_of main_arg1 rfl (by decide))).trans (tail_arg1 m c)⟩) (run_main m ρ)

end Cert.Kernel.Hand

end
-- ==== Proof.KI.Shared.lean ====
/-
  What the three runs of the kernel body and the frame share.

  @main is eight host lines (the cast of the features, their squared row norms, four reshapes), the kernel region, and
  four host lines (the sum of the region's result and its division). The region's grid is 16 x 4: the row block is the
  slow coordinate, the column block the fast one. The body zeroes its scratch column where the column block is 0
  (condition 0), adds the row sums of the pair contributions at every point, and stores the block of the result where the
  column block is 3 (condition 1); elsewhere the result window is idle and is not written back. Both conditions are decided
  over the grid here in closed form, point t being column block t mod 4.
-/
import proofs.«160762_j20109036879978_2_alg».proof.Proof.Gen.KernelIdeal.Launch
import proofs.«160762_j20109036879978_2_alg».proof.Proof.Gen.KernelIdeal.Skeleton
import proofs.«160762_j20109036879978_2_alg».proof.Proof.Gen.KernelIdeal.Points
import proofs.«160762_j20109036879978_2_alg».proof.Proof.LibSharedArrayTail
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The buffer contents on core c when the region is entered: the launch contents after the eight host lines. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host lines before the region, the region, and the host lines after it: run from the launch
    contents it reduces to the region, entered at V, continued by the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1]
    (List.forall_iff_forall_mem.mpr fun ops hops => by
      simp only [List.mem_cons, List.mem_nil_iff, or_false] at hops; subst hops; exact hostOps0_sub)
    (List.forall_iff_forall_mem.mpr fun ops hops => by
      simp only [List.mem_cons, List.mem_nil_iff, or_false] at hops; subst hops; exact hostOps0_fresh)
    main_chain

/-- The later lines touch only the region's arrays and the buffers that bypass it. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 winFacts₀0.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And write none of the region's arrays: each writes its own result buffer. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

/-! ## The windows' blocks -/

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not: unfetched, the
    block index has not moved since the fetch. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not: unfetched, the
    block index has not moved since the fetch. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not: unfetched, the
    block index has not moved since the fetch. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not: unfetched, the
    block index has not moved since the fetch. -/
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, fetched there or not: unfetched, the
    block index has not moved since the fetch. -/
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's current staging buffer holds its block at every point, fetched there or not: unfetched, the
    block index has not moved since the fetch. -/
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The body's two conditions -/

/-- Condition 0: the column block is 0. -/
abbrev cond0 (i : grid0.Coords) : Prop := (Scalar.cmpi .ne (Scalar.extui (Scalar.cmpi .eq (BitVec.ofNat 32 (i 1).val) 0#32)) 0#32) = 1#1
theorem hcond0 : ∀ t : Fin cfg0.N, cond0 (grid0.coords t) ↔ t.val % 4 = 0 :=
  (by decide +kernel : ∀ t : Fin grid0.N, cond0 (grid0.coords t) ↔ t.val % 4 = 0)

/-- Condition 1: the column block is 3, the last. -/
abbrev cond1 (i : grid0.Coords) : Prop := k0_cond2 i = 1#1
theorem hcond1 : ∀ t : Fin cfg0.N, cond1 (grid0.coords t) ↔ t.val % 4 = 3 :=
  (by decide +kernel : ∀ t : Fin grid0.N, cond1 (grid0.coords t) ↔ t.val % 4 = 3)

/-! ## Where the result window is idle -/

theorem idleAt6 : ∀ t : Fin cfg0.N, ¬cond1 (grid0.coords t) → cfg0.idle 6 (grid0.coords t) = true := by decide +kernel
theorem noFlush6 : ∀ t : Fin cfg0.N, ¬cond1 (grid0.coords t) → (cfg0.win 6).flush t = false := by decide +kernel
theorem liveAt6 : ∀ t : Fin cfg0.N, cond1 (grid0.coords t) → cfg0.idle 6 (grid0.coords t) = false := by decide +kernel

/-! ## The memrefs the body is called with -/

/-- One staging buffer of the result window, through which its contents are stated. -/
abbrev VO : View sig .tc .vmem S1x1x128 .f32 := (Memref.whole cc0_stg6_0 : Memref sig .tc .vmem S1x1x128 .f32).view
abbrev ms0 (t : Fin cfg0.N) : Memref sig .tc .vmem S512x512 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S8192x512 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S512x1 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x2048 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S512x1 .i32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x2048 .i32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x1x128 .f32 := win0_6.stage (cfg0.slots t 6)
abbrev hs6 (t : Fin cfg0.N) : (ms6 t).IsWhole := hstage0_6 ((cfg0.slots t 6).cast nbuf0_6)
/-- The scratch column, a whole scoped buffer of the kernel's own. -/
abbrev scM : Memref sig .tc .vmem S512x1 .f32 := Memref.whole cc0_scratch0
abbrev VS : View sig .tc .vmem S512x1 .f32 := scM.view

/-- The core's scoped buffers that are no staging buffer: the scratch column, at some contents. -/
theorem scopedRest_eq (c : Dev nD) :
    (Pipeline.scopedRest spec0 c : sProp 𝕄) = iprop(∃ d, owns (c : Thread nD τ) scM fullShare d) := by
  rw [scopedRest0_eq]; simp only [scM, owns_whole]; try rfl

end Cert.KernelIdeal.Hand

end
-- ==== Proof.KI.RunA.lean ====
/-
  The body's run where the column block is 0 and not the last (case A): the scratch column, found at any contents, is zeroed and then holds the zero column plus this point's row sums; the result window's buffer is handed back untouched. The pieces the scratch ends with are the witness the run finds.
-/
import proofs.«160762_j20109036879978_2_alg».proof.Proof.KI.Shared

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- Case A: on whole staging memrefs at the input blocks, the result's buffer at any contents handed back as it was,
    the body runs to the continuation holding the inputs as they were and the scratch with its pieces written. -/
noncomputable def kernelRunA (c : Dev nD) (i : grid0.Coords) (arg2 : Memref sig .tc .vmem S512x512 .bf16) (harg2 : arg2.IsWhole) (arg3 : Memref sig .tc .vmem S8192x512 .bf16) (harg3 : arg3.IsWhole) (arg4 : Memref sig .tc .vmem S512x1 .f32) (harg4 : arg4.IsWhole) (arg5 : Memref sig .tc .vmem S1x2048 .f32) (harg5 : arg5.IsWhole) (arg6 : Memref sig .tc .vmem S512x1 .i32) (harg6 : arg6.IsWhole) (arg7 : Memref sig .tc .vmem S1x2048 .i32) (harg7 : arg7.IsWhole) (arg8 : Memref sig .tc .vmem S1x1x128 .f32) (harg8 : arg8.IsWhole) (arg9 : Memref sig .tc .vmem S512x1 .f32) (harg9 : arg9.IsWhole) (hc0 : cond0 i) (hc1 : ¬cond1 i)
    (x0 : Vec F S512x512 .bf16) (x1 : Vec F S8192x512 .bf16) (x2 : Vec F S512x1 .f32) (x3 : Vec F S1x2048 .f32) (x4 : Vec F S512x1 .i32) (x5 : Vec F S1x2048 .i32) :
    { LS : List (View.Piece (Elt F) S512x1 .f32) //
      ∀ (xi6 : Vec F S1x1x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS)) -∗ K ⟨⟩))
          ⊢ wp frame (wpE (defs₀ (F := F)) Variants.none c none) E (cc0__contrastive_kernel i arg2 harg2 arg3 harg3 arg4 harg4 arg5 harg5 arg6 harg6 arg7 harg7 arg8 harg8 arg9 harg9) K } := by
  refine ⟨?_, fun xi6 E K => ?run⟩
  case run =>
    simp only [cc0__contrastive_kernel_eq_skeleton]; unfold cc0__contrastive_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds, %fs, -, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexists _; iexact HS

end Cert.KernelIdeal.Hand

end
-- ==== Proof.KI.RunB.lean ====
/-
  The body's run where the column block is neither 0 nor the last (case B): the scratch column, found at what the point before left, gains this point's row sums; the result window's buffer is handed back untouched. The pieces the scratch ends with are the witness the run finds.
-/
import proofs.«160762_j20109036879978_2_alg».proof.Proof.KI.RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- Case B: on whole staging memrefs at the input blocks, the result's buffer at any contents handed back as it was,
    the body runs to the continuation holding the inputs as they were and the scratch with its pieces written. -/
noncomputable def kernelRunB (c : Dev nD) (i : grid0.Coords) (arg2 : Memref sig .tc .vmem S512x512 .bf16) (harg2 : arg2.IsWhole) (arg3 : Memref sig .tc .vmem S8192x512 .bf16) (harg3 : arg3.IsWhole) (arg4 : Memref sig .tc .vmem S512x1 .f32) (harg4 : arg4.IsWhole) (arg5 : Memref sig .tc .vmem S1x2048 .f32) (harg5 : arg5.IsWhole) (arg6 : Memref sig .tc .vmem S512x1 .i32) (harg6 : arg6.IsWhole) (arg7 : Memref sig .tc .vmem S1x2048 .i32) (harg7 : arg7.IsWhole) (arg8 : Memref sig .tc .vmem S1x1x128 .f32) (harg8 : arg8.IsWhole) (arg9 : Memref sig .tc .vmem S512x1 .f32) (harg9 : arg9.IsWhole) (hc0 : ¬cond0 i) (hc1 : ¬cond1 i)
    (x0 : Vec F S512x512 .bf16) (x1 : Vec F S8192x512 .bf16) (x2 : Vec F S512x1 .f32) (x3 : Vec F S1x2048 .f32) (x4 : Vec F S512x1 .i32) (x5 : Vec F S1x2048 .i32) (xs : Vec F S512x1 .f32) :
    { LS : List (View.Piece (Elt F) S512x1 .f32) //
      ∀ (xi6 : Vec F S1x1x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS)) -∗ K ⟨⟩))
          ⊢ wp frame (wpE (defs₀ (F := F)) Variants.none c none) E (cc0__contrastive_kernel i arg2 harg2 arg3 harg3 arg4 harg4 arg5 harg5 arg6 harg6 arg7 harg7 arg8 harg8 arg9 harg9) K } := by
  refine ⟨?_, fun xi6 E K => ?run⟩
  case run =>
    simp only [cc0__contrastive_kernel_eq_skeleton]; unfold cc0__contrastive_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexists _; iexact HS

end Cert.KernelIdeal.Hand

end
-- ==== Proof.KI.RunC.lean ====
/-
  The body's run where the column block is the last (case C): the scratch column, found at what the point before left, gains this point's row sums, and the result window's buffer, found at any contents, is stored whole with the column's total at lane 0 and zeros elsewhere. The pieces each buffer ends with are the witness the run finds.
-/
import proofs.«160762_j20109036879978_2_alg».proof.Proof.KI.RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- Case C: on whole staging memrefs at the input blocks, the result's buffer at any contents, the scratch at xs, the
    body runs to the continuation holding the inputs as they were and both buffers with their pieces written. -/
noncomputable def kernelRunC (c : Dev nD) (i : grid0.Coords) (arg2 : Memref sig .tc .vmem S512x512 .bf16) (harg2 : arg2.IsWhole) (arg3 : Memref sig .tc .vmem S8192x512 .bf16) (harg3 : arg3.IsWhole) (arg4 : Memref sig .tc .vmem S512x1 .f32) (harg4 : arg4.IsWhole) (arg5 : Memref sig .tc .vmem S1x2048 .f32) (harg5 : arg5.IsWhole) (arg6 : Memref sig .tc .vmem S512x1 .i32) (harg6 : arg6.IsWhole) (arg7 : Memref sig .tc .vmem S1x2048 .i32) (harg7 : arg7.IsWhole) (arg8 : Memref sig .tc .vmem S1x1x128 .f32) (harg8 : arg8.IsWhole) (arg9 : Memref sig .tc .vmem S512x1 .f32) (harg9 : arg9.IsWhole) (hc0 : ¬cond0 i) (hc1 : cond1 i)
    (x0 : Vec F S512x512 .bf16) (x1 : Vec F S8192x512 .bf16) (x2 : Vec F S512x1 .f32) (x3 : Vec F S1x2048 .f32) (x4 : Vec F S512x1 .i32) (x5 : Vec F S1x2048 .i32) (xs : Vec F S512x1 .f32) :
    Σ' (L6 : List (View.Piece (Elt F) S1x1x128 .f32)), { LS : List (View.Piece (Elt F) S512x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS)) -∗ K ⟨⟩))
          ⊢ wp frame (wpE (defs₀ (F := F)) Variants.none c none) E (cc0__contrastive_kernel i arg2 harg2 arg3 harg3 arg4 harg4 arg5 harg5 arg6 harg6 arg7 harg7 arg8 harg8 arg9 harg9) K } := by
  refine ⟨?_, ?_, fun E K => ?run⟩
  case run =>
    simp only [cc0__contrastive_kernel_eq_skeleton]; unfold cc0__contrastive_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    iexists _; iexact HS

end Cert.KernelIdeal.Hand

end
-- ==== Proof.KI.Frame.lean ====
/-
  The frame of the kernel program.

  After point n the scratch column holds accAt n: at a point whose column block is 0 what the body leaves starting from
  the zero column, at any other point what it leaves starting from accAt (n - 1). The result window's buffer holds, after a
  point whose column block is 3, the block the body stores there from the column accAt n; at the other points the window is
  idle and is not written back. With these as the proof data every point of the grid meets its body obligation by the run
  of its case. The feature array is handed to the region twice, once row block by row block and once whole: the two windows
  hold it at the two halves of the full share, and it is put together again when the region ends. The four host lines after
  the region then run from the region's result, and every weakly fair execution of @main terminates with each array and each
  other buffer at the contents named here.
-/
import proofs.«160762_j20109036879978_2_alg».proof.Proof.KI.RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

/-- Case A's pieces for the scratch column tile it, so they cover it. -/
theorem scoverA (c : Dev nD) (i : grid0.Coords) (arg2 : Memref sig .tc .vmem S512x512 .bf16) (harg2 : arg2.IsWhole) (arg3 : Memref sig .tc .vmem S8192x512 .bf16) (harg3 : arg3.IsWhole) (arg4 : Memref sig .tc .vmem S512x1 .f32) (harg4 : arg4.IsWhole) (arg5 : Memref sig .tc .vmem S1x2048 .f32) (harg5 : arg5.IsWhole) (arg6 : Memref sig .tc .vmem S512x1 .i32) (harg6 : arg6.IsWhole) (arg7 : Memref sig .tc .vmem S1x2048 .i32) (harg7 : arg7.IsWhole) (arg8 : Memref sig .tc .vmem S1x1x128 .f32) (harg8 : arg8.IsWhole) (arg9 : Memref sig .tc .vmem S512x1 .f32) (harg9 : arg9.IsWhole) (hc0 : cond0 i) (hc1 : ¬cond1 i)
    (x0 : Vec F S512x512 .bf16) (x1 : Vec F S8192x512 .bf16) (x2 : Vec F S512x1 .f32) (x3 : Vec F S1x2048 .f32) (x4 : Vec F S512x1 .i32) (x5 : Vec F S1x2048 .i32) (y : S512x1.Idx) :
    ∃ pc ∈ (kernelRunA c i arg2 harg2 arg3 harg3 arg4 harg4 arg5 harg5 arg6 harg6 arg7 harg7 arg8 harg8 arg9 harg9 hc0 hc1 x0 x1 x2 x3 x4 x5).1, y ∈ pc.1.set :=
  View.cover_of_tiledL (kernelRunA c i arg2 harg2 arg3 harg3 arg4 harg4 arg5 harg5 arg6 harg6 arg7 harg7 arg8 harg8 arg9 harg9 hc0 hc1 x0 x1 x2 x3 x4 x5).1 S512x1.size (by sl_kernel_rfl) y

/-- What case A leaves in the scratch column: its pieces read back. -/
def soutA (c : Dev nD) (i : grid0.Coords) (arg2 : Memref sig .tc .vmem S512x512 .bf16) (harg2 : arg2.IsWhole) (arg3 : Memref sig .tc .vmem S8192x512 .bf16) (harg3 : arg3.IsWhole) (arg4 : Memref sig .tc .vmem S512x1 .f32) (harg4 : arg4.IsWhole) (arg5 : Memref sig .tc .vmem S1x2048 .f32) (harg5 : arg5.IsWhole) (arg6 : Memref sig .tc .vmem S512x1 .i32) (harg6 : arg6.IsWhole) (arg7 : Memref sig .tc .vmem S1x2048 .i32) (harg7 : arg7.IsWhole) (arg8 : Memref sig .tc .vmem S1x1x128 .f32) (harg8 : arg8.IsWhole) (arg9 : Memref sig .tc .vmem S512x1 .f32) (harg9 : arg9.IsWhole) (hc0 : cond0 i) (hc1 : ¬cond1 i)
    (x0 : Vec F S512x512 .bf16) (x1 : Vec F S8192x512 .bf16) (x2 : Vec F S512x1 .f32) (x3 : Vec F S1x2048 .f32) (x4 : Vec F S512x1 .i32) (x5 : Vec F S1x2048 .i32) : Vec F S512x1 .f32 :=
  VS.read (Elt F) (VS.writes (Elt F) VS.junk (kernelRunA c i arg2 harg2 arg3 harg3 arg4 harg4 arg5 harg5 arg6 harg6 arg7 harg7 arg8 harg8 arg9 harg9 hc0 hc1 x0 x1 x2 x3 x4 x5).1)

/-- Case B's pieces for the scratch column tile it, so they cover it. -/
theorem scoverB (c : Dev nD) (i : grid0.Coords) (arg2 : Memref sig .tc .vmem S512x512 .bf16) (harg2 : arg2.IsWhole) (arg3 : Memref sig .tc .vmem S8192x512 .bf16) (harg3 : arg3.IsWhole) (arg4 : Memref sig .tc .vmem S512x1 .f32) (harg4 : arg4.IsWhole) (arg5 : Memref sig .tc .vmem S1x2048 .f32) (harg5 : arg5.IsWhole) (arg6 : Memref sig .tc .vmem S512x1 .i32) (harg6 : arg6.IsWhole) (arg7 : Memref sig .tc .vmem S1x2048 .i32) (harg7 : arg7.IsWhole) (arg8 : Memref sig .tc .vmem S1x1x128 .f32) (harg8 : arg8.IsWhole) (arg9 : Memref sig .tc .vmem S512x1 .f32) (harg9 : arg9.IsWhole) (hc0 : ¬cond0 i) (hc1 : ¬cond1 i)
    (x0 : Vec F S512x512 .bf16) (x1 : Vec F S8192x512 .bf16) (x2 : Vec F S512x1 .f32) (x3 : Vec F S1x2048 .f32) (x4 : Vec F S512x1 .i32) (x5 : Vec F S1x2048 .i32) (xs : Vec F S512x1 .f32) (y : S512x1.Idx) :
    ∃ pc ∈ (kernelRunB c i arg2 harg2 arg3 harg3 arg4 harg4 arg5 harg5 arg6 harg6 arg7 harg7 arg8 harg8 arg9 harg9 hc0 hc1 x0 x1 x2 x3 x4 x5 xs).1, y ∈ pc.1.set :=
  View.cover_of_tiledL (kernelRunB c i arg2 harg2 arg3 harg3 arg4 harg4 arg5 harg5 arg6 harg6 arg7 harg7 arg8 harg8 arg9 harg9 hc0 hc1 x0 x1 x2 x3 x4 x5 xs).1 S512x1.size (by sl_kernel_rfl) y

/-- What case B leaves in the scratch column: its pieces read back. -/
def soutB (c : Dev nD) (i : grid0.Coords) (arg2 : Memref sig .tc .vmem S512x512 .bf16) (harg2 : arg2.IsWhole) (arg3 : Memref sig .tc .vmem S8192x512 .bf16) (harg3 : arg3.IsWhole) (arg4 : Memref sig .tc .vmem S512x1 .f32) (harg4 : arg4.IsWhole) (arg5 : Memref sig .tc .vmem S1x2048 .f32) (harg5 : arg5.IsWhole) (arg6 : Memref sig .tc .vmem S512x1 .i32) (harg6 : arg6.IsWhole) (arg7 : Memref sig .tc .vmem S1x2048 .i32) (harg7 : arg7.IsWhole) (arg8 : Memref sig .tc .vmem S1x1x128 .f32) (harg8 : arg8.IsWhole) (arg9 : Memref sig .tc .vmem S512x1 .f32) (harg9 : arg9.IsWhole) (hc0 : ¬cond0 i) (hc1 : ¬cond1 i)
    (x0 : Vec F S512x512 .bf16) (x1 : Vec F S8192x512 .bf16) (x2 : Vec F S512x1 .f32) (x3 : Vec F S1x2048 .f32) (x4 : Vec F S512x1 .i32) (x5 : Vec F S1x2048 .i32) (xs : Vec F S512x1 .f32) : Vec F S512x1 .f32 :=
  VS.read (Elt F) (VS.writes (Elt F) VS.junk (kernelRunB c i arg2 harg2 arg3 harg3 arg4 harg4 arg5 harg5 arg6 harg6 arg7 harg7 arg8 harg8 arg9 harg9 hc0 hc1 x0 x1 x2 x3 x4 x5 xs).1)

/-- Case C's pieces for the scratch column tile it, so they cover it. -/
theorem scoverC (c : Dev nD) (i : grid0.Coords) (arg2 : Memref sig .tc .vmem S512x512 .bf16) (harg2 : arg2.IsWhole) (arg3 : Memref sig .tc .vmem S8192x512 .bf16) (harg3 : arg3.IsWhole) (arg4 : Memref sig .tc .vmem S512x1 .f32) (harg4 : arg4.IsWhole) (arg5 : Memref sig .tc .vmem S1x2048 .f32) (harg5 : arg5.IsWhole) (arg6 : Memref sig .tc .vmem S512x1 .i32) (harg6 : arg6.IsWhole) (arg7 : Memref sig .tc .vmem S1x2048 .i32) (harg7 : arg7.IsWhole) (arg8 : Memref sig .tc .vmem S1x1x128 .f32) (harg8 : arg8.IsWhole) (arg9 : Memref sig .tc .vmem S512x1 .f32) (harg9 : arg9.IsWhole) (hc0 : ¬cond0 i) (hc1 : cond1 i)
    (x0 : Vec F S512x512 .bf16) (x1 : Vec F S8192x512 .bf16) (x2 : Vec F S512x1 .f32) (x3 : Vec F S1x2048 .f32) (x4 : Vec F S512x1 .i32) (x5 : Vec F S1x2048 .i32) (xs : Vec F S512x1 .f32) (y : S512x1.Idx) :
    ∃ pc ∈ (kernelRunC c i arg2 harg2 arg3 harg3 arg4 harg4 arg5 harg5 arg6 harg6 arg7 harg7 arg8 harg8 arg9 harg9 hc0 hc1 x0 x1 x2 x3 x4 x5 xs).2.1, y ∈ pc.1.set :=
  View.cover_of_tiledL (kernelRunC c i arg2 harg2 arg3 harg3 arg4 harg4 arg5 harg5 arg6 harg6 arg7 harg7 arg8 harg8 arg9 harg9 hc0 hc1 x0 x1 x2 x3 x4 x5 xs).2.1 S512x1.size (by sl_kernel_rfl) y

/-- What case C leaves in the scratch column: its pieces read back. -/
def soutC (c : Dev nD) (i : grid0.Coords) (arg2 : Memref sig .tc .vmem S512x512 .bf16) (harg2 : arg2.IsWhole) (arg3 : Memref sig .tc .vmem S8192x512 .bf16) (harg3 : arg3.IsWhole) (arg4 : Memref sig .tc .vmem S512x1 .f32) (harg4 : arg4.IsWhole) (arg5 : Memref sig .tc .vmem S1x2048 .f32) (harg5 : arg5.IsWhole) (arg6 : Memref sig .tc .vmem S512x1 .i32) (harg6 : arg6.IsWhole) (arg7 : Memref sig .tc .vmem S1x2048 .i32) (harg7 : arg7.IsWhole) (arg8 : Memref sig .tc .vmem S1x1x128 .f32) (harg8 : arg8.IsWhole) (arg9 : Memref sig .tc .vmem S512x1 .f32) (harg9 : arg9.IsWhole) (hc0 : ¬cond0 i) (hc1 : cond1 i)
    (x0 : Vec F S512x512 .bf16) (x1 : Vec F S8192x512 .bf16) (x2 : Vec F S512x1 .f32) (x3 : Vec F S1x2048 .f32) (x4 : Vec F S512x1 .i32) (x5 : Vec F S1x2048 .i32) (xs : Vec F S512x1 .f32) : Vec F S512x1 .f32 :=
  VS.read (Elt F) (VS.writes (Elt F) VS.junk (kernelRunC c i arg2 harg2 arg3 harg3 arg4 harg4 arg5 harg5 arg6 harg6 arg7 harg7 arg8 harg8 arg9 harg9 hc0 hc1 x0 x1 x2 x3 x4 x5 xs).2.1)

/-- Case C's pieces for the result's block tile it, so they cover it. -/
theorem ocoverC (c : Dev nD) (i : grid0.Coords) (arg2 : Memref sig .tc .vmem S512x512 .bf16) (harg2 : arg2.IsWhole) (arg3 : Memref sig .tc .vmem S8192x512 .bf16) (harg3 : arg3.IsWhole) (arg4 : Memref sig .tc .vmem S512x1 .f32) (harg4 : arg4.IsWhole) (arg5 : Memref sig .tc .vmem S1x2048 .f32) (harg5 : arg5.IsWhole) (arg6 : Memref sig .tc .vmem S512x1 .i32) (harg6 : arg6.IsWhole) (arg7 : Memref sig .tc .vmem S1x2048 .i32) (harg7 : arg7.IsWhole) (arg8 : Memref sig .tc .vmem S1x1x128 .f32) (harg8 : arg8.IsWhole) (arg9 : Memref sig .tc .vmem S512x1 .f32) (harg9 : arg9.IsWhole) (hc0 : ¬cond0 i) (hc1 : cond1 i)
    (x0 : Vec F S512x512 .bf16) (x1 : Vec F S8192x512 .bf16) (x2 : Vec F S512x1 .f32) (x3 : Vec F S1x2048 .f32) (x4 : Vec F S512x1 .i32) (x5 : Vec F S1x2048 .i32) (xs : Vec F S512x1 .f32) (y : S1x1x128.Idx) :
    ∃ pc ∈ (kernelRunC c i arg2 harg2 arg3 harg3 arg4 harg4 arg5 harg5 arg6 harg6 arg7 harg7 arg8 harg8 arg9 harg9 hc0 hc1 x0 x1 x2 x3 x4 x5 xs).1, y ∈ pc.1.set :=
  View.cover_of_tiledL (kernelRunC c i arg2 harg2 arg3 harg3 arg4 harg4 arg5 harg5 arg6 harg6 arg7 harg7 arg8 harg8 arg9 harg9 hc0 hc1 x0 x1 x2 x3 x4 x5 xs).1 S1x1x128.size (by sl_kernel_rfl) y

/-- What case C leaves in the result's staging buffer: its pieces read back. -/
def outC (c : Dev nD) (i : grid0.Coords) (arg2 : Memref sig .tc .vmem S512x512 .bf16) (harg2 : arg2.IsWhole) (arg3 : Memref sig .tc .vmem S8192x512 .bf16) (harg3 : arg3.IsWhole) (arg4 : Memref sig .tc .vmem S512x1 .f32) (harg4 : arg4.IsWhole) (arg5 : Memref sig .tc .vmem S1x2048 .f32) (harg5 : arg5.IsWhole) (arg6 : Memref sig .tc .vmem S512x1 .i32) (harg6 : arg6.IsWhole) (arg7 : Memref sig .tc .vmem S1x2048 .i32) (harg7 : arg7.IsWhole) (arg8 : Memref sig .tc .vmem S1x1x128 .f32) (harg8 : arg8.IsWhole) (arg9 : Memref sig .tc .vmem S512x1 .f32) (harg9 : arg9.IsWhole) (hc0 : ¬cond0 i) (hc1 : cond1 i)
    (x0 : Vec F S512x512 .bf16) (x1 : Vec F S8192x512 .bf16) (x2 : Vec F S512x1 .f32) (x3 : Vec F S1x2048 .f32) (x4 : Vec F S512x1 .i32) (x5 : Vec F S1x2048 .i32) (xs : Vec F S512x1 .f32) : Vec F S1x1x128 .f32 :=
  VO.read (Elt F) (VO.writes (Elt F) VO.junk (kernelRunC c i arg2 harg2 arg3 harg3 arg4 harg4 arg5 harg5 arg6 harg6 arg7 harg7 arg8 harg8 arg9 harg9 hc0 hc1 x0 x1 x2 x3 x4 x5 xs).1)

/-! ## The scratch column point by point -/

/-- The scratch column after point n. -/
def accAt (c : Dev nD) : (n : ℕ) → n < cfg0.N → Vec F S512x1 .f32
  | 0, hn => soutA c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (ms6 ⟨0, hn⟩) (hs6 ⟨0, hn⟩) scM (Memref.isWhole_whole _) ((hcond0 ⟨0, hn⟩).mpr (Nat.zero_mod _)) (fun h => by have := (hcond1 ⟨0, hn⟩).mp h; dsimp only at this; omega) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩)
  | n + 1, hn =>
    if h0 : (n + 1) % 4 = 0 then
      soutA c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) scM (Memref.isWhole_whole _) ((hcond0 ⟨n + 1, hn⟩).mpr h0) (fun h => by have := (hcond1 ⟨n + 1, hn⟩).mp h; dsimp only at this; omega) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩)
    else if h1 : (n + 1) % 4 = 3 then
      soutC c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) scM (Memref.isWhole_whole _) (fun h => h0 ((hcond0 ⟨n + 1, hn⟩).mp h)) ((hcond1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (accAt c n (Nat.lt_of_succ_lt hn))
    else
      soutB c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) scM (Memref.isWhole_whole _) (fun h => h0 ((hcond0 ⟨n + 1, hn⟩).mp h)) (fun h => h1 ((hcond1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (accAt c n (Nat.lt_of_succ_lt hn))

theorem accAt_A (c : Dev nD) (t : Fin cfg0.N) (h0 : t.val % 4 = 0) (h1 : ¬t.val % 4 = 3) :
    accAt m c t.val t.isLt = soutA c (grid0.coords t) (ms0 t) (hs0 t) (ms1 t) (hs1 t) (ms2 t) (hs2 t) (ms3 t) (hs3 t) (ms4 t) (hs4 t) (ms5 t) (hs5 t) (ms6 t) (hs6 t) scM (Memref.isWhole_whole _) ((hcond0 t).mpr h0) (fun h => h1 ((hcond1 t).mp h)) (iblk m c 0 t) (iblk m c 1 t) (iblk m c 2 t) (iblk m c 3 t) (iblk m c 4 t) (iblk m c 5 t) := by
  obtain ⟨n, hn⟩ := t
  cases n with
  | zero => exact rfl
  | succ n => exact (dif_pos h0).trans rfl

theorem accAt_B (c : Dev nD) (t : Fin cfg0.N) (h0 : ¬t.val % 4 = 0) (h1 : ¬t.val % 4 = 3) :
    accAt m c t.val t.isLt = soutB c (grid0.coords t) (ms0 t) (hs0 t) (ms1 t) (hs1 t) (ms2 t) (hs2 t) (ms3 t) (hs3 t) (ms4 t) (hs4 t) (ms5 t) (hs5 t) (ms6 t) (hs6 t) scM (Memref.isWhole_whole _) (fun h => h0 ((hcond0 t).mp h)) (fun h => h1 ((hcond1 t).mp h)) (iblk m c 0 t) (iblk m c 1 t) (iblk m c 2 t) (iblk m c 3 t) (iblk m c 4 t) (iblk m c 5 t) (accAt m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

theorem accAt_C (c : Dev nD) (t : Fin cfg0.N) (h0 : ¬t.val % 4 = 0) (h1 : t.val % 4 = 3) :
    accAt m c t.val t.isLt = soutC c (grid0.coords t) (ms0 t) (hs0 t) (ms1 t) (hs1 t) (ms2 t) (hs2 t) (ms3 t) (hs3 t) (ms4 t) (hs4 t) (ms5 t) (hs5 t) (ms6 t) (hs6 t) scM (Memref.isWhole_whole _) (fun h => h0 ((hcond0 t).mp h)) ((hcond1 t).mpr h1) (iblk m c 0 t) (iblk m c 1 t) (iblk m c 2 t) (iblk m c 3 t) (iblk m c 4 t) (iblk m c 5 t) (accAt m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-- The result window's staging buffer after point t: the block the body stores at a point whose column block is 3
    (elsewhere the window is idle, not written back, and this is not consulted). -/
def outAt (c : Dev nD) (t : Fin cfg0.N) : Vec F S1x1x128 .f32 :=
  if h1 : t.val % 4 = 3 then
    outC c (grid0.coords t) (ms0 t) (hs0 t) (ms1 t) (hs1 t) (ms2 t) (hs2 t) (ms3 t) (hs3 t) (ms4 t) (hs4 t) (ms5 t) (hs5 t) (ms6 t) (hs6 t) scM (Memref.isWhole_whole _) (fun h => by have := (hcond0 t).mp h; omega) ((hcond1 t).mpr h1) (iblk m c 0 t) (iblk m c 1 t) (iblk m c 2 t) (iblk m c 3 t) (iblk m c 4 t) (iblk m c 5 t) (accAt m c (t.val - 1) (Nat.lt_of_le_of_lt (Nat.sub_le _ _) t.isLt))
  else VO.read (Elt F) VO.junk

theorem outAt_C (c : Dev nD) (t : Fin cfg0.N) (h0 : ¬t.val % 4 = 0) (h1 : t.val % 4 = 3) :
    outAt m c t = outC c (grid0.coords t) (ms0 t) (hs0 t) (ms1 t) (hs1 t) (ms2 t) (hs2 t) (ms3 t) (hs3 t) (ms4 t) (hs4 t) (ms5 t) (hs5 t) (ms6 t) (hs6 t) scM (Memref.isWhole_whole _) (fun h => h0 ((hcond0 t).mp h)) ((hcond1 t).mpr h1) (iblk m c 0 t) (iblk m c 1 t) (iblk m c 2 t) (iblk m c 3 t) (iblk m c 4 t) (iblk m c 5 t) (accAt m c (t.val - 1) (Nat.lt_of_le_of_lt (Nat.sub_le _ _) t.isLt)) := by
  unfold outAt; rw [dif_pos h1]

/-- The region's invariant before position n: before the first point the scoped rest (the scratch column at anything),
    afterwards the scratch column at what the point before left. -/
def PhiS (c : Dev nD) : (n : ℕ) → n ≤ cfg0.N → sProp 𝕄
  | 0, _ => Pipeline.scopedRest spec0 c
  | n + 1, hn => owns (c : Thread nD τ) scM fullShare (accAt m c n hn)

theorem PhiS_zero (c : Dev nD) (n : ℕ) (h : n ≤ cfg0.N) (hz : n = 0) : PhiS m c n h = Pipeline.scopedRest spec0 c := by
  subst hz; rfl
theorem PhiS_succ (c : Dev nD) (n : ℕ) (hn : n < cfg0.N) :
    PhiS m c (n + 1) hn = owns (c : Thread nD τ) scM fullShare (accAt m c n hn) := rfl
theorem PhiS_pos (c : Dev nD) (n : ℕ) (h : n ≤ cfg0.N) (hz : n ≠ 0) :
    PhiS m c n h = owns (c : Thread nD τ) scM fullShare (accAt m c (n - 1) (by omega)) := by
  cases n with
  | zero => exact absurd rfl hz
  | succ n => rfl

/-! ## The proof data -/

/-- The proof data on core c: the arrays as the region finds them; after the body each input's buffer at its block and
    the result's at outAt; the invariant PhiS; the feature array's two windows at the two halves of the full share. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outAt m c t
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = outAt m c t := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 8000000 in
/-- The body at any point: the inputs' buffers hold their blocks; the point's column block says which case it is in; the
    invariant hands the body the scratch column at what the point before left (at anything at the first point) and takes it
    back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).owesAt () t.succ = (dats m 0 c).owesAt () t.castSucc from rfl]
  rw [show (dats m 0 c).Φ t.succ = PhiS m c (t.val + 1) t.isLt from rfl, PhiS_succ]
  have hN : t.val < 64 := lt_of_lt_of_eq t.isLt (show cfg0.N = 64 from N_0)
  by_cases h0 : t.val % 4 = 0
  · have h1 : ¬t.val % 4 = 3 := by omega
    · rw [show (dats m 0 c).leavesExact 0 t = owns (c : Thread nD τ) (ms0 t) fullShare ((dats m 0 c).after 0 t) from rfl, after0]
      rw [show (dats m 0 c).leavesExact 1 t = owns (c : Thread nD τ) (ms1 t) fullShare ((dats m 0 c).after 1 t) from rfl, after1]
      rw [show (dats m 0 c).leavesExact 2 t = owns (c : Thread nD τ) (ms2 t) fullShare ((dats m 0 c).after 2 t) from rfl, after2]
      rw [show (dats m 0 c).leavesExact 3 t = owns (c : Thread nD τ) (ms3 t) fullShare ((dats m 0 c).after 3 t) from rfl, after3]
      rw [show (dats m 0 c).leavesExact 4 t = owns (c : Thread nD τ) (ms4 t) fullShare ((dats m 0 c).after 4 t) from rfl, after4]
      rw [show (dats m 0 c).leavesExact 5 t = owns (c : Thread nD τ) (ms5 t) fullShare ((dats m 0 c).after 5 t) from rfl, after5]
      rw [Dat.leavesExact_idle (dats m 0 c) 6 t (idleAt6 t (fun h => h1 ((hcond1 t).mp h))) (noFlush6 t (fun h => h1 ((hcond1 t).mp h)))]
      rw [accAt_A m c t h0 h1]
      unfold soutA; (try dsimp only)
      by_cases hz : t.val = 0
      · rw [PhiS_castSucc m c t, PhiS_zero m c _ _ hz, scopedRest_eq]
        iintro ⟨HS, Ho, ⟨%d0, H0⟩, ⟨%d1, H1⟩, ⟨%d2, H2⟩, ⟨%d3, H3⟩, ⟨%d4, H4⟩, ⟨%d5, H5⟩, ⟨%d6, H6⟩⟩
        iapply ((kernelRunA c (grid0.coords t) _ _ _ _ _ _ _ _ _ _ _ _ _ _ _ _ ((hcond0 t).mpr h0) (fun h => h1 ((hcond1 t).mp h)) (iblk m c 0 t) (iblk m c 1 t) (iblk m c 2 t) (iblk m c 3 t) (iblk m c 4 t) (iblk m c 5 t)).2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS]; · iexact HS
        iintro ⟨H0, H1, H2, H3, H4, H5, H6, ⟨%es, HS⟩⟩
        isplitl [HS]
        · unfold owns; iexists _; isplitr
          swap; · iexact HS
          ipureintro; exact View.read_writes_of_cover _ _ _ _ _ (scoverA c _ _ _ _ _ _ _ _ _ _ _ _ _ _ _ _ _ _ _ _ _ _ _ _ _)
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6
      · rw [PhiS_castSucc m c t, PhiS_pos m c _ _ hz]
        iintro ⟨HS, Ho, ⟨%d0, H0⟩, ⟨%d1, H1⟩, ⟨%d2, H2⟩, ⟨%d3, H3⟩, ⟨%d4, H4⟩, ⟨%d5, H5⟩, ⟨%d6, H6⟩⟩
        iapply ((kernelRunA c (grid0.coords t) _ _ _ _ _ _ _ _ _ _ _ _ _ _ _ _ ((hcond0 t).mpr h0) (fun h => h1 ((hcond1 t).mp h)) (iblk m c 0 t) (iblk m c 1 t) (iblk m c 2 t) (iblk m c 3 t) (iblk m c 4 t) (iblk m c 5 t)).2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS]; · iexists _; iexact HS
        iintro ⟨H0, H1, H2, H3, H4, H5, H6, ⟨%es, HS⟩⟩
        isplitl [HS]
        · unfold owns; iexists _; isplitr
          swap; · iexact HS
          ipureintro; exact View.read_writes_of_cover _ _ _ _ _ (scoverA c _ _ _ _ _ _ _ _ _ _ _ _ _ _ _ _ _ _ _ _ _ _ _ _ _)
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6
  · by_cases h1 : t.val % 4 = 3
    · rw [show (dats m 0 c).leavesExact 0 t = owns (c : Thread nD τ) (ms0 t) fullShare ((dats m 0 c).after 0 t) from rfl, after0]
      rw [show (dats m 0 c).leavesExact 1 t = owns (c : Thread nD τ) (ms1 t) fullShare ((dats m 0 c).after 1 t) from rfl, after1]
      rw [show (dats m 0 c).leavesExact 2 t = owns (c : Thread nD τ) (ms2 t) fullShare ((dats m 0 c).after 2 t) from rfl, after2]
      rw [show (dats m 0 c).leavesExact 3 t = owns (c : Thread nD τ) (ms3 t) fullShare ((dats m 0 c).after 3 t) from rfl, after3]
      rw [show (dats m 0 c).leavesExact 4 t = owns (c : Thread nD τ) (ms4 t) fullShare ((dats m 0 c).after 4 t) from rfl, after4]
      rw [show (dats m 0 c).leavesExact 5 t = owns (c : Thread nD τ) (ms5 t) fullShare ((dats m 0 c).after 5 t) from rfl, after5]
      rw [show (dats m 0 c).leavesExact 6 t = owns (c : Thread nD τ) (ms6 t) fullShare ((dats m 0 c).after 6 t) from by
        unfold Dat.leavesExact; rw [liveAt6 t ((hcond1 t).mpr h1)], after6]
      rw [accAt_C m c t h0 h1, outAt_C m c t h0 h1]
      unfold outC soutC; (try dsimp only)
      have hz : t.val ≠ 0 := by omega
      · rw [PhiS_castSucc m c t, PhiS_pos m c _ _ hz]
        iintro ⟨HS, Ho, ⟨%d0, H0⟩, ⟨%d1, H1⟩, ⟨%d2, H2⟩, ⟨%d3, H3⟩, ⟨%d4, H4⟩, ⟨%d5, H5⟩, ⟨%d6, H6⟩⟩
        iapply ((kernelRunC c (grid0.coords t) _ _ _ _ _ _ _ _ _ _ _ _ _ _ _ _ (fun h => h0 ((hcond0 t).mp h)) ((hcond1 t).mpr h1) (iblk m c 0 t) (iblk m c 1 t) (iblk m c 2 t) (iblk m c 3 t) (iblk m c 4 t) (iblk m c 5 t) _).2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [HS]; · iexact HS
        iintro ⟨H0, H1, H2, H3, H4, H5, ⟨%e6, H6⟩, ⟨%es, HS⟩⟩
        isplitl [HS]
        · unfold owns; iexists _; isplitr
          swap; · iexact HS
          ipureintro; exact View.read_writes_of_cover _ _ _ _ _ (scoverC c _ _ _ _ _ _ _ _ _ _ _ _ _ _ _ _ _ _ _ _ _ _ _ _ _ _)
        isplitl [Ho]; · iexact Ho
        isplitl [H0]; · iexact H0
        isplitl [H1]; · iexact H1
        isplitl [H2]; · iexact H2
        isplitl [H3]; · iexact H3
        isplitl [H4]; · iexact H4
        isplitl [H5]; · iexact H5
        unfold owns; iexists _; isplitr
        swap; · iexact H6
        ipureintro; exact View.read_writes_of_cover _ _ _ _ _ (ocoverC c _ _ _ _ _ _ _ _ _ _ _ _ _ _ _ _ _ _ _ _ _ _ _ _ _ _)
    · rw [show (dats m 0 c).leavesExact 0 t = owns (c : Thread nD τ) (ms0 t) fullShare ((dats m 0 c).after 0 t) from rfl, after0]
      rw [show (dats m 0 c).leavesExact 1 t = owns (c : Thread nD τ) (ms1 t) fullShare ((dats m 0 c).after 1 t) from rfl, after1]
      rw [show (dats m 0 c).leavesExact 2 t = owns (c : Thread nD τ) (ms2 t) fullShare ((dats m 0 c).after 2 t) from rfl, after2]
      rw [show (dats m 0 c).leavesExact 3 t = owns (c : Thread nD τ) (ms3 t) fullShare ((dats m 0 c).after 3 t) from rfl, after3]
      rw [show (dats m 0 c).leavesExact 4 t = owns (c : Thread nD τ) (ms4 t) fullShare ((dats m 0 c).after 4 t) from rfl, after4]
      rw [show (dats m 0 c).leavesExact 5 t = owns (c : Thread nD τ) (ms5 t) fullShare ((dats m 0 c).after 5 t) from rfl, after5]
      rw [Dat.leavesExact_idle (dats m 0 c) 6 t (idleAt6 t (fun h => h1 ((hcond1 t).mp h))) (noFlush6 t (fun h => h1 ((hcond1 t).mp h)))]
      rw [accAt_B m c t h0 h1]
      unfold soutB; (try dsimp only)
      have hz : t.val ≠ 0 := by omega
      · rw [PhiS_castSucc m c t, PhiS_pos m c _ _ hz]
        iintro ⟨HS, Ho, ⟨%d0, H0⟩, ⟨%d1, H1⟩, ⟨%d2, H2⟩, ⟨%d3, H3⟩, ⟨%d4, H4⟩, ⟨%d5, H5⟩, ⟨%d6, H6⟩⟩
        iapply ((kernelRunB c (grid0.coords t) _ _ _ _ _ _ _ _ _ _ _ _ _ _ _ _ (fun h => h0 ((hcond0 t).mp h)) (fun h => h1 ((hcond1 t).mp h)) (iblk m c 0 t) (iblk m c 1 t) (iblk m c 2 t) (iblk m c 3 t) (iblk m c 4 t) (iblk m c 5 t) _).2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS]; · iexact HS
        iintro ⟨H0, H1, H2, H3, H4, H5, H6, ⟨%es, HS⟩⟩
        isplitl [HS]
        · unfold owns; iexists _; isplitr
          swap; · iexact HS
          ipureintro; exact View.read_writes_of_cover _ _ _ _ _ (scoverB c _ _ _ _ _ _ _ _ _ _ _ _ _ _ _ _ _ _ _ _ _ _ _ _ _ _)
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6

/-- The library's body obligation, at every point. -/
theorem body_obligation (c : Dev nD) : BodyObligation (dats (F := F) m 0 c) (defs₀ (F := F)) Variants.none () Set.univ := fun t => by
  rw [bigSep_W0, bigSep_W0]
  exact sound_body m c t

theorem hin (c : Dev nD) : (Pipeline.scopedRest spec0 c : sProp 𝕄) ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ (Pipeline.scopedRest spec0 c : sProp 𝕄) := by
  have hN : cfg0.N = 64 := N_0
  rw [show (dats m 0 c).Φ (Fin.last cfg0.N) = PhiS m c (Fin.last cfg0.N).val (Nat.le_of_lt_succ (Fin.last cfg0.N).isLt) from rfl,
    PhiS_pos m c _ _ (by rw [Fin.val_last]; omega), scopedRest_eq]
  iintro HS
  iexists _; iexact HS

end Cert.KernelIdeal.Hand

end
-- ==== Proof.KI.Run.lean ====
/-
  The run of @main.

  When the region ends every input array holds what it held at its entry and the result array holds what the write-backs
  left (the proof data's array after the last point); the exit contents Wfin are the entry contents with the result array
  replaced by that. The feature array, held whole at the region's entry, is dealt to its two windows at the two halves of
  the full share and joined again at the exit, where both halves are at the entry contents. The four host lines after the
  region run from Wfin. Both argument arrays bypass the region and no host line writes them, so they end unchanged.
-/
import proofs.«160762_j20109036879978_2_alg».proof.Proof.KI.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffer contents when the region ends: the entry contents, the result array at what the write-backs left. -/
def Wfin (c : Dev nD) : Valuation τ sig (Elt F) :=
  Function.update (V0 m c) (Proc.devRef .tc main_v7) ((dats m 0 c).arrAt 6 cfg0.N)

theorem Wfin_v7 (c : Dev nD) : Wfin m c (Proc.devRef .tc main_v7) = (dats m 0 c).arrAt 6 cfg0.N := by
  unfold Wfin; exact Function.update_self _ _ _

theorem Wfin_ne (c : Dev nD) (b : Ref sig .tc) (h : b ≠ main_v7) : Wfin m c (Proc.devRef .tc b) = V m c b := by
  unfold Wfin; exact Function.update_of_ne (fun e => h (Proc.devRef_injective _ e)) _ _

theorem hrest (c : Dev nD) : ∀ b ∈ Pipeline.restRefs sig spec0, Wfin m c (Proc.devRef .tc b) = V0 m c (Proc.devRef .tc b) := fun b hb =>
  Wfin_ne m c b (fun e => (Finset.mem_sdiff.mp hb).2
    (Finset.mem_image.mpr ⟨6, Finset.mem_univ _, (show Pipeline.arrRef spec0 6 = main_v7 from rfl).trans e.symm⟩))

/-- The distinct buffers behind the windows' arrays, one by one. -/
theorem arrBufs_eq (c : Dev nD) (W : (b : Ref sig .tc) → Buf (Elt F) ((c : Thread nD τ).loc b)) :
    (Pipeline.arrBufs spec0 c W : sProp 𝕄) = iprop((((c : Thread nD τ).loc main_v0) ↦{fullShare} W main_v0) ∗ (((c : Thread nD τ).loc main_v3) ↦{fullShare} W main_v3) ∗ (((c : Thread nD τ).loc main_v4) ↦{fullShare} W main_v4) ∗ (((c : Thread nD τ).loc main_v5) ↦{fullShare} W main_v5) ∗ (((c : Thread nD τ).loc main_v6) ↦{fullShare} W main_v6) ∗ (((c : Thread nD τ).loc main_v7) ↦{fullShare} W main_v7)) := by
  unfold Pipeline.arrBufs
  exact bigSep_eq_bigSepL_of_eq [main_v0, main_v3, main_v4, main_v5, main_v6, main_v7] (by decide) (by decide) _

/-- The proof data's arrays, one by one: every array a whole buffer; the feature array's two windows at the two halves. -/
theorem arrays_chain (c : Dev nD) (G : (w : Fin cfg0.W) → Buf (Elt F) ((cfg0.win w).arr.view.loc (c.tc : Thread nD τ))) :
    ((dats m 0 c).arrays G : sProp 𝕄) = iprop((((c : Thread nD τ).loc main_v0) ↦{fullShare.left} G 0) ∗ (((c : Thread nD τ).loc main_v0) ↦{fullShare.right} G 1) ∗ (((c : Thread nD τ).loc main_v3) ↦{fullShare} G 2) ∗ (((c : Thread nD τ).loc main_v4) ↦{fullShare} G 3) ∗ (((c : Thread nD τ).loc main_v5) ↦{fullShare} G 4) ∗ (((c : Thread nD τ).loc main_v6) ↦{fullShare} G 5) ∗ (((c : Thread nD τ).loc main_v7) ↦{fullShare} G 6)) := by
  unfold Dat.arrays
  rw [bigSep_W0]
  rw [show (cfg0.win 0).arr.view.set = Finset.univ from (arr_whole0 0).set_eq_univ]
  try rw [show (cfg0.win 1).arr.view.set = Finset.univ from (arr_whole0 1).set_eq_univ]
  rw [    show (cfg0.win 2).arr.view.set = Finset.univ from (arr_whole0 2).set_eq_univ,
    show (cfg0.win 3).arr.view.set = Finset.univ from (arr_whole0 3).set_eq_univ,
    show (cfg0.win 4).arr.view.set = Finset.univ from (arr_whole0 4).set_eq_univ,
    show (cfg0.win 5).arr.view.set = Finset.univ from (arr_whole0 5).set_eq_univ,
    show (cfg0.win 6).arr.view.set = Finset.univ from (arr_whole0 6).set_eq_univ]
  rw [show (dats m 0 c).share 0 = fullShare.left from rfl,
    show (dats m 0 c).share 1 = fullShare.right from rfl,
    show (dats m 0 c).share 2 = fullShare from rfl,
    show (dats m 0 c).share 3 = fullShare from rfl,
    show (dats m 0 c).share 4 = fullShare from rfl,
    show (dats m 0 c).share 5 = fullShare from rfl,
    show (dats m 0 c).share 6 = fullShare from rfl]

/-- At the entry the feature array is dealt to its two windows, each of the other arrays to its one window. -/
theorem hsplit (c : Dev nD) :
    (Pipeline.arrBufs spec0 c (fun b => V0 m c (Proc.devRef .tc b)) : sProp 𝕄) ⊢ (dats m 0 c).arrays ((dats m 0 c).arrAt · 0) := by
  rw [arrBufs_eq, arrays_chain]
  iintro ⟨H0, H3, H4, H5, H6, H7⟩
  ihave Hs := (pointsTo_share (PosShare.mem_left_op_right fullShare)).1 $$ H0
  icases Hs with ⟨Ha, Hb⟩
  isplitl [Ha]; · iexact Ha
  isplitl [Hb]; · iexact Hb
  isplitl [H3]; · iexact H3
  isplitl [H4]; · iexact H4
  isplitl [H5]; · iexact H5
  isplitl [H6]; · iexact H6
  iexact H7

/-- The inputs' arrays are never written. -/
theorem arrAt_in (c : Dev nD) (n : ℕ) :
    (dats m 0 c).arrAt 0 n = V m c main_v0 ∧ (dats m 0 c).arrAt 1 n = V m c main_v0 ∧ (dats m 0 c).arrAt 2 n = V m c main_v3
    ∧ (dats m 0 c).arrAt 3 n = V m c main_v4 ∧ (dats m 0 c).arrAt 4 n = V m c main_v5 ∧ (dats m 0 c).arrAt 5 n = V m c main_v6 :=
  ⟨((dats m 0 c).arrAt_in 0 rfl n).trans (A_eq m c 0), ((dats m 0 c).arrAt_in 1 rfl n).trans (A_eq m c 1),
   ((dats m 0 c).arrAt_in 2 rfl n).trans (A_eq m c 2), ((dats m 0 c).arrAt_in 3 rfl n).trans (A_eq m c 3),
   ((dats m 0 c).arrAt_in 4 rfl n).trans (A_eq m c 4), ((dats m 0 c).arrAt_in 5 rfl n).trans (A_eq m c 5)⟩

/-- At the exit the two halves of the feature array, both at the entry contents, make it whole again. -/
theorem hjoin (c : Dev nD) :
    (dats m 0 c).arrays ((dats m 0 c).arrAt · cfg0.N) ⊢ (Pipeline.arrBufs spec0 c (fun b => Wfin m c (Proc.devRef .tc b)) : sProp 𝕄) := by
  rw [arrBufs_eq, arrays_chain]
  obtain ⟨e0, e1, e2, e3, e4, e5⟩ := arrAt_in m c cfg0.N
  rw [Wfin_ne m c main_v0 (by decide), Wfin_ne m c main_v3 (by decide), Wfin_ne m c main_v4 (by decide), Wfin_ne m c main_v5 (by decide),
    Wfin_ne m c main_v6 (by decide), Wfin_v7 m c]
  try dsimp only
  rw [e0, e1, e2, e3, e4, e5]
  iintro ⟨H0, H1, H2, H3, H4, H5, H6⟩
  isplitl [H0 H1]
  · iapply (pointsTo_share (PosShare.mem_left_op_right fullShare)).2
    isplitl [H0]; · iexact H0
    iexact H1
  isplitl [H2]; · iexact H2
  isplitl [H3]; · iexact H3
  isplitl [H4]; · iexact H4
  isplitl [H5]; · iexact H5
  iexact H6

/-- And it is dealt again for the lines after the region. -/
theorem hback (c : Dev nD) :
    (Pipeline.arrBufs spec0 c (fun b => Wfin m c (Proc.devRef .tc b)) : sProp 𝕄) ⊢ (dats m 0 c).arrays ((dats m 0 c).arrAt · cfg0.N) := by
  rw [arrBufs_eq, arrays_chain]
  obtain ⟨e0, e1, e2, e3, e4, e5⟩ := arrAt_in m c cfg0.N
  rw [Wfin_ne m c main_v0 (by decide), Wfin_ne m c main_v3 (by decide), Wfin_ne m c main_v4 (by decide), Wfin_ne m c main_v5 (by decide),
    Wfin_ne m c main_v6 (by decide), Wfin_v7 m c]
  try dsimp only
  rw [e0, e1, e2, e3, e4, e5]
  iintro ⟨H0, H3, H4, H5, H6, H7⟩
  ihave Hs := (pointsTo_share (PosShare.mem_left_op_right fullShare)).1 $$ H0
  icases Hs with ⟨Ha, Hb⟩
  isplitl [Ha]; · iexact Ha
  isplitl [Hb]; · iexact Hb
  isplitl [H3]; · iexact H3
  isplitl [H4]; · iexact H4
  isplitl [H5]; · iexact H5
  isplitl [H6]; · iexact H6
  iexact H7

set_option backward.isDefEq.respectTransparency.types false in
/-- Every weakly fair execution of @main terminates; every array of the region ends at what the proof data computes, every
    other unscoped buffer at what the four later host lines leave, run from the exit contents. -/
theorem run_main : θ_run defs (onTc (τ := τ) (main (F := F))) (s₀ m ρ)
    (fun r => ∀ c : Dev nD,
        (∀ w, r.2.mem ((spec0 w).arr.view.loc (c.tc : Thread nD τ)) = (dats m 0 c).arrAt w cfg0.N)
        ∧ ∀ b ∈ Pipeline.restRefs sig spec0,
            r.2.mem ((c.tc : Thread nD τ).loc b) = StableHlo.after (List.flatten [hostOps1]) (Wfin m c) (Proc.devRef .tc b)) :=
  Cert.SharedArrayTail.θ_run_frame_around_track_shared cfgs (dats m) (0 : Fin 1) cellOf_inj winFacts₀0 block_pos0 arr_whole0 stage_whole0
    defs₀ Variants.none m ρ main
    (hbody := fun c => (body_obligation m c).loose) (howed := fun _ _ => rfl) (V₀ := V0 m) (Wfin := Wfin m) (opss := [hostOps1])
    (hsub := sfx_sub) (hfresh := sfx_fresh) (hkeep := sfx_keeps) (hmain := hmain m Variants.none) (hrest := hrest m)
    (hsplit := hsplit m) (hjoin := hjoin m) (hback := hback m) (hin := hin m) (hout := hout m)

/-- The later host lines write neither argument array, nor does the exit valuation differ from the entry one there, nor
    do the earlier host lines write them. -/
theorem tail_arg0 (c : Dev nD) :
    StableHlo.after (List.flatten [hostOps1]) (Wfin m c) (Proc.devRef .tc main_arg0) = m ((c.tc : Thread nD τ).loc main_arg0) := by
  rw [StableHlo.after_of_forall_not_mem _ _ (fun op hop => by
    simp only [List.flatten_cons, List.flatten_nil, List.append_nil, hostOps1, List.mem_cons, List.mem_nil_iff, or_false] at hop
    rcases hop with rfl | rfl | rfl | rfl <;>
      simp only [StableHlo.nullary_writes, StableHlo.binary_writes, Finset.mem_singleton] <;> exact StableHlo.devRef_ne_of_ne (by decide))]
  rw [Wfin_ne m c main_arg0 (by decide)]
  unfold V V0
  rw [StableHlo.after_of_forall_not_mem _ _ (fun op hop => by
    simp only [List.flatten_cons, List.flatten_nil, List.append_nil, hostOps0, List.mem_cons, List.mem_nil_iff, or_false] at hop
    rcases hop with rfl | rfl | rfl | rfl | rfl | rfl | rfl | rfl <;>
      simp only [StableHlo.nullary_writes, StableHlo.unary_writes, StableHlo.binary_writes, StableHlo.reshape_writes, Finset.mem_singleton] <;>
      exact StableHlo.devRef_ne_of_ne (by decide))]

theorem tail_arg1 (c : Dev nD) :
    StableHlo.after (List.flatten [hostOps1]) (Wfin m c) (Proc.devRef .tc main_arg1) = m ((c.tc : Thread nD τ).loc main_arg1) := by
  rw [StableHlo.after_of_forall_not_mem _ _ (fun op hop => by
    simp only [List.flatten_cons, List.flatten_nil, List.append_nil, hostOps1, List.mem_cons, List.mem_nil_iff, or_false] at hop
    rcases hop with rfl | rfl | rfl | rfl <;>
      simp only [StableHlo.nullary_writes, StableHlo.binary_writes, Finset.mem_singleton] <;> exact StableHlo.devRef_ne_of_ne (by decide))]
  rw [Wfin_ne m c main_arg1 (by decide)]
  unfold V V0
  rw [StableHlo.after_of_forall_not_mem _ _ (fun op hop => by
    simp only [List.flatten_cons, List.flatten_nil, List.append_nil, hostOps0, List.mem_cons, List.mem_nil_iff, or_false] at hop
    rcases hop with rfl | rfl | rfl | rfl | rfl | rfl | rfl | rfl <;>
      simp only [StableHlo.nullary_writes, StableHlo.unary_writes, StableHlo.binary_writes, StableHlo.reshape_writes, Finset.mem_singleton] <;>
      exact StableHlo.devRef_ne_of_ne (by decide))]

/-- THE FRAME: @main runs to the end and both argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨((h c).2 main_arg0 (Pipeline.mem_restRefs_of main_arg0 rfl (by decide))).trans (tail_arg0 m c),
     ((h c).2 main_arg1 (Pipeline.mem_restRefs_of main_arg1 rfl (by decide))).trans (tail_arg1 m c)⟩) (run_main m ρ)

end Cert.KernelIdeal.Hand

end
-- ==== Proof.KI.Pieces.lean ====
/-
  The pieces the three runs found, read back as values.

  Each run ends with one store that covers the scratch column: the column it found (the zero column where the column block
  is 0) plus this point's row sums of the pair contributions, a pure function stepAcc of the six input blocks and the
  column found. Where the column block is 3 the run also ends with one store that covers the result's block: the payload
  of that store applied to the column just stored.
-/
import proofs.«160762_j20109036879978_2_alg».proof.Proof.KI.Frame
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic Idealize.SL.Sem
open Idealize.ShloMosaic.Pipeline (Dat)

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The rows of the whole feature array the body loads at grid point i: 2048 rows from row 2048 times the column block. -/
def loadedRows (i : grid0.Coords) (x1 : Vec F S8192x512 .bf16) : Vec F S2048x512 .bf16 :=
  View.ld x1 (Rect.unit (s := S8192x512) (k0_off1 i) S2048x512.size (k0_off1_inb i))

/-- What one point adds to the scratch column acc, from the six input blocks. -/
def stepAcc (i : grid0.Coords) (x0 : Vec F S512x512 .bf16) (x1 : Vec F S8192x512 .bf16) (x2 : Vec F S512x1 .f32) (x3 : Vec F S1x2048 .f32) (x4 : Vec F S512x1 .i32) (x5 : Vec F S1x2048 .i32) (acc : Vec F S512x1 .f32) : Vec F S512x1 .f32 :=
  k0_pay1 (k0_pay4 x0 (loadedRows i x1) x2 x3) (k0_pay5 x4 x5) (k0_pay6 i) (k0_pay7 i) acc

theorem soutB_eq (c : Dev nD) (i : grid0.Coords) (arg2 : Memref sig .tc .vmem S512x512 .bf16) (harg2 : arg2.IsWhole) (arg3 : Memref sig .tc .vmem S8192x512 .bf16) (harg3 : arg3.IsWhole) (arg4 : Memref sig .tc .vmem S512x1 .f32) (harg4 : arg4.IsWhole) (arg5 : Memref sig .tc .vmem S1x2048 .f32) (harg5 : arg5.IsWhole) (arg6 : Memref sig .tc .vmem S512x1 .i32) (harg6 : arg6.IsWhole) (arg7 : Memref sig .tc .vmem S1x2048 .i32) (harg7 : arg7.IsWhole) (arg8 : Memref sig .tc .vmem S1x1x128 .f32) (harg8 : arg8.IsWhole) (arg9 : Memref sig .tc .vmem S512x1 .f32) (harg9 : arg9.IsWhole) (hc0 : ¬cond0 i) (hc1 : ¬cond1 i)
    (x0 : Vec F S512x512 .bf16) (x1 : Vec F S8192x512 .bf16) (x2 : Vec F S512x1 .f32) (x3 : Vec F S1x2048 .f32) (x4 : Vec F S512x1 .i32) (x5 : Vec F S1x2048 .i32) (xs : Vec F S512x1 .f32) :
    soutB c i arg2 harg2 arg3 harg3 arg4 harg4 arg5 harg5 arg6 harg6 arg7 harg7 arg8 harg8 arg9 harg9 hc0 hc1 x0 x1 x2 x3 x4 x5 xs = stepAcc i x0 x1 x2 x3 x4 x5 xs := by
  unfold soutB
  rw [View.read_writes_eq_canon _ _ _ (scoverB c i arg2 harg2 arg3 harg3 arg4 harg4 arg5 harg5 arg6 harg6 arg7 harg7 arg8 harg8 arg9 harg9 hc0 hc1 x0 x1 x2 x3 x4 x5 xs)]
  unfold kernelRunB
  dsimp only
  sl_unfold_words
  rw [View.canon_unit_zero hz2]
  unfold stepAcc loadedRows
  simp only [View.readAt_eq_ld, harg2.read_unread, harg3.read_unread, harg4.read_unread, harg5.read_unread, harg6.read_unread, harg7.read_unread, harg9.read_unread, View.ld_unit_zero (S := S512x512) hz2, View.ld_unit_zero (S := S512x1) hz2, View.ld_unit_zero (S := S1x2048) hz2]
  rfl

theorem soutC_eq (c : Dev nD) (i : grid0.Coords) (arg2 : Memref sig .tc .vmem S512x512 .bf16) (harg2 : arg2.IsWhole) (arg3 : Memref sig .tc .vmem S8192x512 .bf16) (harg3 : arg3.IsWhole) (arg4 : Memref sig .tc .vmem S512x1 .f32) (harg4 : arg4.IsWhole) (arg5 : Memref sig .tc .vmem S1x2048 .f32) (harg5 : arg5.IsWhole) (arg6 : Memref sig .tc .vmem S512x1 .i32) (harg6 : arg6.IsWhole) (arg7 : Memref sig .tc .vmem S1x2048 .i32) (harg7 : arg7.IsWhole) (arg8 : Memref sig .tc .vmem S1x1x128 .f32) (harg8 : arg8.IsWhole) (arg9 : Memref sig .tc .vmem S512x1 .f32) (harg9 : arg9.IsWhole) (hc0 : ¬cond0 i) (hc1 : cond1 i)
    (x0 : Vec F S512x512 .bf16) (x1 : Vec F S8192x512 .bf16) (x2 : Vec F S512x1 .f32) (x3 : Vec F S1x2048 .f32) (x4 : Vec F S512x1 .i32) (x5 : Vec F S1x2048 .i32) (xs : Vec F S512x1 .f32) :
    soutC c i arg2 harg2 arg3 harg3 arg4 harg4 arg5 harg5 arg6 harg6 arg7 harg7 arg8 harg8 arg9 harg9 hc0 hc1 x0 x1 x2 x3 x4 x5 xs = stepAcc i x0 x1 x2 x3 x4 x5 xs := by
  unfold soutC
  rw [View.read_writes_eq_canon _ _ _ (scoverC c i arg2 harg2 arg3 harg3 arg4 harg4 arg5 harg5 arg6 harg6 arg7 harg7 arg8 harg8 arg9 harg9 hc0 hc1 x0 x1 x2 x3 x4 x5 xs)]
  unfold kernelRunC
  dsimp only
  sl_unfold_words
  rw [View.canon_unit_zero hz2]
  unfold stepAcc loadedRows
  simp only [View.readAt_eq_ld, harg2.read_unread, harg3.read_unread, harg4.read_unread, harg5.read_unread, harg6.read_unread, harg7.read_unread, harg9.read_unread, View.ld_unit_zero (S := S512x512) hz2, View.ld_unit_zero (S := S512x1) hz2, View.ld_unit_zero (S := S1x2048) hz2]
  rfl

theorem soutA_eq (c : Dev nD) (i : grid0.Coords) (arg2 : Memref sig .tc .vmem S512x512 .bf16) (harg2 : arg2.IsWhole) (arg3 : Memref sig .tc .vmem S8192x512 .bf16) (harg3 : arg3.IsWhole) (arg4 : Memref sig .tc .vmem S512x1 .f32) (harg4 : arg4.IsWhole) (arg5 : Memref sig .tc .vmem S1x2048 .f32) (harg5 : arg5.IsWhole) (arg6 : Memref sig .tc .vmem S512x1 .i32) (harg6 : arg6.IsWhole) (arg7 : Memref sig .tc .vmem S1x2048 .i32) (harg7 : arg7.IsWhole) (arg8 : Memref sig .tc .vmem S1x1x128 .f32) (harg8 : arg8.IsWhole) (arg9 : Memref sig .tc .vmem S512x1 .f32) (harg9 : arg9.IsWhole) (hc0 : cond0 i) (hc1 : ¬cond1 i)
    (x0 : Vec F S512x512 .bf16) (x1 : Vec F S8192x512 .bf16) (x2 : Vec F S512x1 .f32) (x3 : Vec F S1x2048 .f32) (x4 : Vec F S512x1 .i32) (x5 : Vec F S1x2048 .i32) :
    soutA c i arg2 harg2 arg3 harg3 arg4 harg4 arg5 harg5 arg6 harg6 arg7 harg7 arg8 harg8 arg9 harg9 hc0 hc1 x0 x1 x2 x3 x4 x5 = stepAcc i x0 x1 x2 x3 x4 x5 (k0_pay3 (F := F)) := by
  unfold soutA
  rw [View.read_writes_eq_canon _ _ _ (scoverA c i arg2 harg2 arg3 harg3 arg4 harg4 arg5 harg5 arg6 harg6 arg7 harg7 arg8 harg8 arg9 harg9 hc0 hc1 x0 x1 x2 x3 x4 x5)]
  unfold kernelRunA
  dsimp only
  sl_unfold_words
  rw [View.canon_cons_unit_zero (S := S512x1) hz2, View.readCov_unit_zero (S := S512x1) _ hz2]
  unfold stepAcc loadedRows
  simp only [View.readAt_eq_ld, harg2.read_unread, harg3.read_unread, harg4.read_unread, harg5.read_unread, harg6.read_unread, harg7.read_unread, harg9.read_unread, View.ld_unit_zero (S := S512x512) hz2, View.ld_unit_zero (S := S512x1) hz2, View.ld_unit_zero (S := S1x2048) hz2]
  rfl

theorem outC_eq (c : Dev nD) (i : grid0.Coords) (arg2 : Memref sig .tc .vmem S512x512 .bf16) (harg2 : arg2.IsWhole) (arg3 : Memref sig .tc .vmem S8192x512 .bf16) (harg3 : arg3.IsWhole) (arg4 : Memref sig .tc .vmem S512x1 .f32) (harg4 : arg4.IsWhole) (arg5 : Memref sig .tc .vmem S1x2048 .f32) (harg5 : arg5.IsWhole) (arg6 : Memref sig .tc .vmem S512x1 .i32) (harg6 : arg6.IsWhole) (arg7 : Memref sig .tc .vmem S1x2048 .i32) (harg7 : arg7.IsWhole) (arg8 : Memref sig .tc .vmem S1x1x128 .f32) (harg8 : arg8.IsWhole) (arg9 : Memref sig .tc .vmem S512x1 .f32) (harg9 : arg9.IsWhole) (hc0 : ¬cond0 i) (hc1 : cond1 i)
    (x0 : Vec F S512x512 .bf16) (x1 : Vec F S8192x512 .bf16) (x2 : Vec F S512x1 .f32) (x3 : Vec F S1x2048 .f32) (x4 : Vec F S512x1 .i32) (x5 : Vec F S1x2048 .i32) (xs : Vec F S512x1 .f32) :
    outC c i arg2 harg2 arg3 harg3 arg4 harg4 arg5 harg5 arg6 harg6 arg7 harg7 arg8 harg8 arg9 harg9 hc0 hc1 x0 x1 x2 x3 x4 x5 xs = k0_pay2 (stepAcc i x0 x1 x2 x3 x4 x5 xs) := by
  unfold outC
  rw [View.read_writes_eq_canon _ _ _ (ocoverC c i arg2 harg2 arg3 harg3 arg4 harg4 arg5 harg5 arg6 harg6 arg7 harg7 arg8 harg8 arg9 harg9 hc0 hc1 x0 x1 x2 x3 x4 x5 xs)]
  unfold kernelRunC
  dsimp only
  sl_unfold_words
  rw [View.canon_unit_zero hz3, View.readCov_unit_zero (S := S512x1) _ hz2]
  unfold stepAcc loadedRows
  simp only [View.readAt_eq_ld, harg2.read_unread, harg3.read_unread, harg4.read_unread, harg5.read_unread, harg6.read_unread, harg7.read_unread, harg9.read_unread, View.ld_unit_zero (S := S512x512) hz2, View.ld_unit_zero (S := S512x1) hz2, View.ld_unit_zero (S := S1x2048) hz2]
  rfl

end Cert.KernelIdeal.Hand

end
-- ==== Proof.Spec.lean ====
/-
  The contrastive loss as ONE function of the feature array and the target array, over the extended reals.

  For rows i, j of the feature array x : [8192, 512] let
    |x_i|^2      = sum over k of x(i,k) * x(i,k),
    <x_i, x_j>   = sum over k of x(i,k) * x(j,k),
    d(i,j)       = max ((|x_i|^2 + |x_j|^2) - 2 * <x_i, x_j>) 0      (the clamped squared distance),
    h(d)         = max (1 - sqrt d) 0                                 (the hinge on the margin 1).
  A pair of the same class contributes d(i,j) off the diagonal and 0 on it; a pair of different classes contributes
  h(d(i,j))^2. The loss is the sum of the contributions over ALL ordered pairs divided by 2 * 8192 * 8191.

  The float words 2.0, 1.0 and the divisor are kept as the words both programs print: the same word on both sides
  is never evaluated.
-/
import Idealize.ShloMosaic.PureOps.Ideal
import Idealize.ShloMosaic.PureOps.Ideal.Laws
import Idealize.ShloMosaic.Lib.ValueIdx

noncomputable section

namespace Cert.Contrastive

open Idealize.ShloMosaic Idealize.ShloMosaic.ValueIdx
open scoped BigOperators

/-- The feature array's shape and the target array's. -/
abbrev SF : Shape := ⟨2, ![8192, 512]⟩
abbrev ST : Shape := ⟨1, ![8192]⟩

/-- The words both programs print, read as extended reals: 2.0, 1.0 and the divisor 2 * 8192 * 8191. -/
abbrev two : EReal := Ideal.ofBits .f32 0x40000000#32
abbrev one : EReal := Ideal.ofBits .f32 0x3F800000#32
abbrev denom : EReal := Ideal.ofBits .f32 0x4CFFF800#32

variable (x : SF.Idx → EReal) (tg : ST.Idx → BitVec 32)

/-- The squared norm of row i. -/
def sqNorm (i : Fin 8192) : EReal := ∑ k : Fin 512, x (ix2 i k) * x (ix2 i k)

/-- The inner product of rows i and j. -/
def gram (i j : Fin 8192) : EReal := ∑ k : Fin 512, x (ix2 i k) * x (ix2 j k)

/-- The clamped squared distance of rows i and j. -/
def dist (i j : Fin 8192) : EReal := max ((sqNorm x i + sqNorm x j) - two * gram x i j) 0

/-- The hinge on the margin 1. -/
def hinge (d : EReal) : EReal := max (one - Ideal.sqrt d) 0

/-- What the ordered pair (i, j) contributes. -/
def pairTerm (i j : Fin 8192) : EReal :=
  if tg (ix1 i) = tg (ix1 j) then (if i = j then 0 else dist x i j)
  else hinge (dist x i j) * hinge (dist x i j)

/-- The sum of the contributions over all ordered pairs. -/
def total : EReal := ∑ i : Fin 8192, ∑ j : Fin 8192, pairTerm x tg i j

/-- The loss. -/
def loss : EReal := Ideal.div (total x tg) denom

end Cert.Contrastive

end
-- ==== Proof.KI.Blocks.lean ====
/-
  What the kernel region finds: the arrays the eight host lines leave, and each input window's block at a grid
  point, in terms of the launch's feature array x and target array.

  The host lines cast x to the narrower float format (the identity on extended reals), multiply it by itself
  and sum each row from the zero word (0 + the sum of squares = the squared norm of the row), and reshape the
  squared norms and the targets into a column [8192, 1] and a row [1, 8192]; a reshape keeps the row-major
  position, so the column at (I, 0) and the row at (0, J) read the vector at I and at J.
  The grid is 16 x 4, point t having row block t / 4 and column block t mod 4. A window's block at a point
  reads its array at (block index) * (block size) + (the coordinate inside the block) on each axis: the row
  windows (the features by row block, the squared norms' column, the targets' column) read rows
  512 * (t / 4) + r, the column windows (the squared norms' row, the targets' row) read columns
  2048 * (t mod 4) + cc, and the second feature window is the whole array at every point.
-/
import proofs.«160762_j20109036879978_2_alg».proof.Proof.KI.Frame
import proofs.«160762_j20109036879978_2_alg».proof.Proof.Spec
import Idealize.ShloMosaic.Lib.ValueLayout
import Idealize.ShloMosaic.Lib.Pipeline.Value
import Idealize.ShloMosaic.PureOps.Ideal.Laws
import Idealize.ShloMosaic.Lib.StableHlo.Run

noncomputable section

namespace Cert.KernelIdeal.HandBlocks

open Cert.KernelIdeal Cert.KernelIdeal.Gen Cert.KernelIdeal.Hand Cert.Contrastive
open Idealize.ShloMosaic Idealize.ShloMosaic.TcCoe Idealize.ShloMosaic.ValueIdx Idealize.ShloMosaic.StableHlo Idealize.SL.Sem
open scoped BigOperators

variable (m : (ℓ : Loc nD τ sig) → Buf (Elt Ideal) ℓ) (c : Dev nD)

/-! ## The launch arrays, and the rows and columns a grid point works on -/

/-- The feature array and the target array as the launch finds them on core c. -/
abbrev feat : SF.Idx → EReal := m ((c : Thread nD τ).loc main_arg0)
abbrev targ : ST.Idx → BitVec 32 := m ((c : Thread nD τ).loc main_arg1)

/-- The grid has 64 points. -/
theorem t_lt (t : Fin cfg0.N) : t.val < 64 := lt_of_lt_of_eq t.isLt N_0

/-- Row r of the row block of point t is row 512 * (t / 4) + r of the array. -/
abbrev rowOf (t : Fin cfg0.N) (r : Fin 512) : Fin 8192 :=
  ⟨512 * (t.val / 4) + r.val, by have := t_lt t; have := r.isLt; omega⟩
/-- Column cc of the column block of point t is column 2048 * (t % 4) + cc of the array. -/
abbrev colOf (t : Fin cfg0.N) (cc : Fin 2048) : Fin 8192 :=
  ⟨2048 * (t.val % 4) + cc.val, by have := cc.isLt; omega⟩

/-! ## What the eight host lines leave -/

/-- A vector [a] cast to the column [a, 1] reads, at (i, u), the vector at i. -/
theorem shapeCast_column {α : Type} {a : ℕ} (v : (⟨1, ![a]⟩ : Shape).Idx → α)
    (h : (⟨1, ![a]⟩ : Shape).ShapeCasts ⟨2, ![a, 1]⟩) (i : Fin a) (u : Fin 1) :
    shapeCast ⟨2, ![a, 1]⟩ v h (ix2 i u) = v (ix1 i) :=
  shapeCast_apply v h _ _ (by
    have hu : u.val = 0 := by omega
    rw [Shape.rowMajor_val_two, Shape.rowMajor_val_one]
    show i.val = i.val * 1 + u.val
    omega)

/-- The host's sum along the second axis from the zero word, at row I, is the sum over the row. -/
theorem rowsum_apply (y0 : FVec Ideal S8192x512 .f32) (I : Fin 8192) :
    Host.reduceAdd (F := Ideal) y0 (constant (F := Ideal) S_ .f32 0x00000000#32) reducesTo_S8192x512_S8192_d1 h_S_ (ix1 I)
      = ∑ k : Fin 512, y0 (ix2 I k) := by
  simp only [Host.reduceAdd, Ideal.hostReduceAdd_def]
  rw [Ideal.hostReduceAdd_single reducesTo_S8192x512_S8192_d1 (by decide)]
  show Ideal.ofBits .f32 0x00000000#32 + _ = _
  rw [Ideal.ofBits_zero_f32, zero_add]
  refine Finset.sum_congr rfl fun k _ => ?_
  exact congrArg y0 (funext fun a => Fin.ext (by match a with | ⟨0, _⟩ => rfl | ⟨1, _⟩ => rfl))

/-- The cast features: the change of format is the identity on extended reals. -/
theorem V_v0_eq : @Eq (FVec Ideal S8192x512 .bf16) (V m c main_v0)
    (truncf .bf16 (feat m c : FVec Ideal S8192x512 .f32) bitsLt_bf16_f32) := by
  dsimp only [V, V0]
  simp only [hostOps0, List.flatten_cons, List.flatten_nil, List.append_nil]
  after_results
  try rfl

/-- The row sums of squares. -/
theorem V_v2_eq : @Eq (FVec Ideal S8192 .f32) (V m c main_v2)
    (Host.reduceAdd (F := Ideal) (mulf (feat m c : FVec Ideal S8192x512 .f32) (feat m c))
      (constant (F := Ideal) S_ .f32 0x00000000#32) reducesTo_S8192x512_S8192_d1 h_S_) := by
  dsimp only [V, V0]
  simp only [hostOps0, List.flatten_cons, List.flatten_nil, List.append_nil]
  after_results
  try rfl

/-- They as a column … -/
theorem V_v3_eq : @Eq (FVec Ideal S8192x1 .f32) (V m c main_v3)
    (shapeCast S8192x1 (V m c main_v2 : FVec Ideal S8192 .f32) shapeCasts_S8192_S8192x1) := by
  dsimp only [V, V0]
  simp only [hostOps0, List.flatten_cons, List.flatten_nil, List.append_nil]
  after_results
  try rfl

/-- … and as a row. -/
theorem V_v4_eq : @Eq (FVec Ideal S1x8192 .f32) (V m c main_v4)
    (shapeCast S1x8192 (V m c main_v2 : FVec Ideal S8192 .f32) shapeCasts_S8192_S1x8192) := by
  dsimp only [V, V0]
  simp only [hostOps0, List.flatten_cons, List.flatten_nil, List.append_nil]
  after_results
  try rfl

/-- The targets as a column … -/
theorem V_v5_eq : @Eq (IVec S8192x1 32) (V m c main_v5)
    (shapeCast S8192x1 (targ m c : IVec S8192 32) shapeCasts_S8192_S8192x1) := by
  dsimp only [V, V0]
  simp only [hostOps0, List.flatten_cons, List.flatten_nil, List.append_nil]
  after_results
  try rfl

/-- … and as a row. -/
theorem V_v6_eq : @Eq (IVec S1x8192 32) (V m c main_v6)
    (shapeCast S1x8192 (targ m c : IVec S8192 32) shapeCasts_S8192_S1x8192) := by
  dsimp only [V, V0]
  simp only [hostOps0, List.flatten_cons, List.flatten_nil, List.append_nil]
  after_results
  try rfl

/-- The cast features at (I, k) are the features. -/
theorem V_v0_at (I : Fin 8192) (k : Fin 512) : V m c main_v0 (ix2 I k) = feat m c (ix2 I k) := by
  rw [V_v0_eq]; rfl

/-- The row sum of squares of row I is its squared norm. -/
theorem V_v2_at (I : Fin 8192) : V m c main_v2 (ix1 I) = sqNorm (feat m c) I := by
  rw [V_v2_eq, rowsum_apply]; rfl

/-- The column of squared norms at (I, 0). -/
theorem V_v3_at (I : Fin 8192) : V m c main_v3 (ix2 I (0 : Fin 1)) = sqNorm (feat m c) I := by
  rw [V_v3_eq, shapeCast_column, V_v2_at]

/-- The row of squared norms at (0, J). -/
theorem V_v4_at (J : Fin 8192) : V m c main_v4 (ix2 (0 : Fin 1) J) = sqNorm (feat m c) J := by
  rw [V_v4_eq, shapeCast_a_1a_apply, V_v2_at]

/-- The column of targets at (I, 0). -/
theorem V_v5_at (I : Fin 8192) : V m c main_v5 (ix2 I (0 : Fin 1)) = targ m c (ix1 I) := by
  rw [V_v5_eq, shapeCast_column]

/-- The row of targets at (0, J). -/
theorem V_v6_at (J : Fin 8192) : V m c main_v6 (ix2 (0 : Fin 1) J) = targ m c (ix1 J) := by
  rw [V_v6_eq, shapeCast_a_1a_apply]

/-! ## The grid's coordinates and the windows' block indices, decided over the 64 points -/

/-- Point t has row block t / 4 and column block t mod 4. -/
theorem coords_facts : ∀ t : Fin cfg0.N, (grid0.coords t 0).val = t.val / 4 ∧ (grid0.coords t 1).val = t.val % 4 :=
  (by decide +kernel : ∀ t : Fin grid0.N, _)

/-- Each input window's block index at point t, axis by axis: the row windows follow the row block, the column
    windows the column block, and the second feature window stays at the origin. -/
theorem idx_facts : ∀ t : Fin cfg0.N,
    win0_0.index t (0 : Fin 2) = t.val / 4 ∧ win0_0.index t (1 : Fin 2) = 0
    ∧ win0_1.index t (0 : Fin 2) = 0 ∧ win0_1.index t (1 : Fin 2) = 0
    ∧ win0_2.index t (0 : Fin 2) = t.val / 4 ∧ win0_2.index t (1 : Fin 2) = 0
    ∧ win0_3.index t (0 : Fin 2) = 0 ∧ win0_3.index t (1 : Fin 2) = t.val % 4
    ∧ win0_4.index t (0 : Fin 2) = t.val / 4 ∧ win0_4.index t (1 : Fin 2) = 0
    ∧ win0_5.index t (0 : Fin 2) = 0 ∧ win0_5.index t (1 : Fin 2) = t.val % 4 :=
  (by decide +kernel : ∀ t : Fin grid0.N, _)

/-! ## Each window's block at an index, read off the array the region finds -/

/-- The features by row block: row r of the block is row 512 * (t / 4) + r. -/
theorem iblk0_at (t : Fin cfg0.N) (r k : Fin 512) :
    (iblk m c 0 t : S512x512.Idx → EReal) (ix2 r k) = V m c main_v0 (ix2 (rowOf t r) k) := by
  show V m c main_v0 (((cfg0.win 0).blk t).view.emb (ix2 r k)) = _
  obtain ⟨e0, e1, -⟩ := idx_facts t
  refine congrArg (V m c main_v0) (funext fun a => Fin.ext ?_)
  match a with
  | ⟨0, _⟩ => show win0_0.index t (0 : Fin 2) * 512 + 1 * r.val = 512 * (t.val / 4) + r.val; omega
  | ⟨1, _⟩ => show win0_0.index t (1 : Fin 2) * 512 + 1 * k.val = k.val; omega

/-- The features whole: the block is the array at every point. -/
theorem iblk1_at (t : Fin cfg0.N) (R : Fin 8192) (k : Fin 512) :
    (iblk m c 1 t : S8192x512.Idx → EReal) (ix2 R k) = V m c main_v0 (ix2 R k) := by
  show V m c main_v0 (((cfg0.win 1).blk t).view.emb (ix2 R k)) = _
  obtain ⟨-, -, e0, e1, -⟩ := idx_facts t
  refine congrArg (V m c main_v0) (funext fun a => Fin.ext ?_)
  match a with
  | ⟨0, _⟩ => show win0_1.index t (0 : Fin 2) * 8192 + 1 * R.val = R.val; omega
  | ⟨1, _⟩ => show win0_1.index t (1 : Fin 2) * 512 + 1 * k.val = k.val; omega

/-- The squared norms' column by row block. -/
theorem iblk2_at (t : Fin cfg0.N) (r : Fin 512) :
    (iblk m c 2 t : S512x1.Idx → EReal) (ix2 r (0 : Fin 1)) = V m c main_v3 (ix2 (rowOf t r) (0 : Fin 1)) := by
  show V m c main_v3 (((cfg0.win 2).blk t).view.emb (ix2 r (0 : Fin 1))) = _
  obtain ⟨-, -, -, -, e0, e1, -⟩ := idx_facts t
  refine congrArg (V m c main_v3) (funext fun a => Fin.ext ?_)
  match a with
  | ⟨0, _⟩ => show win0_2.index t (0 : Fin 2) * 512 + 1 * r.val = 512 * (t.val / 4) + r.val; omega
  | ⟨1, _⟩ => show win0_2.index t (1 : Fin 2) * 1 + 1 * 0 = 0; omega

/-- The squared norms' row by column block: column cc of the block is column 2048 * (t mod 4) + cc. -/
theorem iblk3_at (t : Fin cfg0.N) (cc : Fin 2048) :
    (iblk m c 3 t : S1x2048.Idx → EReal) (ix2 (0 : Fin 1) cc) = V m c main_v4 (ix2 (0 : Fin 1) (colOf t cc)) := by
  show V m c main_v4 (((cfg0.win 3).blk t).view.emb (ix2 (0 : Fin 1) cc)) = _
  obtain ⟨-, -, -, -, -, -, e0, e1, -⟩ := idx_facts t
  refine congrArg (V m c main_v4) (funext fun a => Fin.ext ?_)
  match a with
  | ⟨0, _⟩ => show win0_3.index t (0 : Fin 2) * 1 + 1 * 0 = 0; omega
  | ⟨1, _⟩ => show win0_3.index t (1 : Fin 2) * 2048 + 1 * cc.val = 2048 * (t.val % 4) + cc.val; omega

/-- The targets' column by row block. -/
theorem iblk4_at (t : Fin cfg0.N) (r : Fin 512) :
    (iblk m c 4 t : S512x1.Idx → BitVec 32) (ix2 r (0 : Fin 1)) = V m c main_v5 (ix2 (rowOf t r) (0 : Fin 1)) := by
  show V m c main_v5 (((cfg0.win 4).blk t).view.emb (ix2 r (0 : Fin 1))) = _
  obtain ⟨-, -, -, -, -, -, -, -, e0, e1, -⟩ := idx_facts t
  refine congrArg (V m c main_v5) (funext fun a => Fin.ext ?_)
  match a with
  | ⟨0, _⟩ => show win0_4.index t (0 : Fin 2) * 512 + 1 * r.val = 512 * (t.val / 4) + r.val; omega
  | ⟨1, _⟩ => show win0_4.index t (1 : Fin 2) * 1 + 1 * 0 = 0; omega

/-- The targets' row by column block. -/
theorem iblk5_at (t : Fin cfg0.N) (cc : Fin 2048) :
    (iblk m c 5 t : S1x2048.Idx → BitVec 32) (ix2 (0 : Fin 1) cc) = V m c main_v6 (ix2 (0 : Fin 1) (colOf t cc)) := by
  show V m c main_v6 (((cfg0.win 5).blk t).view.emb (ix2 (0 : Fin 1) cc)) = _
  obtain ⟨-, -, -, -, -, -, -, -, -, -, e0, e1⟩ := idx_facts t
  refine congrArg (V m c main_v6) (funext fun a => Fin.ext ?_)
  match a with
  | ⟨0, _⟩ => show win0_5.index t (0 : Fin 2) * 1 + 1 * 0 = 0; omega
  | ⟨1, _⟩ => show win0_5.index t (1 : Fin 2) * 2048 + 1 * cc.val = 2048 * (t.val % 4) + cc.val; omega

/-! ## The blocks in terms of the launch arrays -/

/-- The row block of the features at (r, k) is x at row 512 * (t / 4) + r. -/
theorem blk0 (t : Fin cfg0.N) (r k : Fin 512) :
    (iblk m c 0 t : S512x512.Idx → EReal) (ix2 r k) = feat m c (ix2 (rowOf t r) k) :=
  (iblk0_at m c t r k).trans (V_v0_at m c _ k)

/-- The whole feature block at (R, k) is x there. -/
theorem blk1 (t : Fin cfg0.N) (R : Fin 8192) (k : Fin 512) :
    (iblk m c 1 t : S8192x512.Idx → EReal) (ix2 R k) = feat m c (ix2 R k) :=
  (iblk1_at m c t R k).trans (V_v0_at m c R k)

/-- The column block of squared norms at (r, 0) is the squared norm of row 512 * (t / 4) + r. -/
theorem blk2 (t : Fin cfg0.N) (r : Fin 512) :
    (iblk m c 2 t : S512x1.Idx → EReal) (ix2 r (0 : Fin 1)) = sqNorm (feat m c) (rowOf t r) :=
  (iblk2_at m c t r).trans (V_v3_at m c _)

/-- The row block of squared norms at (0, cc) is the squared norm of row 2048 * (t mod 4) + cc. -/
theorem blk3 (t : Fin cfg0.N) (cc : Fin 2048) :
    (iblk m c 3 t : S1x2048.Idx → EReal) (ix2 (0 : Fin 1) cc) = sqNorm (feat m c) (colOf t cc) :=
  (iblk3_at m c t cc).trans (V_v4_at m c _)

/-- The column block of targets at (r, 0) is the target of row 512 * (t / 4) + r. -/
theorem blk4 (t : Fin cfg0.N) (r : Fin 512) :
    (iblk m c 4 t : S512x1.Idx → BitVec 32) (ix2 r (0 : Fin 1)) = targ m c (ix1 (rowOf t r)) :=
  (iblk4_at m c t r).trans (V_v5_at m c _)

/-- The row block of targets at (0, cc) is the target of row 2048 * (t mod 4) + cc. -/
theorem blk5 (t : Fin cfg0.N) (cc : Fin 2048) :
    (iblk m c 5 t : S1x2048.Idx → BitVec 32) (ix2 (0 : Fin 1) cc) = targ m c (ix1 (colOf t cc)) :=
  (iblk5_at m c t cc).trans (V_v6_at m c _)

end Cert.KernelIdeal.HandBlocks

end
-- ==== Proof.LibMatmulRows.lean ====
/-
  A matrix product that contracts the LAST axis of both operands, from the zero accumulator, read at an entry.

  With the left operand [M, K] and the right operand [N, K], both contracted on their second axis, the result
  [M, N] at (p, r) is the sum over k of left (p, k) times right (r, k): row p of the left operand against
  row r of the right one. Stated for any dimension record that lists exactly those axes, at the exact
  instance (extended reals), general in the extents and in the operands' float formats.
-/
import Idealize.ShloMosaic.Lib.ValueIdx
import Idealize.ShloMosaic.PureOps.Ideal.Laws

namespace Cert.MatmulRows

open Idealize.ShloMosaic Idealize.ShloMosaic.ValueIdx

/-- Rows against rows: `matmul` of [M, K] and [N, K] contracting axis 1 of each, accumulator zero, at (p, r). -/
theorem matmul_rows_apply {M N K : ℕ} {φ₁ φ₂ : FTy}
    (d : DotDims ⟨2, ![M, K]⟩ ⟨2, ![N, K]⟩ ⟨2, ![M, N]⟩) (prec : Option ContractPrecision)
    (hlc : d.lhsContracting = [1]) (hrc : d.rhsContracting = [1])
    (hln : d.lhsNonContracting = [0]) (hrn : d.rhsNonContracting = [0])
    (hlb : d.lhsBatch = []) (hrb : d.rhsBatch = [])
    (lhs : FVec Ideal ⟨2, ![M, K]⟩ φ₁) (rhs : FVec Ideal ⟨2, ![N, K]⟩ φ₂) (p : Fin M) (r : Fin N) :
    FloatOps.matmul d prec lhs rhs (constant (F := Ideal) ⟨2, ![M, N]⟩ .f32 0x00000000#32) (ix2 p r)
      = ∑ k : Fin K, lhs (ix2 p k) * rhs (ix2 r k) := by
  obtain ⟨lc, rc, ln, rn, lb, rb, wf⟩ := d
  dsimp only at hlc hrc hln hrn hlb hrb
  subst hlc hrc hln hrn hlb hrb
  generalize hd : (⟨[1], [1], [0], [0], [], [], wf⟩ : DotDims ⟨2, ![M, K]⟩ ⟨2, ![N, K]⟩ ⟨2, ![M, N]⟩) = d
  have hlc : d.lhsContracting = [1] := by rw [← hd]
  have hrc : d.rhsContracting = [1] := by rw [← hd]
  have hr : d.contr.rank = 1 := by rw [← hd]; rfl
  have hs : d.contr.size ⟨0, by omega⟩ = K := by subst hd; rfl
  rw [Ideal.matmul_constant_zero_apply, ← Equiv.sum_comp (contrEquiv1 d K hr hs).symm]
  refine Finset.sum_congr rfl fun k _ => ?_
  have hk := contrEquiv1_symm_val d K hr hs k
  have el : d.lhsIdx (ix2 p r) ((contrEquiv1 d K hr hs).symm k) = ix2 p k := funext fun a => Fin.ext (by
    match a with
    | ⟨0, h0⟩ =>
      subst hd
      unfold DotDims.lhsIdx
      rw [dif_neg List.not_mem_nil,
        dif_pos (show (⟨0, h0⟩ : Fin (⟨2, ![M, K]⟩ : Shape).rank) ∈ [0] from List.mem_singleton.mpr (Fin.ext rfl))]
      rfl
    | ⟨1, _⟩ => exact (d.lhsIdx_val_of_single hlc _ _).trans hk)
  have er : d.rhsIdx (ix2 p r) ((contrEquiv1 d K hr hs).symm k) = ix2 r k := funext fun a => Fin.ext (by
    match a with
    | ⟨0, h0⟩ =>
      subst hd
      unfold DotDims.rhsIdx
      rw [dif_neg List.not_mem_nil,
        dif_pos (show (⟨0, h0⟩ : Fin (⟨2, ![N, K]⟩ : Shape).rank) ∈ [0] from List.mem_singleton.mpr (Fin.ext rfl))]
      rfl
    | ⟨1, _⟩ => exact (d.rhsIdx_val_of_single hrc _ _).trans hk)
  rw [el, er]

end Cert.MatmulRows
-- ==== Proof.LibColumnForms.lean ====
/-
  Two layout operations on a COLUMN, read at an index given by its coordinates.

  A row-wise reduction with `keepdims` leaves its result as a column: a vector of `a` entries is cast to the
  shape `[a, 1]`, and the column is then broadcast along the second axis to `[a, b]`. Each of the two steps
  reads, at an index of its result, the operand at one index: the cast at `(i, u)` reads entry `i` (the unit
  coordinate `u` is `0` and carries nothing), and the broadcast at `(p, c)` reads the column's entry `(p, 0)`
  (the column is constant along the second axis). General in the extents and in the element type.
-/
import Idealize.ShloMosaic.Lib.Pipeline.Value
import Idealize.ShloMosaic.Lib.ValueIdx

namespace Cert.ColumnForms

open Idealize.ShloMosaic Idealize.ShloMosaic.ValueIdx

variable {α : Type}

/-- A vector of `a` entries cast to the column shape `[a, 1]` reads, at `(i, u)`, entry `i`: both indices have
    row-major position `i`, since the unit coordinate is `0`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry `(p, 0)`: the first axis is
    kept (or has extent one, where `p` is `0` anyway), the second is the column's unit axis. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.ColumnForms
-- ==== Proof.LibAxisReads.lean ====
/-
  Reductions along ONE axis and rank-three layout steps, each read at an index given by its coordinates.

  A sum (or a maximum) along one axis of an array, read at a reduced index, ranges over the coordinates of the
  reduced axis with the other coordinates held: along the columns of a matrix [a, b] at row r it is over
  (r, k); along the middle axis of [a, b, c] at (p, q) over (p, k, q); along the last axis at (p, q)
  over (p, q, k). A maximum is the fold of max from the accumulator's value, in any order.

  A stack of m matrices [m, a, b] and the tall matrix [m * a, b] of their rows hold the same entries in the
  same row-major order: row p * a + q of the tall matrix is row q of matrix p. Inserting a unit axis moves
  nothing. A broadcast along an axis of extent one repeats the operand along it: the result at (p, q, r) reads
  the operand with 0 on each of its unit axes. General in the extents and in the element type.
-/
import Idealize.ShloMosaic.Lib.Pipeline.Value
import Idealize.ShloMosaic.Lib.ValueIdx
import Idealize.ShloMosaic.PureOps.Ideal.Laws

namespace Cert.AxisReads

open Idealize.ShloMosaic Idealize.ShloMosaic.ValueIdx

variable {α : Type}

/-! ## The reduced index with the coordinate put back -/

theorem lift_cols {a b : ℕ} (h : (⟨2, ![a, b]⟩ : Shape).Reduces [1] ⟨1, ![a]⟩) (r : Fin a)
    (k : Fin ((⟨2, ![a, b]⟩ : Shape).size 1)) : h.lift (ix1 r) k = ix2 r (⟨k.val, k.isLt⟩ : Fin b) := by
  funext c; apply Fin.ext
  fin_cases c <;> rfl

theorem lift_mid {a b c : ℕ} (h : (⟨3, ![a, b, c]⟩ : Shape).Reduces [1] ⟨2, ![a, c]⟩) (p : Fin a) (q : Fin c)
    (k : Fin ((⟨3, ![a, b, c]⟩ : Shape).size 1)) : h.lift (ix2 p q) k = ix3 p (⟨k.val, k.isLt⟩ : Fin b) q := by
  funext d; apply Fin.ext
  fin_cases d <;> rfl

theorem lift_last {a b c : ℕ} (h : (⟨3, ![a, b, c]⟩ : Shape).Reduces [2] ⟨2, ![a, b]⟩) (p : Fin a) (q : Fin b)
    (k : Fin ((⟨3, ![a, b, c]⟩ : Shape).size 2)) : h.lift (ix2 p q) k = ix3 p q (⟨k.val, k.isLt⟩ : Fin c) := by
  funext d; apply Fin.ext
  fin_cases d <;> rfl

/-! ## Sums along one axis (a kernel's f32 lane or sublane sum from the zero accumulator) -/

/-- Along the columns of [a, b], at row r: the sum over k of the entries (r, k). -/
theorem sum_cols {a b : ℕ} (src : FVec Ideal ⟨2, ![a, b]⟩ .f32) (h : (⟨2, ![a, b]⟩ : Shape).Reduces [1] ⟨1, ![a]⟩) (r : Fin a) :
    multiReduction .add [1] ⟨1, ![a]⟩ src 0x00000000#32 h (.inl rfl) rfl (ix1 r) = ∑ k : Fin b, src (ix2 r k) :=
  (Ideal.multiReduction_add_single src 0x00000000#32 h (.inl rfl) rfl (ix1 r)).trans
    (Finset.sum_congr rfl fun k _ => congrArg src (lift_cols h r k))

/-- Along the middle axis of [a, b, c], at (p, q): the sum over k of the entries (p, k, q). -/
theorem sum_mid {a b c : ℕ} (src : FVec Ideal ⟨3, ![a, b, c]⟩ .f32) (h : (⟨3, ![a, b, c]⟩ : Shape).Reduces [1] ⟨2, ![a, c]⟩)
    (p : Fin a) (q : Fin c) :
    multiReduction .add [1] ⟨2, ![a, c]⟩ src 0x00000000#32 h (.inl rfl) rfl (ix2 p q) = ∑ k : Fin b, src (ix3 p k q) :=
  (Ideal.multiReduction_add_single src 0x00000000#32 h (.inl rfl) rfl (ix2 p q)).trans
    (Finset.sum_congr rfl fun k _ => congrArg src (lift_mid h p q k))

/-- Along the last axis of [a, b, c], at (p, q): the sum over k of the entries (p, q, k). -/
theorem sum_last {a b c : ℕ} (src : FVec Ideal ⟨3, ![a, b, c]⟩ .f32) (h : (⟨3, ![a, b, c]⟩ : Shape).Reduces [2] ⟨2, ![a, b]⟩)
    (p : Fin a) (q : Fin b) :
    multiReduction .add [2] ⟨2, ![a, b]⟩ src 0x00000000#32 h (.inl rfl) rfl (ix2 p q) = ∑ k : Fin c, src (ix3 p q k) :=
  (Ideal.multiReduction_add_single src 0x00000000#32 h (.inl rfl) rfl (ix2 p q)).trans
    (Finset.sum_congr rfl fun k _ => congrArg src (lift_last h p q k))

/-! ## Maxima along the columns, from the accumulator at minus infinity -/

/-- A kernel's row maximum of [a, b] at row r: the fold of max from the accumulator's value over the entries (r, k). -/
theorem max_cols {a b : ℕ} (src : FVec Ideal ⟨2, ![a, b]⟩ .f32) (h : (⟨2, ![a, b]⟩ : Shape).Reduces [1] ⟨1, ![a]⟩) (r : Fin a) :
    multiReduction .maximumf [1] ⟨1, ![a]⟩ src 0xFF800000#32 h (.inl rfl) rfl (ix1 r)
      = (Finset.univ : Finset (Fin b)).fold max (Ideal.ofBits .f32 0xFF800000#32) (fun k => src (ix2 r k)) :=
  (Ideal.multiReduction_maximumf_single src 0xFF800000#32 h (.inl rfl) rfl (ix1 r)).trans
    (congrArg ((Finset.univ : Finset (Fin b)).fold max (Ideal.ofBits .f32 0xFF800000#32))
      (funext fun k => congrArg src (lift_cols h r k)))

/-- The host's reduce with a maximum body along the columns of [a, b], at row r, from a rank-zero initial value. -/
theorem hostMax_cols {a b : ℕ} (x : FVec Ideal ⟨2, ![a, b]⟩ .f32) (init : FVec Ideal ⟨0, ![]⟩ .f32)
    (h' : (⟨2, ![a, b]⟩ : Shape).ReducesTo [1] ⟨1, ![a]⟩) (h : (⟨2, ![a, b]⟩ : Shape).Reduces [1] ⟨1, ![a]⟩)
    (hu : 0 < (⟨0, ![]⟩ : Shape).numel) (r : Fin a) :
    Host.reduce FloatOps.maximumf x init h' hu (ix1 r)
      = (Finset.univ : Finset (Fin b)).fold max (init ix0) (fun k => x (ix2 r k)) := by
  rw [Host.reduce_eq_fold_single FloatOps.maximumf x init h' h hu (ix1 r)]
  have e0 : Shape.Idx.first hu = ix0 := funext fun d => d.elim0
  rw [e0]
  exact congrArg ((Finset.univ : Finset (Fin b)).fold max (init ix0)) (funext fun k => congrArg x (lift_cols h r k))

/-! ## A stack of matrices and the tall matrix of their rows -/

/-- The stack [m, a, b] cast to the tall matrix [n, b], n = m * a: row p * a + q is row q of matrix p. -/
theorem shapeCast_stack_tall_apply {m a b n : ℕ} (x : (⟨3, ![m, a, b]⟩ : Shape).Idx → α)
    (h : (⟨3, ![m, a, b]⟩ : Shape).ShapeCasts ⟨2, ![n, b]⟩) (r : Fin n) (p : Fin m) (q : Fin a) (d : Fin b)
    (hr : r.val = p.val * a + q.val) : shapeCast ⟨2, ![n, b]⟩ x h (ix2 r d) = x (ix3 p q d) :=
  shapeCast_apply x h _ _ (by
    rw [Shape.rowMajor_val_three, Shape.rowMajor_val_two]
    show (p.val * a + q.val) * b + d.val = r.val * b + d.val
    rw [hr])

/-- The tall matrix [n, b], n = m * a, cast to the stack [m, a, b]: row q of matrix p is row p * a + q. -/
theorem shapeCast_tall_stack_apply {m a b n : ℕ} (x : (⟨2, ![n, b]⟩ : Shape).Idx → α)
    (h : (⟨2, ![n, b]⟩ : Shape).ShapeCasts ⟨3, ![m, a, b]⟩) (r : Fin n) (p : Fin m) (q : Fin a) (d : Fin b)
    (hr : r.val = p.val * a + q.val) : shapeCast ⟨3, ![m, a, b]⟩ x h (ix3 p q d) = x (ix2 r d) :=
  shapeCast_apply x h _ _ (by
    rw [Shape.rowMajor_val_three, Shape.rowMajor_val_two]
    show r.val * b + d.val = (p.val * a + q.val) * b + d.val
    rw [hr])

/-! ## A unit axis inserted -/

/-- [a, b] cast to [a, 1, b] reads, at (i, u, j), the operand at (i, j). -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- [a, b] cast to [a, b, 1] reads, at (i, j, u), the operand at (i, j). -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-! ## Broadcasts along unit axes of a rank-three array -/

/-- [a, 1, c] broadcast to [a, b, c] reads, at (p, q, r), the operand at (p, 0, r). -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (q : Fin b) (r : Fin c) :
    broadcastTo ⟨3, ![a, b, c]⟩ v h (ix3 p q r) = v (ix3 p (0 : Fin 1) r) := by
  refine broadcastTo_apply v h (ix3 p q r) (ix3 p (0 : Fin 1) r) fun ax => ?_
  match ax with
  | ⟨0, _⟩ =>
    show p.val = if a = 1 then 0 else p.val
    split
    · have := p.isLt; omega
    · rfl
  | ⟨1, _⟩ => rfl
  | ⟨2, _⟩ =>
    show r.val = if c = 1 then 0 else r.val
    split
    · have := r.isLt; omega
    · rfl

/-- [1, b, c] broadcast to [a, b, c] reads, at (p, q, r), the operand at (0, q, r). -/
theorem broadcastTo_1bc_abc_apply {a b c : ℕ} (v : (⟨3, ![1, b, c]⟩ : Shape).Idx → α)
    (h : (⟨3, ![1, b, c]⟩ : Shape).Broadcasts ⟨3, ![a, b, c]⟩) (p : Fin a) (q : Fin b) (r : Fin c) :
    broadcastTo ⟨3, ![a, b, c]⟩ v h (ix3 p q r) = v (ix3 (0 : Fin 1) q r) := by
  refine broadcastTo_apply v h (ix3 p q r) (ix3 (0 : Fin 1) q r) fun ax => ?_
  match ax with
  | ⟨0, _⟩ => rfl
  | ⟨1, _⟩ =>
    show q.val = if b = 1 then 0 else q.val
    split
    · have := q.isLt; omega
    · rfl
  | ⟨2, _⟩ =>
    show r.val = if c = 1 then 0 else r.val
    split
    · have := r.isLt; omega
    · rfl

/-- [a, b, 1] broadcast to [a, b, c] reads, at (p, q, r), the operand at (p, q, 0). -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (q : Fin b) (r : Fin c) :
    broadcastTo ⟨3, ![a, b, c]⟩ v h (ix3 p q r) = v (ix3 p q (0 : Fin 1)) := by
  refine broadcastTo_apply v h (ix3 p q r) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl

/-- [a, 1, 1] broadcast to [a, b, c] reads, at (p, q, r), the operand at (p, 0, 0). -/
theorem broadcastTo_a11_abc_apply {a b c : ℕ} (v : (⟨3, ![a, 1, 1]⟩ : Shape).Idx → α)
    (h : (⟨3, ![a, 1, 1]⟩ : Shape).Broadcasts ⟨3, ![a, b, c]⟩) (p : Fin a) (q : Fin b) (r : Fin c) :
    broadcastTo ⟨3, ![a, b, c]⟩ v h (ix3 p q r) = v (ix3 p (0 : Fin 1) (0 : Fin 1)) := by
  refine broadcastTo_apply v h (ix3 p q r) (ix3 p (0 : Fin 1) (0 : Fin 1)) fun ax => ?_
  match ax with
  | ⟨0, _⟩ =>
    show p.val = if a = 1 then 0 else p.val
    split
    · have := p.isLt; omega
    · rfl
  | ⟨1, _⟩ => rfl
  | ⟨2, _⟩ => rfl

end Cert.AxisReads
-- ==== Proof.KernelPayloads.lean ====
/-
  The kernel's arithmetic at one grid point, read entry by entry over the extended reals.

  The kernel walks a grid of 16 x 4 points. At the point (b, j) it holds 512 rows of the feature array
  (rows 512 * b + r, r < 512), 2048 rows of the same array (rows 2048 * j + c, c < 2048), the squared norms of
  those rows as a column and as a row, and their class labels likewise, and a running column acc of 512
  partial sums.

  * The starting column is zero at every entry.
  * One step adds to acc (r), for each of the 512 rows r, the sum over the 2048 columns c of what the ordered
    pair of rows (512 * b + r, 2048 * j + c) contributes. The matrix product of the two blocks, contracted along
    the features, is the inner product of the two rows; with the two squared norms it gives the clamped squared
    distance max (|x_i|^2 + |x_j|^2 - 2 <x_i, x_j>) 0. The two labels are compared as words. The test "same
    row" compares the row numbers 512 * b + r and 2048 * j + c computed in 32-bit words: both are below 8192,
    so no wrap-around occurs and the words are equal exactly when the numbers are. A pair of the same class
    contributes zero on the diagonal and the distance off it; a pair of different classes contributes the
    squared hinge max (1 - sqrt d) 0. The lane sum starts from the zero word, and 0 + s = s.
  * At the last step the column is summed over its 512 rows and the total is written to lane 0 of a row of 128
    lanes, the other lanes holding zero.
  * The host then adds up all 16 x 1 x 128 lanes starting from zero: only lane 0 of each of the 16 rows
    contributes, so the total is the sum of the 16 row totals.
-/
import proofs.«160762_j20109036879978_2_alg».proof.Proof.Gen.KernelIdeal.Skeleton
import proofs.«160762_j20109036879978_2_alg».proof.Proof.Spec
import proofs.«160762_j20109036879978_2_alg».proof.Proof.LibMatmulRows
import proofs.«160762_j20109036879978_2_alg».proof.Proof.LibColumnForms
import proofs.«160762_j20109036879978_2_alg».proof.Proof.LibAxisReads
import Idealize.ShloMosaic.Lib.ValueIdx
import Idealize.ShloMosaic.Lib.Pipeline.Value
import Idealize.ShloMosaic.Lib.ValueLayout
import Idealize.ShloMosaic.Lib.IdealHost
import Idealize.ShloMosaic.PureOps.Ideal.Laws

noncomputable section

namespace Cert.Contrastive.KernelPayloads

open Idealize.ShloMosaic Idealize.ShloMosaic.ValueIdx
open Cert.KernelIdeal Cert.KernelIdeal.Gen
open scoped BigOperators

/-! ## Small facts about words and pointwise operations -/

/-- A square root of a vector, read at an index, is the square root of the entry. -/
theorem sqrt_apply {s : Shape} {φ : FTy} (a : FVec Ideal s φ) (j : s.Idx) : sqrt a j = Ideal.sqrt (a j) := rfl

/-- A comparison of integer vectors, read at an index, compares the entries. -/
theorem cmpi_apply {s : Shape} {w : ℕ} (p : CmpIPredicate) (a b : IVec s w) (j : s.Idx) :
    cmpi p a b j = IntOp.cmpi p (a j) (b j) := rfl

/-- A select on the bit "a equals b" is the if-then-else on a = b. -/
theorem select_cmpi_eq {α : Type} {w : ℕ} (a b : BitVec w) (A B : α) :
    Scalar.select (IntOp.cmpi .eq a b) A B = if a = b then A else B := by
  unfold Scalar.select IntOp.cmpi
  by_cases h : a = b
  · subst h; simp
  · have hb : (a == b) = false := by simp [h]
    rw [if_neg h]
    simp [hb]

/-- The row numbers 512 * b + r and 2048 * j + c, computed in 32-bit words, are equal as words exactly when they
    are equal as naturals: both are below 8192, far from 2^32. -/
theorem word_eq_iff (b j r c : ℕ) (hb : b < 16) (hj : j < 4) (hr : r < 512) (hc : c < 2048) :
    (BitVec.ofNat 32 b * 512#32 + BitVec.ofNat 32 r = BitVec.ofNat 32 j * 2048#32 + BitVec.ofNat 32 c)
      ↔ 512 * b + r = 2048 * j + c := by
  rw [← BitVec.toNat_inj]
  simp only [BitVec.toNat_add, BitVec.toNat_mul, BitVec.toNat_ofNat]
  omega

/-- A lane number below 128, as a 32-bit word, is the zero word exactly when it is zero. -/
theorem lane_eq_zero_iff (l : ℕ) (hl : l < 128) : BitVec.ofNat 32 l = 0#32 ↔ l = 0 := by
  rw [← BitVec.toNat_inj]
  simp only [BitVec.toNat_ofNat]
  omega

/-! ## The starting column -/

/-- The column the accumulator starts from is zero at every entry. -/
theorem zero_at (r : Fin 512) (u : Fin 1) : k0_pay3 (F := Ideal) (ix2 r u) = 0 := by
  unfold k0_pay3
  rw [shapeCast_self]
  exact Ideal.ofBits_zero_f32

/-! ## One step of the accumulation -/

section Step
variable (x : SF.Idx → EReal) (tg : ST.Idx → BitVec 32)
  (x0 : Vec Ideal S512x512 .bf16) (x8 : Vec Ideal S2048x512 .bf16)
  (x2 acc : Vec Ideal S512x1 .f32) (x3 : Vec Ideal S1x2048 .f32)
  (x4 : Vec Ideal S512x1 .i32) (x5 : Vec Ideal S1x2048 .i32)
  (i : grid0.Coords) (I : Fin 512 → Fin 8192) (J : Fin 2048 → Fin 8192)

/-- The clamped squared distance: when the two blocks hold the rows I r and J c of the feature array and the column
    and the row hold their squared norms, the distance block at (r, c) is the distance of rows I r and J c. -/
theorem dist_at
    (h0 : ∀ (r : Fin 512) (k : Fin 512), x0 (ix2 r k) = x (ix2 (I r) k))
    (h8 : ∀ (c : Fin 2048) (k : Fin 512), x8 (ix2 c k) = x (ix2 (J c) k))
    (h2 : ∀ r : Fin 512, x2 (ix2 r (0 : Fin 1)) = sqNorm x (I r))
    (h3 : ∀ c : Fin 2048, x3 (ix2 (0 : Fin 1) c) = sqNorm x (J c))
    (r : Fin 512) (c : Fin 2048) :
    k0_pay4 (F := Ideal) x0 x8 x2 x3 (ix2 r c) = dist x (I r) (J c) := by
  have hz : (FloatOps.ofBits (F := Ideal) .f32 0x00000000#32 : EReal) = 0 := Ideal.ofBits_zero_f32
  have mm : matmul dot_S512x512_S2048x512_S512x2048_1_1_0_0_n_n none x0 x8
        (constant (F := Ideal) S512x2048 .f32 0x00000000#32) (ix2 r c)
      = ∑ k : Fin 512, x0 (ix2 r k) * x8 (ix2 c k) :=
    Cert.MatmulRows.matmul_rows_apply (φ₁ := .bf16) (φ₂ := .bf16) _ none rfl rfl rfl rfl rfl rfl x0 x8 r c
  unfold k0_pay4
  rw [shapeCast_self, shapeCast_self, shapeCast_self, shapeCast_self]
  rw [maximumf_apply, subf_apply, addf_apply, mulf_apply, broadcast_apply, broadcast_apply]
  rw [Cert.ColumnForms.broadcastTo_a1_ab_apply, broadcastTo_1b_ab_apply]
  rw [h2, h3, mm, hz]
  simp only [h0, h8]
  rfl

/-- The test "same row": the two row-number blocks agree at (r, c) exactly when I r = J c. -/
theorem eye_iff
    (hI : ∀ r : Fin 512, (I r).val = 512 * (i 0).val + r.val)
    (hJ : ∀ c : Fin 2048, (J c).val = 2048 * (i 1).val + c.val)
    (r : Fin 512) (c : Fin 2048) :
    k0_pay6 i (ix2 r c) = k0_pay7 i (ix2 r c) ↔ I r = J c := by
  have e0 : iota .tc S512x2048 32 [0] Gen.iota_S512x2048_d0_w32 (ix2 r c) = BitVec.ofNat 32 r.val :=
    iota_single_apply _ _ _ _ _ _
  have e1 : iota .tc S512x2048 32 [1] Gen.iota_S512x2048_d1_w32 (ix2 r c) = BitVec.ofNat 32 c.val :=
    iota_single_apply _ _ _ _ _ _
  unfold k0_pay6 k0_pay7
  show IntOp.addi (Scalar.muli (BitVec.ofNat 32 (i 0).val) 512#32)
        (iota .tc S512x2048 32 [0] Gen.iota_S512x2048_d0_w32 (ix2 r c))
      = IntOp.addi (Scalar.muli (BitVec.ofNat 32 (i 1).val) 2048#32)
        (iota .tc S512x2048 32 [1] Gen.iota_S512x2048_d1_w32 (ix2 r c)) ↔ _
  rw [e0, e1]
  show BitVec.ofNat 32 (i 0).val * 512#32 + BitVec.ofNat 32 r.val
      = BitVec.ofNat 32 (i 1).val * 2048#32 + BitVec.ofNat 32 c.val ↔ _
  rw [word_eq_iff _ _ _ _ (i 0).isLt (i 1).isLt r.isLt c.isLt, ← hI r, ← hJ c, Fin.val_inj]

/-- The test "same class": the label block at (r, c) is the bit "the labels of rows I r and J c are equal". -/
theorem same_at
    (h4 : ∀ r : Fin 512, x4 (ix2 r (0 : Fin 1)) = tg (ix1 (I r)))
    (h5 : ∀ c : Fin 2048, x5 (ix2 (0 : Fin 1) c) = tg (ix1 (J c)))
    (r : Fin 512) (c : Fin 2048) :
    k0_pay5 (F := Ideal) x4 x5 (ix2 r c) = IntOp.cmpi .eq (tg (ix1 (I r))) (tg (ix1 (J c))) := by
  unfold k0_pay5
  rw [shapeCast_self, shapeCast_self, cmpi_apply, Cert.ColumnForms.broadcastTo_a1_ab_apply,
    broadcastTo_1b_ab_apply, h4, h5]

/-- One step: entry r of the new column is entry r of the old one plus the sum over the 2048 columns c of what the
    ordered pair of rows (I r, J c) contributes. -/
theorem step_at
    (hI : ∀ r : Fin 512, (I r).val = 512 * (i 0).val + r.val)
    (hJ : ∀ c : Fin 2048, (J c).val = 2048 * (i 1).val + c.val)
    (h0 : ∀ (r : Fin 512) (k : Fin 512), x0 (ix2 r k) = x (ix2 (I r) k))
    (h8 : ∀ (c : Fin 2048) (k : Fin 512), x8 (ix2 c k) = x (ix2 (J c) k))
    (h2 : ∀ r : Fin 512, x2 (ix2 r (0 : Fin 1)) = sqNorm x (I r))
    (h3 : ∀ c : Fin 2048, x3 (ix2 (0 : Fin 1) c) = sqNorm x (J c))
    (h4 : ∀ r : Fin 512, x4 (ix2 r (0 : Fin 1)) = tg (ix1 (I r)))
    (h5 : ∀ c : Fin 2048, x5 (ix2 (0 : Fin 1) c) = tg (ix1 (J c)))
    (r : Fin 512) :
    k0_pay1 (F := Ideal) (k0_pay4 x0 x8 x2 x3) (k0_pay5 (F := Ideal) x4 x5) (k0_pay6 i) (k0_pay7 i) acc
        (ix2 r (0 : Fin 1))
      = acc (ix2 r (0 : Fin 1)) + ∑ c : Fin 2048, pairTerm x tg (I r) (J c) := by
  have hz : (FloatOps.ofBits (F := Ideal) .f32 0x00000000#32 : EReal) = 0 := Ideal.ofBits_zero_f32
  unfold k0_pay1
  rw [shapeCast_self, addf_apply, Cert.ColumnForms.shapeCast_a_a1_apply, Cert.AxisReads.sum_cols]
  refine congrArg _ (Finset.sum_congr rfl fun c _ => ?_)
  simp only [select_apply, cmpi_apply, mulf_apply, maximumf_apply, subf_apply, sqrt_apply, broadcast_apply]
  rw [dist_at x x0 x8 x2 x3 I J h0 h8 h2 h3 r c, same_at tg x4 x5 I J h4 h5 r c, select_cmpi_eq, select_cmpi_eq, hz]
  simp only [eye_iff i I J hI hJ r c]
  rfl

end Step

/-! ## The last step: the column's total in lane 0 -/

/-- The index of a column [a, 1] that a sum along its rows reads at place k. -/
theorem lift_rows {a : ℕ} (h : (⟨2, ![a, 1]⟩ : Shape).Reduces [0] ⟨1, ![1]⟩) (u : Fin 1)
    (k : Fin ((⟨2, ![a, 1]⟩ : Shape).size 0)) : h.lift (ix1 u) k = ix2 (⟨k.val, k.isLt⟩ : Fin a) u := by
  funext c; apply Fin.ext
  fin_cases c <;> rfl

/-- The sum of a column [a, 1] along its rows, from the zero word: the sum of its entries. -/
theorem sum_column {a : ℕ} (src : FVec Ideal ⟨2, ![a, 1]⟩ .f32) (h : (⟨2, ![a, 1]⟩ : Shape).Reduces [0] ⟨1, ![1]⟩)
    (u : Fin 1) :
    multiReduction .add [0] ⟨1, ![1]⟩ src 0x00000000#32 h (.inl rfl) rfl (ix1 u) = ∑ r : Fin a, src (ix2 r u) :=
  (Ideal.multiReduction_add_single src 0x00000000#32 h (.inl rfl) rfl (ix1 u)).trans
    (Finset.sum_congr rfl fun k _ => congrArg src (lift_rows h u k))

/-- What the last step stores: the column's total in lane 0, zero in the other lanes. -/
theorem out_at (acc : Vec Ideal S512x1 .f32) (l : Fin 128) :
    k0_pay2 (F := Ideal) acc (ix3 (0 : Fin 1) (0 : Fin 1) l)
      = if l.val = 0 then ∑ r : Fin 512, acc (ix2 r (0 : Fin 1)) else 0 := by
  have hz : (FloatOps.ofBits (F := Ideal) .f32 0x00000000#32 : EReal) = 0 := Ideal.ofBits_zero_f32
  have e2 : iota .tc S1x1x128 32 [2] Gen.iota_S1x1x128_d2_w32 (ix3 (0 : Fin 1) (0 : Fin 1) l)
      = BitVec.ofNat 32 l.val := iota_single_apply _ _ _ _ _ _
  unfold k0_pay2
  rw [select_apply, cmpi_apply, broadcast_apply, broadcast_apply, e2, select_cmpi_eq,
    Cert.AxisReads.broadcastTo_ab1_abc_apply, shapeCast_ab_1ab_apply, shapeCast_a_1a_apply, sum_column, hz]
  simp only [lane_eq_zero_iff l.val l.isLt]

/-! ## The host's total over the 16 x 1 x 128 result -/

/-- A rank-3 index set is the product of its three coordinate ranges … -/
def idxEquiv3 {n0 n1 n2 : ℕ} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : ℕ} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- The host's sum over all three axes, from the zero word, of a result that holds v b in lane 0 of row b and zero in
    the other lanes: the sum of the 16 values v b. -/
theorem tail_at (out : Vec Ideal S16x1x128 .f32) (v : Fin 16 → EReal)
    (h' : S16x1x128.ReducesTo [0, 1, 2] S_) (hu : 0 < S_.numel)
    (hout : ∀ (b : Fin 16) (l : Fin 128), out (ix3 b (0 : Fin 1) l) = if l.val = 0 then v b else 0) :
    Host.reduceAdd (F := Ideal) out (constant (F := Ideal) S_ .f32 0x00000000#32) h' hu ix0
      = ∑ b : Fin 16, v b := by
  rw [hostReduceAdd_apply, Ideal.hostReduceAdd_total h' (fun b => b.elim0), constant_apply,
    Ideal.ofBits_zero_f32, zero_add, sum_idx3]
  refine Finset.sum_congr rfl fun b _ => ?_
  rw [Fin.sum_univ_one]
  simp only [hout]
  rw [Finset.sum_eq_single (⟨0, by omega⟩ : Fin 128)]
  · simp
  · intro l _ hl
    rw [if_neg]
    intro h
    exact hl (Fin.ext h)
  · intro h
    exact absurd (Finset.mem_univ _) h

end Cert.Contrastive.KernelPayloads

end
-- ==== Proof.Regroup.lean ====
/-
  Regrouping the double sum over all ordered pairs of rows.

  The 8192 rows are cut into 16 runs of 512 consecutive rows, and, independently, into 4 runs of 2048
  consecutive rows. Row number 512 * b + r is row r of run b of the first cut; row number 2048 * j + c is row c
  of run j of the second cut. Every row is met exactly once in each cut, so a sum over all rows is the sum over
  the runs of the sums over each run. For a function g of an ordered pair of rows this says: adding up, for each
  row 512 * b + r, the four partial sums over the runs j = 0, 1, 2, 3 of the second cut, one after the other
  starting from zero, and then summing over r and b, gives the sum of g over all ordered pairs. Only the
  commutativity and associativity of the addition and 0 + a = a are used, so the statement holds in any
  commutative additive monoid (the extended reals in particular).
-/
import Idealize.ShloMosaic.Lib.ValueIdx

open scoped BigOperators

namespace Cert.Contrastive.Regroup

/-- Row r of run b when the 8192 rows are cut into 16 runs of 512. -/
def rowOf (b : Fin 16) (r : Fin 512) : Fin 8192 := ⟨512 * b.val + r.val, by omega⟩

/-- Row c of run j when the 8192 rows are cut into 4 runs of 2048. -/
def colOf (j : Fin 4) (c : Fin 2048) : Fin 8192 := ⟨2048 * j.val + c.val, by omega⟩

@[simp] theorem rowOf_val (b : Fin 16) (r : Fin 512) : (rowOf b r).val = 512 * b.val + r.val := rfl
@[simp] theorem colOf_val (j : Fin 4) (c : Fin 2048) : (colOf j c).val = 2048 * j.val + c.val := rfl

/-- The pairs (run, place in the run) of the first cut number the rows. -/
def rowEquiv : Fin 16 × Fin 512 ≃ Fin 8192 := finProdFinEquiv.trans (finCongr (by norm_num))

/-- The pairs (run, place in the run) of the second cut number the rows. -/
def colEquiv : Fin 4 × Fin 2048 ≃ Fin 8192 := finProdFinEquiv.trans (finCongr (by norm_num))

theorem rowEquiv_apply (b : Fin 16) (r : Fin 512) : rowEquiv (b, r) = rowOf b r :=
  Fin.ext (by
    show (finProdFinEquiv (b, r)).val = 512 * b.val + r.val
    rw [finProdFinEquiv_apply_val]
    show r.val + 512 * b.val = 512 * b.val + r.val
    omega)

theorem colEquiv_apply (j : Fin 4) (c : Fin 2048) : colEquiv (j, c) = colOf j c :=
  Fin.ext (by
    show (finProdFinEquiv (j, c)).val = 2048 * j.val + c.val
    rw [finProdFinEquiv_apply_val]
    show c.val + 2048 * j.val = 2048 * j.val + c.val
    omega)

variable {M : Type*} [AddCommMonoid M]

/-- A sum over all rows is the sum over the 16 runs of 512 of each run's sum. -/
theorem sum_rows (h : Fin 8192 → M) : ∑ b : Fin 16, ∑ r : Fin 512, h (rowOf b r) = ∑ I : Fin 8192, h I := by
  rw [← Equiv.sum_comp rowEquiv h, Fintype.sum_prod_type]
  exact Finset.sum_congr rfl fun b _ => Finset.sum_congr rfl fun r _ => by rw [rowEquiv_apply]

/-- A sum over all rows is the sum over the 4 runs of 2048 of each run's sum. -/
theorem sum_cols (h : Fin 8192 → M) : ∑ j : Fin 4, ∑ c : Fin 2048, h (colOf j c) = ∑ J : Fin 8192, h J := by
  rw [← Equiv.sum_comp colEquiv h, Fintype.sum_prod_type]
  exact Finset.sum_congr rfl fun j _ => Finset.sum_congr rfl fun c _ => by rw [colEquiv_apply]

/-- Zero plus the four runs' sums, added one after the other, is the sum over all rows. -/
theorem sum_cols_four (h : Fin 8192 → M) :
    ((((0 + ∑ c : Fin 2048, h (colOf 0 c)) + ∑ c : Fin 2048, h (colOf 1 c)) + ∑ c : Fin 2048, h (colOf 2 c))
        + ∑ c : Fin 2048, h (colOf 3 c)) = ∑ J : Fin 8192, h J := by
  rw [← sum_cols h, Fin.sum_univ_four, zero_add]

/-- The partial sum of g over run j of the second cut, at row r of run b of the first cut. -/
def part (g : Fin 8192 → Fin 8192 → M) (b : Fin 16) (j : Fin 4) (r : Fin 512) : M :=
  ∑ c : Fin 2048, g (rowOf b r) (colOf j c)

/-- The regrouping: over the runs b and the places r, zero plus the four partial sums in turn, is the sum of g
    over all ordered pairs of rows. -/
theorem regroup (g : Fin 8192 → Fin 8192 → M) :
    ∑ b : Fin 16, ∑ r : Fin 512, ((((0 + part g b 0 r) + part g b 1 r) + part g b 2 r) + part g b 3 r)
      = ∑ I : Fin 8192, ∑ J : Fin 8192, g I J := by
  rw [← sum_rows fun I => ∑ J : Fin 8192, g I J]
  exact Finset.sum_congr rfl fun b _ => Finset.sum_congr rfl fun r _ => sum_cols_four (g (rowOf b r))

end Cert.Contrastive.Regroup
-- ==== Proof.KI.Value.lean ====
/-
  The value of the idealized kernel's result.

  Write g(I, J) for the contribution of the ordered pair of rows (I, J) to the loss. At grid point t, with row block
  t / 4 and column block t mod 4, the body adds to entry r of its scratch column the sum of g(512 (t/4) + r, J) over the
  2048 rows J of the column block; the column is zero before the first column block. So after the last column block of
  row block b, entry r of the column is zero plus the four partial sums in turn. The block of the result stored there has
  the column's total at lane 0 and zeros at the other 127 lanes, and it is block b of the result array. The host then adds
  up the whole result array from zero, which by regrouping the rows into 16 runs of 512 and the columns into 4 runs of 2048 is
  the sum of g over all ordered pairs, and divides by the same word the reference divides by: the loss.
-/
import proofs.«160762_j20109036879978_2_alg».proof.Proof.KI.Run
import proofs.«160762_j20109036879978_2_alg».proof.Proof.KI.Pieces
import proofs.«160762_j20109036879978_2_alg».proof.Proof.KI.Blocks
import proofs.«160762_j20109036879978_2_alg».proof.Proof.KernelPayloads
import proofs.«160762_j20109036879978_2_alg».proof.Proof.Regroup
import Idealize.ShloMosaic.Lib.Pipeline.Value
import Idealize.ShloMosaic.Lib.StableHlo.Run

set_option maxRecDepth 16384

noncomputable section

namespace Cert.KernelIdeal.HandValue

open Cert.KernelIdeal Cert.KernelIdeal.Gen Cert.KernelIdeal.Hand Cert.KernelIdeal.HandBlocks Cert.Contrastive
open Idealize.ShloMosaic Idealize.ShloMosaic.TcCoe Idealize.ShloMosaic.ValueIdx Idealize.ShloMosaic.StableHlo Idealize.SL.Sem
open Idealize.ShloMosaic.Pipeline (Dat)
open scoped BigOperators

variable (m : (ℓ : Loc nD τ sig) → Buf (Elt Ideal) ℓ) (ρ : Dev nD → PrngReg) (c : Dev nD)

/-- The contribution of the ordered pair of rows (I, J). -/
abbrev g : Fin 8192 → Fin 8192 → EReal := pairTerm (feat m c) (targ m c)

/-! ## One point's step, at an entry -/

/-- The rows the body loads from the whole feature array, at (cc, k): row 2048 times the column block plus cc. -/
theorem loadedRows_at (i : grid0.Coords) (x1 : Vec Ideal S8192x512 .bf16) (cc : Fin 2048) (k : Fin 512)
    (h : 2048 * (i 1).val + cc.val < 8192) :
    loadedRows i x1 (ix2 cc k) = x1 (ix2 ⟨2048 * (i 1).val + cc.val, h⟩ k) := by
  unfold loadedRows
  show x1 ((Rect.unit (s := S8192x512) (k0_off1 i) S2048x512.size (k0_off1_inb i)).emb (ix2 cc k)) = _
  refine congrArg x1 (funext fun a => Fin.ext ?_)
  rw [Rect.emb_apply]
  match a with
  | ⟨0, _⟩ => show (k0_off1 i) 0 + 1 * cc.val = 2048 * (i 1).val + cc.val; rw [k0_off1_eq]; show 2048 * (i 1).val + 1 * cc.val = _; omega
  | ⟨1, _⟩ => show (k0_off1 i) 1 + 1 * k.val = k.val; rw [k0_off1_eq]; show 0 + 1 * k.val = _; omega

/-- One point's step at entry r: the column's entry plus the sum of the contributions of row 512 (t/4) + r against the
    2048 rows of the column block. -/
theorem step_entry (t : Fin cfg0.N) (acc : Vec Ideal S512x1 .f32) (r : Fin 512) :
    stepAcc (grid0.coords t) (iblk m c 0 t) (iblk m c 1 t) (iblk m c 2 t) (iblk m c 3 t) (iblk m c 4 t) (iblk m c 5 t) acc (ix2 r (0 : Fin 1))
      = acc (ix2 r (0 : Fin 1)) + ∑ cc : Fin 2048, g m c (rowOf t r) (colOf t cc) := by
  obtain ⟨hc0, hc1⟩ := coords_facts t
  have hN := t_lt t
  unfold stepAcc
  exact KernelPayloads.step_at (feat m c) (targ m c) (iblk m c 0 t) (loadedRows (grid0.coords t) (iblk m c 1 t)) (iblk m c 2 t) acc
    (iblk m c 3 t) (iblk m c 4 t) (iblk m c 5 t) (grid0.coords t) (rowOf t) (colOf t)
    (fun r => by show 512 * (t.val / 4) + r.val = 512 * (grid0.coords t 0).val + r.val; rw [hc0])
    (fun cc => by show 2048 * (t.val % 4) + cc.val = 2048 * (grid0.coords t 1).val + cc.val; rw [hc1])
    (fun r k => blk0 m c t r k)
    (fun cc k => (loadedRows_at (grid0.coords t) (iblk m c 1 t) cc k (by rw [hc1]; have := cc.isLt; omega)).trans
      ((blk1 m c t _ k).trans (congrArg (fun R => feat m c (ix2 R k))
        (Fin.ext (by show 2048 * (grid0.coords t 1).val + cc.val = 2048 * (t.val % 4) + cc.val; rw [hc1])))))
    (fun r => blk2 m c t r) (fun cc => blk3 m c t cc) (fun r => blk4 m c t r) (fun cc => blk5 m c t cc) r

/-! ## The scratch column, point by point -/

/-- Where the column block is 0 the column starts from zero. -/
theorem acc_first (t : Fin cfg0.N) (h0 : t.val % 4 = 0) (r : Fin 512) :
    accAt m c t.val t.isLt (ix2 r (0 : Fin 1)) = 0 + ∑ cc : Fin 2048, g m c (rowOf t r) (colOf t cc) := by
  rw [accAt_A m c t h0 (by omega), soutA_eq, step_entry, KernelPayloads.zero_at]

/-- Elsewhere it goes on from what the point before left. -/
theorem acc_next (t : Fin cfg0.N) (h0 : ¬t.val % 4 = 0) (r : Fin 512) :
    accAt m c t.val t.isLt (ix2 r (0 : Fin 1))
      = accAt m c (t.val - 1) (Nat.lt_of_le_of_lt (Nat.sub_le _ _) t.isLt) (ix2 r (0 : Fin 1))
        + ∑ cc : Fin 2048, g m c (rowOf t r) (colOf t cc) := by
  by_cases h1 : t.val % 4 = 3
  · rw [accAt_C m c t h0 h1, soutC_eq, step_entry]
  · rw [accAt_B m c t h0 h1, soutB_eq, step_entry]

/-- The sum over the column block of point t = 4 b + j is the partial sum over run j at row r of run b. -/
theorem colsum_eq (b : Fin 16) (j : Fin 4) (t : Fin cfg0.N) (ht : t.val = 4 * b.val + j.val) (r : Fin 512) :
    ∑ cc : Fin 2048, g m c (rowOf t r) (colOf t cc) = Regroup.part (g m c) b j r := by
  unfold Regroup.part
  have hj := j.isLt
  have hr : rowOf t r = Regroup.rowOf b r :=
    Fin.ext (by show 512 * (t.val / 4) + r.val = 512 * b.val + r.val; omega)
  have hcc : ∀ cc : Fin 2048, colOf t cc = Regroup.colOf j cc := fun cc =>
    Fin.ext (by show 2048 * (t.val % 4) + cc.val = 2048 * j.val + cc.val; omega)
  rw [hr]
  exact Finset.sum_congr rfl fun cc _ => by rw [hcc]

/-- Zero plus the four partial sums in turn. -/
def accSum (b : Fin 16) (r : Fin 512) : EReal :=
  (((0 + Regroup.part (g m c) b 0 r) + Regroup.part (g m c) b 1 r) + Regroup.part (g m c) b 2 r) + Regroup.part (g m c) b 3 r

/-- After the last column block of row block b the column's entry r is zero plus the four partial sums in turn. -/
theorem acc_last (b : Fin 16) (t : Fin cfg0.N) (ht : t.val = 4 * b.val + 3) (r : Fin 512) :
    accAt m c t.val t.isLt (ix2 r (0 : Fin 1)) = accSum m c b r := by
  have hN : cfg0.N = 64 := N_0
  have hb := b.isLt
  have l0 : 4 * b.val < cfg0.N := by omega
  have l1 : 4 * b.val + 1 < cfg0.N := by omega
  have l2 : 4 * b.val + 2 < cfg0.N := by omega
  have l3 : 4 * b.val + 3 < cfg0.N := by omega
  obtain rfl : t = ⟨4 * b.val + 3, l3⟩ := Fin.ext ht
  have e3 := acc_next m c ⟨4 * b.val + 3, l3⟩ (by show ¬(4 * b.val + 3) % 4 = 0; omega) r
  have e2 := acc_next m c ⟨4 * b.val + 2, l2⟩ (by show ¬(4 * b.val + 2) % 4 = 0; omega) r
  have e1 := acc_next m c ⟨4 * b.val + 1, l1⟩ (by show ¬(4 * b.val + 1) % 4 = 0; omega) r
  have e0 := acc_first m c ⟨4 * b.val, l0⟩ (by show (4 * b.val) % 4 = 0; omega) r
  rw [colsum_eq m c b 3 _ rfl r] at e3
  rw [colsum_eq m c b 2 _ rfl r] at e2
  rw [colsum_eq m c b 1 _ rfl r] at e1
  rw [colsum_eq m c b 0 _ (by show 4 * b.val = 4 * b.val + 0; omega) r] at e0
  unfold accSum
  exact e3.trans (congrArg (· + _) (e2.trans (congrArg (· + _) (e1.trans (congrArg (· + _) e0)))))

/-- Where the column block is 3 the result's buffer holds the store's payload of the column just stored. -/
theorem outAt_last (t : Fin cfg0.N) (h3 : t.val % 4 = 3) :
    outAt m c t = k0_pay2 (F := Ideal) (accAt m c t.val t.isLt) := by
  have h0 : ¬t.val % 4 = 0 := by omega
  rw [outAt_C m c t h0 h3, outC_eq, accAt_C m c t h0 h3, soutC_eq]

/-! ## The result array -/

/-- Entry (b, 0, l) of the result array: the column total of row block b at lane 0, zero at the other lanes. -/
def resultAt (b : Fin 16) (l : Fin 128) : EReal := if l.val = 0 then ∑ r : Fin 512, accSum m c b r else 0

/-- The result array when the region ends. -/
def resultArr : Buf (Elt Ideal) ((c : Thread nD τ).loc main_v7) :=
  fun idx => resultAt m c (idx 0) (idx 2)

theorem resultArr_ix3 (b : Fin 16) (u : Fin 1) (l : Fin 128) :
    (resultArr m c : S16x1x128.Idx → EReal) (ix3 b u l) = resultAt m c b l := rfl

/-- The result window's block index and extents, decided over the grid. -/
theorem idx6_facts : ∀ t : Fin cfg0.N,
    win0_6.index t (0 : Fin 3) = t.val / 4 ∧ win0_6.index t (1 : Fin 3) = 0 ∧ win0_6.index t (2 : Fin 3) = 0
    ∧ win0_6.xsize (grid0.coords t) (0 : Fin 3) = 1 ∧ win0_6.xsize (grid0.coords t) (1 : Fin 3) = 1
    ∧ win0_6.xsize (grid0.coords t) (2 : Fin 3) = 128 :=
  (by decide +kernel : ∀ t : Fin grid0.N, _)

/-- What a write-back of the result window writes is its block of the result array. -/
theorem flushed_eq (t : Fin cfg0.N) (hf : (cfg0.win 6).flush t = true) :
    (dats m 0 c).flushed 6 t = ((cfg0.win 6).blk t).view.read (Elt Ideal) (resultArr m c) := by
  have h3 : t.val % 4 = 3 := (flush0_6 t).mp hf
  have hN := t_lt t
  obtain ⟨i0, i1, i2, -⟩ := idx6_facts t
  show (cfg0.win 6).cut (grid0.coords t) ((dats m 0 c).after 6 t) = _
  rw [after6, outAt_last m c t h3]
  show (k0_pay2 (F := Ideal) (accAt m c t.val t.isLt) : S1x1x128.Idx → EReal)
    = fun y => (resultArr m c : S16x1x128.Idx → EReal) (((cfg0.win 6).blk t).view.emb y)
  funext y
  obtain ⟨u0, u1, l, rfl⟩ : ∃ (u0 u1 : Fin 1) (l : Fin 128), y = ix3 u0 u1 l := ⟨y 0, y 1, y 2, eq_ix3 y⟩
  obtain rfl : u0 = 0 := Subsingleton.elim _ _
  obtain rfl : u1 = 0 := Subsingleton.elim _ _
  rw [KernelPayloads.out_at]
  have hemb : (((cfg0.win 6).blk t).view.emb (ix3 (0 : Fin 1) (0 : Fin 1) l) : S16x1x128.Idx)
      = ix3 (⟨t.val / 4, by omega⟩ : Fin 16) (0 : Fin 1) l :=
    funext fun a => Fin.ext (by
      match a with
      | ⟨0, _⟩ => show win0_6.index t (0 : Fin 3) * 1 + 1 * 0 = t.val / 4; omega
      | ⟨1, _⟩ => show win0_6.index t (1 : Fin 3) * 1 + 1 * 0 = 0; omega
      | ⟨2, _⟩ => show win0_6.index t (2 : Fin 3) * 128 + 1 * l.val = l.val; omega)
  rw [hemb, resultArr_ix3]
  unfold resultAt
  refine congrArg (fun s => if l.val = 0 then s else (0 : EReal)) (Finset.sum_congr rfl fun r _ => ?_)
  exact acc_last m c ⟨t.val / 4, by omega⟩ t (by show t.val = 4 * (t.val / 4) + 3; omega) r

/-- The write-backs cover the result array: entry (b, 0, l) is in the block written back at point 4 b + 3. -/
theorem cover6 : ∀ i : ((cfg0.win 6).arr.view.loc (c.tc : Thread nD τ)).2.ty.Idx,
    ∃ t : Fin cfg0.N, (cfg0.win 6).flush t = true ∧ i ∈ ((cfg0.win 6).blk t).view.set := fun i => by
  have hN : cfg0.N = 64 := N_0
  have h0 : (i 0 : Nat) < 16 := (i 0).isLt
  have h1 : (i 1 : Nat) < 1 := (i 1).isLt
  have h2 : (i 2 : Nat) < 128 := (i 2).isLt
  have lt : 4 * (i 0 : Nat) + 3 < cfg0.N := by omega
  refine ⟨⟨4 * (i 0 : Nat) + 3, lt⟩, (flush0_6 _).mpr (by show (4 * (i 0 : Nat) + 3) % 4 = 3; omega), ?_⟩
  obtain ⟨e0, e1, e2, s0, s1, s2⟩ := idx6_facts ⟨4 * (i 0 : Nat) + 3, lt⟩
  show i ∈ ((View.whole main_v7).slice (win0_6.rect ⟨4 * (i 0 : Nat) + 3, lt⟩)).set
  rw [View.set_slice_whole, Rect.mem_set_unit]
  intro a
  match a with
  | ⟨0, _⟩ =>
    show win0_6.index ⟨4 * (i 0 : Nat) + 3, lt⟩ 0 * win0_6.size 0 ≤ (i 0 : Nat)
      ∧ (i 0 : Nat) < win0_6.index ⟨4 * (i 0 : Nat) + 3, lt⟩ 0 * win0_6.size 0 + win0_6.xsize (grid0.coords ⟨4 * (i 0 : Nat) + 3, lt⟩) 0
    rw [e0, s0]; show (4 * (i 0 : Nat) + 3) / 4 * 1 ≤ (i 0 : Nat) ∧ (i 0 : Nat) < (4 * (i 0 : Nat) + 3) / 4 * 1 + 1; omega
  | ⟨1, _⟩ =>
    show win0_6.index ⟨4 * (i 0 : Nat) + 3, lt⟩ 1 * win0_6.size 1 ≤ (i 1 : Nat)
      ∧ (i 1 : Nat) < win0_6.index ⟨4 * (i 0 : Nat) + 3, lt⟩ 1 * win0_6.size 1 + win0_6.xsize (grid0.coords ⟨4 * (i 0 : Nat) + 3, lt⟩) 1
    rw [e1, s1]; show 0 * 1 ≤ (i 1 : Nat) ∧ (i 1 : Nat) < 0 * 1 + 1; omega
  | ⟨2, _⟩ =>
    show win0_6.index ⟨4 * (i 0 : Nat) + 3, lt⟩ 2 * win0_6.size 2 ≤ (i 2 : Nat)
      ∧ (i 2 : Nat) < win0_6.index ⟨4 * (i 0 : Nat) + 3, lt⟩ 2 * win0_6.size 2 + win0_6.xsize (grid0.coords ⟨4 * (i 0 : Nat) + 3, lt⟩) 2
    rw [e2, s2]; show 0 * 128 ≤ (i 2 : Nat) ∧ (i 2 : Nat) < 0 * 128 + 128; omega

/-- So the result array ends holding resultArr. -/
theorem final6 : (dats m 0 c).arrAt 6 cfg0.N = resultArr m c :=
  (dats m 0 c).arrAt_eq_of_cover 6 (resultArr m c) (flushed_eq m c) (cover6 c)

/-! ## The host lines after the region -/

/-- The four later host lines, run from the exit contents, leave the loss in the result buffer. -/
theorem result_value :
    (StableHlo.after (List.flatten [hostOps1]) (Wfin m c) (Proc.devRef .tc main_v9) : S_.Idx → EReal)
      = fun _ => loss (feat m c) (targ m c) := by
  simp only [hostOps1, List.flatten_cons, List.flatten_nil, List.append_nil]
  after_results
  rw [Wfin_v7, final6]
  funext i
  obtain rfl := eq_ix0 i
  have hsum : Host.reduceAdd (F := Ideal) (resultArr m c) (constant (F := Ideal) S_ .f32 0x00000000#32)
        reducesTo_S16x1x128_S_d0_1_2 h_S_ ix0 = total (feat m c) (targ m c) := by
    rw [KernelPayloads.tail_at (resultArr m c) (fun b => ∑ r : Fin 512, accSum m c b r) _ _
      (fun b l => by rw [resultArr_ix3]; rfl)]
    exact Regroup.regroup (g m c)
  show Ideal.div (Host.reduceAdd (F := Ideal) (resultArr m c) (constant (F := Ideal) S_ .f32 0x00000000#32)
        reducesTo_S16x1x128_S_d0_1_2 h_S_ ix0) (Ideal.ofBits .f32 0x4CFFF800#32) = _
  rw [hsum]
  rfl

/-- THE KERNEL'S RUN, read: @main runs to the end with the loss in its result buffer and both argument arrays unchanged. -/
theorem run_value : θ_run defs (onTc (τ := τ) (main (F := Ideal))) ⟨m, fun _ => 0, ρ⟩ (fun r => ∀ c : Dev nD,
      r.2.mem ((c.tc : Thread nD τ).loc main_v9) = (fun _ => loss (feat m c) (targ m c))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨((h c).2 main_v9 (Pipeline.mem_restRefs_of main_v9 rfl (by decide))).trans (result_value m c),
     ((h c).2 main_arg0 (Pipeline.mem_restRefs_of main_arg0 rfl (by decide))).trans (tail_arg0 m c),
     ((h c).2 main_arg1 (Pipeline.mem_restRefs_of main_arg1 rfl (by decide))).trans (tail_arg1 m c)⟩) (run_main m ρ)

end Cert.KernelIdeal.HandValue

end
-- ==== Proof.RefPair.lean ====
/-
  One ordered pair of rows, as the reference program spells its contribution, against the specification's.

  For one ordered pair of rows with clamped squared distance d ≥ 0 the reference program has a word s that is 1
  exactly when the two targets agree and a word e that is 1 exactly on the diagonal, and computes
    p = d if (s and not e), else 0;
    g = 1 - sqrt (d if d > 0 else 1) if d > 0, else 1          (the margin, its square root guarded at 0);
    n = g if (not s and not e and g > 0), else 0;
  it adds p into one sum and n * n into another. Here:
    g = 1 - sqrt d for every d ≥ 0 (at d = 0 both sides are the word 1, because sqrt 0 = 0 and 1 - 0 = 1);
    "g if g > 0 else 0" is max g 0, so under the mask n is the hinge of d;
    p + n * n is d for equal targets off the diagonal, 0 on the diagonal, and the squared hinge for different
    targets — the diagonal with different targets does not occur.
  Also: the diagonal test of the 32-bit row counter (plus the zero word) against the 32-bit column counter, both
  counting below 8192, is equality of the counters.
-/
import proofs.«160762_j20109036879978_2_alg».proof.Proof.Spec
import Idealize.ShloMosaic.Lib.Affine

noncomputable section

namespace Cert.Contrastive.Pair

open Idealize.ShloMosaic

/-- The zero word: what both sums start from and what every selection falls back to. -/
abbrev zero : EReal := Ideal.ofBits .f32 0x00000000#32

/-- The zero word is the extended real 0. -/
theorem zero_eq : zero = 0 := Ideal.ofBits_zero_f32

/-- The square root of 0 is 0. -/
theorem sqrt_zero : Ideal.sqrt 0 = 0 := by
  show Ideal.sqrt ((0 : ℝ) : EReal) = ((0 : ℝ) : EReal)
  rw [Ideal.sqrt_coe, if_neg (lt_irrefl 0), Real.sqrt_zero]

/-- A selection on the word of the comparison "x > 0" is the `if` on 0 < x. -/
theorem select_gt (x a b : EReal) : Scalar.select (Ideal.cmp .ogt x zero) a b = if 0 < x then a else b := by
  show (if BitVec.ofBool (decide (zero < x)) = 1 then a else b) = _
  rw [zero_eq]
  by_cases h : (0 : EReal) < x
  · rw [if_pos h, decide_eq_true h]; rfl
  · rw [if_neg h, decide_eq_false h]; rfl

/-- The margin with its square root guarded at 0, as the reference program spells it. -/
def margin (d : EReal) : EReal :=
  Scalar.select (Ideal.cmp .ogt d zero) (one - Ideal.sqrt (Scalar.select (Ideal.cmp .ogt d zero) d one)) one

/-- On d ≥ 0 the guarded margin is 1 - sqrt d: for d > 0 by reading the two selections, and at d = 0 because
    sqrt 0 = 0. -/
theorem margin_eq {d : EReal} (hd : 0 ≤ d) : margin d = one - Ideal.sqrt d := by
  unfold margin
  rw [select_gt, select_gt]
  by_cases h : (0 : EReal) < d
  · rw [if_pos h, if_pos h]
  · rw [if_neg h]
    have h0 : d = 0 := le_antisymm (not_lt.mp h) hd
    rw [h0, sqrt_zero, sub_zero]

/-- What is added to the first sum: d under the mask, else the zero word. -/
def pos (m : BitVec 1) (d : EReal) : EReal := Scalar.select m d zero

/-- What is squared into the second sum: the margin where the mask holds and the margin is positive, else the
    zero word. -/
def neg (m : BitVec 1) (d : EReal) : EReal :=
  Scalar.select (IntOp.andi m (Ideal.cmp .ogt (margin d) zero)) (margin d) zero

theorem pos_one (d : EReal) : pos 1#1 d = d := ValueIdx.select_one _ _

theorem pos_zero (d : EReal) : pos 0#1 d = 0 := (ValueIdx.select_zero _ _).trans zero_eq

/-- Under the mask, the second sum's entry is the hinge: "g if g > 0 else 0" is max g 0. -/
theorem neg_one {d : EReal} (hd : 0 ≤ d) : neg 1#1 d = hinge d := by
  unfold neg
  rw [show ∀ c : BitVec 1, IntOp.andi 1#1 c = c by decide]
  rw [select_gt, zero_eq, margin_eq hd]
  unfold hinge
  by_cases h : 0 < one - Ideal.sqrt d
  · rw [if_pos h, max_eq_left h.le]
  · rw [if_neg h, max_eq_right (not_lt.mp h)]

/-- Off the mask it is 0. -/
theorem neg_zero (d : EReal) : neg 0#1 d = 0 := by
  unfold neg
  rw [show ∀ c : BitVec 1, IntOp.andi 0#1 c = 0#1 by decide]
  exact (ValueIdx.select_zero _ _).trans zero_eq

/-- THE PAIR: with s the "same target" word, e the "diagonal" word and d ≥ 0 the clamped squared distance, the
    two entries the reference program adds up, p + n * n, are the specification's contribution of the pair. -/
theorem pair_sum {d : EReal} (hd : 0 ≤ d) (s e : BitVec 1) {P Q : Prop} [Decidable P] [Decidable Q]
    (hs : s = 1#1 ↔ P) (he : e = 1#1 ↔ Q) (hQP : Q → P) :
    pos (IntOp.andi s (~~~e)) d + neg (IntOp.andi (~~~s) (~~~e)) d * neg (IntOp.andi (~~~s) (~~~e)) d
      = if P then (if Q then 0 else d) else hinge d * hinge d := by
  rcases BitVec.eq_zero_or_eq_one s with rfl | rfl <;> rcases BitVec.eq_zero_or_eq_one e with rfl | rfl
  · have hP : ¬P := fun p => absurd (hs.mpr p) (by decide)
    rw [if_neg hP, show IntOp.andi (0#1 : BitVec 1) (~~~0#1) = 0#1 by decide,
      show IntOp.andi (~~~(0#1 : BitVec 1)) (~~~0#1) = 1#1 by decide, pos_zero, neg_one hd, zero_add]
  · exact absurd (hs.mpr (hQP (he.mp rfl))) (by decide)
  · have hP : P := hs.mp rfl
    have hQ : ¬Q := fun q => absurd (he.mpr q) (by decide)
    rw [if_pos hP, if_neg hQ, show IntOp.andi (1#1 : BitVec 1) (~~~0#1) = 1#1 by decide,
      show IntOp.andi (~~~(1#1 : BitVec 1)) (~~~0#1) = 0#1 by decide, pos_one, neg_zero, mul_zero, add_zero]
  · rw [if_pos (hs.mp rfl), if_pos (he.mp rfl), show IntOp.andi (1#1 : BitVec 1) (~~~1#1) = 0#1 by decide,
      show IntOp.andi (~~~(1#1 : BitVec 1)) (~~~1#1) = 0#1 by decide, pos_zero, neg_zero, mul_zero, add_zero]

/-- The diagonal test: the 32-bit row counter plus the zero word equals the 32-bit column counter exactly when
    the counters are equal — below 8192 nothing wraps around. -/
theorem diag_word (i j : Fin 8192) :
    IntOp.cmpi .eq (IntOp.addi (BitVec.ofNat 32 i.val) 0#32) (BitVec.ofNat 32 j.val) = 1#1 ↔ i = j := by
  rw [IntOp.cmpi_eq]
  show BitVec.ofNat 32 i.val + 0#32 = BitVec.ofNat 32 j.val ↔ i = j
  rw [BitVec.add_zero]
  constructor
  · intro h
    have h2 := congrArg BitVec.toNat h
    simp only [BitVec.toNat_ofNat] at h2
    have hi := i.isLt
    have hj := j.isLt
    exact Fin.ext (by omega)
  · rintro rfl; rfl

end Cert.Contrastive.Pair

end
-- ==== Proof.RefValue.lean ====
/-
  The reference program's result, read stage by stage, is the specification's loss.

  Read at the pair of rows (i, j): the row sums of squares are the squared norms, the product of the feature
  array with its transpose is the inner product of the two rows, so the clamped difference is the specification's
  clamped squared distance d(i, j); the comparison of the two broadcast target arrays is the word "the targets
  agree", and the comparison of the row counter (plus the zero word) with the column counter is the word "i = j".
  The first selection is then the pair's first entry p and the last selection its second entry n, as named in the
  module on one pair, which shows p + n * n is the pair's contribution. Each of the two sums over the whole
  [8192, 8192] array is the zero word plus the sum over all index pairs; zero plus a sum is the sum, the sum of
  the p's plus the sum of the n * n's is the sum of the p + n * n's (addition of extended reals is commutative
  and associative), and the sum over the index pairs is the double sum over rows. The quotient by the divisor
  word is the specification's.
-/
import proofs.«160762_j20109036879978_2_alg».proof.Proof.Gen.ReferenceIdeal.Read
import proofs.«160762_j20109036879978_2_alg».proof.Proof.Spec
import proofs.«160762_j20109036879978_2_alg».proof.Proof.RefPair

noncomputable section

namespace Cert.Contrastive.RefValue

open Cert.ReferenceIdeal Cert.ReferenceIdeal.Read Idealize.ShloMosaic Idealize.ShloMosaic.ValueIdx
open scoped BigOperators

variable (a0 : (⟨S8192x512, .f32⟩ : BufTy).Contents (Elt Ideal)) (a1 : (⟨S8192, .i32⟩ : BufTy).Contents (Elt Ideal))

/-! ## The composed index maps at a pair of rows -/

theorem idx_rowsum (a : Fin 8192) (k : Fin 512) : idx_main_v1 (ix1 a) k = ix2 a k :=
  funext fun d => Fin.ext (by match d with | ⟨0, _⟩ => rfl | ⟨1, _⟩ => rfl)

theorem idx_col (a b : Fin 8192) : idx_main_v2 (idx_main_v4 (ix2 a b)) = ix1 a :=
  funext fun d => Fin.ext (by match d with | ⟨0, _⟩ => rfl)

theorem idx_row (a b : Fin 8192) : idx_main_v3 (idx_main_v5 (ix2 a b)) = ix1 b :=
  funext fun d => Fin.ext (by match d with | ⟨0, _⟩ => rfl)

theorem idx_lhs (a b : Fin 8192) (k : Fin 512) : lidx_main_v8 (ix2 a b) k = ix2 a k :=
  funext fun d => Fin.ext (by match d with | ⟨0, _⟩ => rfl | ⟨1, _⟩ => rfl)

theorem idx_rhs (a b : Fin 8192) (k : Fin 512) : idx_main_v7 (ridx_main_v8 (ix2 a b) k) = ix2 b k :=
  funext fun d => Fin.ext (by match d with | ⟨0, _⟩ => rfl | ⟨1, _⟩ => rfl)

theorem idx_tcol (a b : Fin 8192) : idx_main_v14 (idx_main_v16 (ix2 a b)) = ix1 a :=
  funext fun d => Fin.ext (by match d with | ⟨0, _⟩ => rfl)

theorem idx_trow (a b : Fin 8192) : idx_main_v15 (idx_main_v17 (ix2 a b)) = ix1 b :=
  funext fun d => Fin.ext (by match d with | ⟨0, _⟩ => rfl)

/-! ## The clamped squared distance -/

/-- The row sum of squares is the squared norm. -/
theorem rowsum_at (a : Fin 8192) : val_main_v1 (F := Ideal) a0 (ix1 a) = sqNorm a0 a := by
  rw [val_main_v1_apply, val_main_cst_apply, Ideal.ofBits_def, Ideal.ofBits_zero_f32, zero_add]
  unfold sqNorm
  refine Finset.sum_congr rfl fun k _ => ?_
  rw [val_main_v0_apply, idx_rowsum, Ideal.mulf_def]

/-- The product with the transpose is the inner product of the two rows. -/
theorem gram_at (a b : Fin 8192) : val_main_v8 (F := Ideal) a0 (ix2 a b) = gram a0 a b := by
  rw [val_main_v8_apply]
  unfold gram
  refine Finset.sum_congr rfl fun k _ => ?_
  rw [val_main_v7_apply, idx_lhs, idx_rhs]

/-- The clamped difference is the clamped squared distance. -/
theorem dist_at (a b : Fin 8192) : val_main_v13 (F := Ideal) a0 (ix2 a b) = dist a0 a b := by
  rw [val_main_v13_apply, val_main_v11_apply, val_main_v6_apply, val_main_v4_apply, val_main_v2_apply,
    val_main_v5_apply, val_main_v3_apply, idx_col, idx_row, rowsum_at, rowsum_at, val_main_v10_apply,
    val_main_v9_apply, val_main_cst_0_apply, gram_at, val_main_v12_apply, val_main_cst_1_apply]
  rw [Ideal.maximumf_def, Ideal.subf_def, Ideal.addf_def, Ideal.mulf_def, Ideal.ofBits_def, Ideal.ofBits_def,
    Ideal.ofBits_zero_f32]
  rfl

/-- It is not negative. -/
theorem dist_nonneg (a b : Fin 8192) : 0 ≤ dist a0 a b := le_max_right _ _

/-! ## The two words -/

/-- The comparison of the broadcast targets. -/
theorem same_at (a b : Fin 8192) :
    val_main_v18 (F := Ideal) a1 (ix2 a b) = IntOp.cmpi .eq (a1 (ix1 a)) (a1 (ix1 b)) := by
  rw [val_main_v18_apply, val_main_v16_apply, val_main_v14_apply, val_main_v17_apply, val_main_v15_apply,
    idx_tcol, idx_trow]

/-- The comparison of the two counters. -/
theorem diag_at (a b : Fin 8192) :
    val_main_v23 (F := Ideal) (ix2 a b)
      = IntOp.cmpi .eq (IntOp.addi (BitVec.ofNat 32 a.val) 0#32) (BitVec.ofNat 32 b.val) := by
  rw [val_main_v23_apply, val_main_v22_apply, val_main_v19_apply, val_main_v21_apply, val_main_c_apply,
    val_main_v20_apply]

/-! ## The two entries of a pair, and their sum -/

/-- The first selection is the pair's first entry. -/
theorem pos_at (a b : Fin 8192) :
    val_main_v29 (F := Ideal) a0 a1 (ix2 a b)
      = Pair.pos (IntOp.andi (IntOp.cmpi .eq (a1 (ix1 a)) (a1 (ix1 b)))
          (~~~IntOp.cmpi .eq (IntOp.addi (BitVec.ofNat 32 a.val) 0#32) (BitVec.ofNat 32 b.val))) (dist a0 a b) := by
  rw [val_main_v29_apply, val_main_v25_apply, val_main_v24_apply, same_at, diag_at, dist_at,
    val_main_call0_v1_apply, val_main_call0_v0_apply, val_main_cst_2_apply]
  rfl

/-- The guarded margin of the pair. -/
theorem margin_at (a b : Fin 8192) : val_main_v39 (F := Ideal) a0 (ix2 a b) = Pair.margin (dist a0 a b) := by
  rw [val_main_v39_apply, val_main_v32_apply, val_main_v38_apply, val_main_v37_apply, val_main_cst_7_apply,
    val_main_v36_apply, val_main_v35_apply, val_main_v34_apply, dist_at, val_main_v31_apply,
    val_main_cst_4_apply, val_main_v33_apply, val_main_cst_5_apply, val_main_call1_v1_apply,
    val_main_call1_v0_apply, val_main_cst_6_apply, val_main_call2_v1_apply, val_main_call2_v0_apply,
    val_main_cst_8_apply]
  rfl

/-- The last selection is the pair's second entry. -/
theorem neg_at (a b : Fin 8192) :
    val_main_v43 (F := Ideal) a0 a1 (ix2 a b)
      = Pair.neg (IntOp.andi (~~~IntOp.cmpi .eq (a1 (ix1 a)) (a1 (ix1 b)))
          (~~~IntOp.cmpi .eq (IntOp.addi (BitVec.ofNat 32 a.val) 0#32) (BitVec.ofNat 32 b.val))) (dist a0 a b) := by
  rw [val_main_v43_apply, val_main_v42_apply, val_main_v28_apply, val_main_v26_apply, val_main_v27_apply,
    same_at, diag_at, val_main_v41_apply, margin_at, val_main_v40_apply, val_main_cst_9_apply,
    val_main_call3_v1_apply, val_main_call3_v0_apply, val_main_cst_10_apply]
  rfl

/-- The two summands of the pair add up to the specification's contribution: equal rows have equal targets. -/
theorem pair_at (a b : Fin 8192) :
    val_main_v29 (F := Ideal) a0 a1 (ix2 a b) + val_main_v44 (F := Ideal) a0 a1 (ix2 a b)
      = pairTerm a0 a1 a b := by
  rw [val_main_v44_apply, pos_at, neg_at, Ideal.mulf_def]
  unfold pairTerm
  exact Pair.pair_sum (dist_nonneg a0 a b) _ _ IntOp.cmpi_eq (Pair.diag_word a b) (fun h => by rw [h])

/-! ## The result -/

/-- THE REFERENCE'S RESULT IS THE LOSS: the last stage of the reference program, at its one index, is the
    specification's loss of the two argument arrays. -/
theorem ref_value : val_main_v47 (F := Ideal) a0 a1 = fun _ => loss a0 a1 := by
  funext i
  rw [val_main_v47_apply, val_main_v46_apply, val_main_v30_apply, val_main_v45_apply, val_main_cst_3_apply,
    val_main_cst_11_apply, val_main_cst_12_apply]
  simp only [Ideal.hostDivf_def, Ideal.addf_def, Ideal.ofBits_def, Ideal.ofBits_zero_f32, zero_add]
  rw [← Finset.sum_add_distrib, sum_idx2]
  unfold loss total
  refine congrArg (fun t => Ideal.div t denom) ?_
  exact Finset.sum_congr rfl fun a _ => Finset.sum_congr rfl fun b _ => pair_at a0 a1 a b

end Cert.Contrastive.RefValue

end
-- ==== Proof.RefFrame.lean ====
/-
  The reference program's frame: every weakly fair execution of the reference program terminates without a fault
  and leaves its two argument arrays as they were. This is the reference program's run, read stage by stage,
  with the statement about the result dropped.
-/
import proofs.«160762_j20109036879978_2_alg».proof.Defs
import proofs.«160762_j20109036879978_2_alg».proof.Proof.Gen.ReferenceIdeal
import proofs.«160762_j20109036879978_2_alg».proof.Proof.Gen.Pre_finite_inputs
import proofs.«160762_j20109036879978_2_alg».proof.Proof.Gen.ReferenceIdeal.Run

noncomputable section

namespace Cert.Contrastive.RefFrame

open Idealize.ShloMosaic Idealize.SL.Sem

/-- The reference program runs and its argument arrays end unchanged. -/
theorem frame_ri : Cert.frame_ReferenceIdeal := fun m ρ _ =>
  (θ_run Cert.ReferenceIdeal.defs _ _).mono (fun _ h c => (h c).2) (Cert.ReferenceIdeal.Value.run (F := Ideal) m ρ)

end Cert.Contrastive.RefFrame

end
-- ==== Proof.lean ====
/-
  The contrastive loss of a feature array x : [8192, 512] and a target array, computed by the kernel program and by
  the reference program, is one extended real.

  Both programs start from the squared norms |x_i|^2 of the rows and the inner products <x_i, x_j> of pairs of rows,
  form the clamped squared distance d(i, j) = max (|x_i|^2 + |x_j|^2 - 2 <x_i, x_j>) 0 of every ordered pair, and add
  up one contribution per pair: d(i, j) for two different rows of the same class, 0 on the diagonal, and the squared
  hinge (max (1 - sqrt d(i, j)) 0)^2 for two rows of different classes. The total is divided by 2 * 8192 * 8191.

  The kernel program walks a 16 x 4 grid of blocks of 512 rows by 2048 columns, the column block moving fastest. At
  a point it multiplies its 512 rows with the 2048 rows of the column block, which it cuts out of the whole feature
  array held beside the row block, forms the contributions of the 512 x 2048 pairs, sums them along each row and adds
  the 512 row sums into a scratch column that it zeroed at the first column block; at the last column block it sums
  the column and stores the total in the first of the 128 lanes of the row block's entry of the result, zeros in the
  other lanes. The host lines around the region prepare the squared norms and the targets as a column and as a row,
  and afterwards sum the result array and divide. The feature array is handed to the region twice, row block by row
  block and whole: the two windows hold it at the two halves of the full share — enough, since neither writes it —
  and it is put together again when the region ends.

  The reference program forms the whole 8192 x 8192 array of distances, selects d under the mask "same class and off
  the diagonal" into one sum, selects the margin 1 - sqrt d (its square root guarded at d = 0) under the mask
  "different class, off the diagonal, margin positive", squares it into a second sum, adds the two sums and divides.

  Why the two agree on the extended reals. Pair by pair, the reference's two entries add up to the kernel's
  contribution: the guarded margin is 1 - sqrt d on d ≥ 0 because sqrt 0 = 0, "g if g > 0 else 0" is max g 0, and a
  diagonal pair has equal targets, so the fourth combination of the two masks does not occur. After that only the
  grouping of one sum over all ordered pairs differs: the reference adds 0 + (the sum of the first entries) to
  0 + (the sum of the second entries); the kernel adds, for each row, the four column blocks' partial sums in turn
  from zero, then the 512 rows of the block, then the lanes (all but one of them zero), then the 16 row blocks.
  Addition of extended reals is commutative and associative and 0 is neutral, so each grouping gives the same total,
  and both programs divide it by the same word. No finiteness of the features is needed for any of this.

  The five claims. The two kernel programs' frames are proved over the three cases of the body (the first column
  block, a middle one, the last). The reference program's frame is its run with the result dropped. The
  idealization rewrote no operation, so there is nothing to preserve. And the two idealized programs, run from
  memories that agree on the arguments, both end with the loss of those arguments as their result.
-/
import proofs.«160762_j20109036879978_2_alg».proof.Defs
import proofs.«160762_j20109036879978_2_alg».proof.Proof.Gen.Kernel
import proofs.«160762_j20109036879978_2_alg».proof.Proof.Gen.Kernel.Skeleton
import proofs.«160762_j20109036879978_2_alg».proof.Proof.Gen.Kernel.Launch
import proofs.«160762_j20109036879978_2_alg».proof.Proof.Gen.Kernel.Points
import proofs.«160762_j20109036879978_2_alg».proof.Proof.Gen.KernelIdeal
import proofs.«160762_j20109036879978_2_alg».proof.Proof.Gen.KernelIdeal.Skeleton
import proofs.«160762_j20109036879978_2_alg».proof.Proof.Gen.KernelIdeal.Launch
import proofs.«160762_j20109036879978_2_alg».proof.Proof.Gen.KernelIdeal.Points
import proofs.«160762_j20109036879978_2_alg».proof.Proof.Gen.ReferenceIdeal
import proofs.«160762_j20109036879978_2_alg».proof.Proof.Gen.Pre_finite_inputs
import proofs.«160762_j20109036879978_2_alg».proof.Proof.Gen.ReferenceIdeal.Run
import proofs.«160762_j20109036879978_2_alg».proof.Proof.Gen.ReferenceIdeal.Read
import proofs.«160762_j20109036879978_2_alg».proof.Proof.KB.Run
import proofs.«160762_j20109036879978_2_alg».proof.Proof.KI.Run
import proofs.«160762_j20109036879978_2_alg».proof.Proof.KI.Value
import proofs.«160762_j20109036879978_2_alg».proof.Proof.RefValue
import proofs.«160762_j20109036879978_2_alg».proof.Proof.RefFrame
import Idealize.ShloMosaic.Adequacy
import Idealize.ShloMosaic.Init

noncomputable section

namespace Cert.Proof

open Idealize.ShloMosaic Idealize.SL.Sem

/-- The word-level kernel program runs to the end and leaves its two argument arrays as they were. -/
theorem frame_kernel : Cert.frame_Kernel := fun m ρ _ => Cert.Kernel.Hand.frame (F := Bits) m ρ

/-- So does the idealized kernel program. -/
theorem frame_kernelIdeal : Cert.frame_KernelIdeal := fun m ρ _ => Cert.KernelIdeal.Hand.frame (F := Ideal) m ρ

/-- The idealization rewrote no operation. -/
theorem preserves : Cert.preserves_Kernel_KernelIdeal := trivial

/-- On the extended reals the idealized kernel program and the idealized reference program, run from memories that
    agree on the feature array and the target array, both end with the loss of those two arrays: the kernel by
    regrouping its blockwise sums into the sum over all ordered pairs, the reference by adding its two entries pair
    by pair. -/
theorem algebraic : Cert.algebraic_KernelIdeal_ReferenceIdeal := by
  intro m ρ m' ρ' _ hagree
  refine ⟨fun c => (fun _ => Cert.Contrastive.loss (m ((c.tc : Thread Cert.KernelIdeal.nD Cert.KernelIdeal.τ).loc Cert.KernelIdeal.main_arg0)) (m ((c.tc : Thread Cert.KernelIdeal.nD Cert.KernelIdeal.τ).loc Cert.KernelIdeal.main_arg1))),
    Cert.KernelIdeal.HandValue.run_value m ρ, ?_⟩
  refine (θ_run Cert.ReferenceIdeal.defs _ _).mono (fun _ h c => ⟨?_, (h c).2⟩) (Cert.ReferenceIdeal.Value.run (F := Ideal) m' ρ')
  rw [(h c).1, Cert.ReferenceIdeal.Read.val_main_v47_eq, Cert.Contrastive.RefValue.ref_value, (hagree c).1, (hagree c).2]
  rfl

theorem claim : Cert.Claim := ⟨Cert.Kernel.Gen.facts, Cert.KernelIdeal.Gen.facts, Cert.ReferenceIdeal.Gen.facts, Cert.Pre_finite_inputs.Gen.facts,
  frame_kernel, frame_kernelIdeal, Cert.Contrastive.RefFrame.frame_ri, preserves, algebraic⟩

end Cert.Proof

end
